-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S20x1024x1024 : Shape := ⟨3, ![20, 1024, 1024]⟩
abbrev S20x1024 : Shape := ⟨2, ![20, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S20x1024x1024 : S_.BroadcastsInDim S20x1024x1024 (![] : Fin 0 → Fin S20x1024x1024.rank)
  reducesTo_S20x1024x1024_S_d0_1_2 : S20x1024x1024.ReducesTo [0, 1, 2] S_
  bcast_S_S20x1024 : S_.BroadcastsInDim S20x1024 (![] : Fin 0 → Fin S20x1024.rank)
  reducesTo_S20x1024_S_d0_1 : S20x1024.ReducesTo [0, 1] S_

variable [Facts]

def fn {F : FTy → Type} [FloatOps F] (main_arg0 : FVec F S4096x1024 .f32) (main_arg1 : FVec F S20x1024x1024 .f32) (main_arg2 : FVec F S20x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S20x1024x1024 .f32 := Host.absf main_arg1
  let main_cst_0 : FVec F S_ .f32 := constant S_ .f32 0x7F800000#32
  let main_v5 : FVec F S20x1024x1024 .f32 := broadcastInDim S20x1024x1024 ![] bcast_S_S20x1024x1024 main_cst_0
  let main_v6 : IVec S20x1024x1024 1 := cmpf .olt main_v4 main_v5
  let main_c_1 : IVec S_ 1 := constantI S_ 1 1#1
  let main_v7 : IVec S_ 1 := (fun x v => Host.reduce IntOp.andi x v reducesTo_S20x1024x1024_S_d0_1_2 h_S_) main_v6 main_c_1
  let main_v8 : IVec S_ 1 := andi main_v3 main_v7
  let main_v9 : FVec F S20x1024 .f32 := Host.absf main_arg2
  let main_cst_2 : FVec F S_ .f32 := constant S_ .f32 0x7F800000#32
  let main_v10 : FVec F S20x1024 .f32 := broadcastInDim S20x1024 ![] bcast_S_S20x1024 main_cst_2
  let main_v11 : IVec S20x1024 1 := cmpf .olt main_v9 main_v10
  let main_c_3 : IVec S_ 1 := constantI S_ 1 1#1
  let main_v12 : IVec S_ 1 := (fun x v => Host.reduce IntOp.andi x v reducesTo_S20x1024_S_d0_1 h_S_) main_v11 main_c_3
  let main_v13 : IVec S_ 1 := andi main_v8 main_v12
  main_v13
-- ==== Kernel.lean ====
abbrev S4096x1024 : Shape := ⟨2, ![4096, 1024]⟩
abbrev S20x1024x1024 : Shape := ⟨3, ![20, 1024, 1024]⟩
abbrev S20x1024 : Shape := ⟨2, ![20, 1024]⟩
abbrev S20x1x1024 : Shape := ⟨3, ![20, 1, 1024]⟩
abbrev S1024x1024 : Shape := ⟨2, ![1024, 1024]⟩
abbrev S1x1024x1024 : Shape := ⟨3, ![1, 1024, 1024]⟩
abbrev S1x1x1024 : Shape := ⟨3, ![1, 1, 1024]⟩
abbrev S1032x1024 : Shape := ⟨2, ![1032, 1024]⟩
abbrev S1x1024 : Shape := ⟨2, ![1, 1024]⟩
abbrev S8x1024 : Shape := ⟨2, ![8, 1024]⟩

abbrev nBuf : Space → Nat
  | .hbm => 5
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S20x1024x1024, .f32⟩
  | .hbm, ⟨2, _⟩ => ⟨S20x1024, .f32⟩
  | .hbm, ⟨3, _⟩ => ⟨S20x1x1024, .f32⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x1024, .f32⟩
  | .local _ .vmem, ⟨19, _⟩ => ⟨S1024x1024, .f32⟩
  | .local _ .vmem, ⟨20, _⟩ => ⟨S1032x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![9], ![false]⟩

def k0_cond3 (i : grid0.Coords) : BitVec 1 :=
  let arg0 : BitVec 32 := BitVec.ofNat 32 (i 0).val
  let c5_i32_3 : BitVec 32 := 5#32
  let v8 : BitVec 1 := Scalar.cmpi .sge arg0 c5_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c0_i32 : BitVec 32 := 0#32
  let v2 : BitVec 32 := Scalar.addi v1 c0_i32
  let c0_i32_1 : BitVec 32 := 0#32
  let c0_i32_2 : BitVec 32 := 0#32
  let c0_i32_3 : BitVec 32 := 0#32
  ![v2.toNat, c0_i32_1.toNat, c0_i32_2.toNat]

def cc0_transform_2 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c1_i32 : BitVec 32 := 1#32
  let v2 : BitVec 32 := Scalar.addi v1 c1_i32
  let c0_i32 : BitVec 32 := 0#32
  let c0_i32_1 : BitVec 32 := 0#32
  let c0_i32_2 : BitVec 32 := 0#32
  ![v2.toNat, c0_i32.toNat, c0_i32_1.toNat]

def cc0_transform_3 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c2_i32 : BitVec 32 := 2#32
  let v2 : BitVec 32 := Scalar.addi v1 c2_i32
  let c0_i32 : BitVec 32 := 0#32
  let c0_i32_1 : BitVec 32 := 0#32
  let c0_i32_2 : BitVec 32 := 0#32
  ![v2.toNat, c0_i32.toNat, c0_i32_1.toNat]

def cc0_transform_4 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c3_i32 : BitVec 32 := 3#32
  let v2 : BitVec 32 := Scalar.addi v1 c3_i32
  let c0_i32 : BitVec 32 := 0#32
  let c0_i32_1 : BitVec 32 := 0#32
  let c0_i32_2 : BitVec 32 := 0#32
  ![v2.toNat, c0_i32.toNat, c0_i32_1.toNat]

def cc0_transform_5 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c0_i32 : BitVec 32 := 0#32
  let v2 : BitVec 32 := Scalar.addi v1 c0_i32
  let c0_i32_1 : BitVec 32 := 0#32
  let c0_i32_2 : BitVec 32 := 0#32
  let c0_i32_3 : BitVec 32 := 0#32
  ![v2.toNat, c0_i32_1.toNat, c0_i32_2.toNat]

def cc0_transform_6 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c1_i32 : BitVec 32 := 1#32
  let v2 : BitVec 32 := Scalar.addi v1 c1_i32
  let c0_i32 : BitVec 32 := 0#32
  let c0_i32_1 : BitVec 32 := 0#32
  let c0_i32_2 : BitVec 32 := 0#32
  ![v2.toNat, c0_i32.toNat, c0_i32_1.toNat]

def cc0_transform_7 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c2_i32 : BitVec 32 := 2#32
  let v2 : BitVec 32 := Scalar.addi v1 c2_i32
  let c0_i32 : BitVec 32 := 0#32
  let c0_i32_1 : BitVec 32 := 0#32
  let c0_i32_2 : BitVec 32 := 0#32
  ![v2.toNat, c0_i32.toNat, c0_i32_1.toNat]

def cc0_transform_8 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c3_i32 : BitVec 32 := 3#32
  let v2 : BitVec 32 := Scalar.addi v1 c3_i32
  let c0_i32 : BitVec 32 := 0#32
  let c0_i32_1 : BitVec 32 := 0#32
  let c0_i32_2 : BitVec 32 := 0#32
  ![v2.toNat, c0_i32.toNat, c0_i32_1.toNat]

def cc0_transform_9 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S20x1024_S20x1x1024 : S20x1024.ShapeCasts S20x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1024 : S1x1024.ShapeCasts S1x1024
  broadcasts_S1x1024_S8x1024 : S1x1024.Broadcasts S8x1024
  concatenates_S1024x1024_S8x1024_S1032x1024_d0 : Shape.Concatenates [S1024x1024, S8x1024] S1032x1024 0
  bitsLt_bf16_f32 : FTy.bits .bf16 < FTy.bits .f32
  slices_S1032x1024_o0_0_S1024x1024 : S1032x1024.Slices ![0, 0] S1024x1024
  slices_S1032x1024_o1024_0_S8x1024 : S1032x1024.Slices ![1024, 0] S8x1024
  inb_S1032x1024_S1032x1024_0_0 : ∀ a, (![0, 0] : Fin 2 → Nat) a + S1032x1024.size a ≤ S1032x1024.size a
  h_S1032x1024 : 0 < S1032x1024.numel
  shapeCasts_S1032x1024_S1032x1024 : S1032x1024.ShapeCasts S1032x1024
  inb_S1024x1024_S1024x1024_0_0 : ∀ a, (![0, 0] : Fin 2 → Nat) a + S1024x1024.size a ≤ S1024x1024.size a
  h_S1024x1024 : 0 < S1024x1024.numel
  inb_S1032x1024_S1024x1024_0_0 : ∀ a, (![0, 0] : Fin 2 → Nat) a + S1024x1024.size a ≤ S1032x1024.size a
  inb_S1032x1024_S1x1024_1024_0 : ∀ a, (![1024, 0] : Fin 2 → Nat) a + S1x1024.size a ≤ S1032x1024.size a
  h_S1x1024 : 0 < S1x1024.numel
  broadcasts_S1x1024_S1024x1024 : S1x1024.Broadcasts S1024x1024
  dot_S1032x1024_S1024x1024_S1032x1024_1_1_0_0_n_n_wf : DotDims.WF S1032x1024 S1024x1024 S1032x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S20x1024x1024.size a
  hwx0_1 : ∀ i : grid0.Coords, EltTy.bits .f32 = 32 ∨ (Rect.block (s := S20x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S20x1024x1024.size a
  hwx0_2 : ∀ i : grid0.Coords, EltTy.bits .f32 = 32 ∨ (Rect.block (s := S20x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S20x1024x1024.size a
  hwx0_3 : ∀ i : grid0.Coords, EltTy.bits .f32 = 32 ∨ (Rect.block (s := S20x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S20x1024x1024.size a
  hwx0_4 : ∀ i : grid0.Coords, EltTy.bits .f32 = 32 ∨ (Rect.block (s := S20x1024x1024) S1x1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S20x1x1024.size a
  hwx0_5 : ∀ i : grid0.Coords, EltTy.bits .f32 = 32 ∨ (Rect.block (s := S20x1x1024) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S20x1x1024.size a
  hwx0_6 : ∀ i : grid0.Coords, EltTy.bits .f32 = 32 ∨ (Rect.block (s := S20x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S20x1x1024.size a
  hwx0_7 : ∀ i : grid0.Coords, EltTy.bits .f32 = 32 ∨ (Rect.block (s := S20x1x1024) S1x1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S20x1x1024.size a
  hwx0_8 : ∀ i : grid0.Coords, EltTy.bits .f32 = 32 ∨ (Rect.block (s := S20x1x1024) S1x1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S4096x1024.size a
  hwx0_9 : ∀ i : grid0.Coords, EltTy.bits .f32 = 32 ∨ (Rect.block (s := S4096x1024) S1024x1024.size (cc0_transform_9 i) (hinb0_9 i)).WholeWords (EltTy.packing .f32)

variable [Facts₀]

def dot_S1032x1024_S1024x1024_S1032x1024_1_1_0_0_n_n : DotDims S1032x1024 S1024x1024 S1032x1024 where
  lhsContracting := [1]
  rhsContracting := [1]
  lhsNonContracting := [0]
  rhsNonContracting := [0]
  lhsBatch := []
  rhsBatch := []
  wf := dot_S1032x1024_S1024x1024_S1032x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x1x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond3 i == 1#1) | ⟨_ + 10, h⟩ => absurd h (Nat.not_lt.2 (Nat.le_add_left _ _))

class Facts : Prop extends Facts₀ where

variable [Facts]
-- ==== ReferenceIdeal.lean ====
abbrev S4096x1024 : Shape := ⟨2, ![4096, 1024]⟩
abbrev S20x1024x1024 : Shape := ⟨3, ![20, 1024, 1024]⟩
abbrev S20x1024 : Shape := ⟨2, ![20, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 183
  | .vmem => 0
  | .smem => 0
  | _ => 0

abbrev hbmTy0_0 (i : Nat) : BufTy := match i % 128 with
  | 0 => ⟨S4096x1024, .f32⟩
  | 1 => ⟨S20x1024x1024, .f32⟩
  | 2 => ⟨S20x1024, .f32⟩
  | 3 => ⟨S1x1024x1024, .f32⟩
  | 4 => ⟨S1024x1024, .f32⟩
  | 5 => ⟨S1024x1024, .f32⟩
  | 6 => ⟨S4096x1024, .f32⟩
  | 7 => ⟨S1x1024, .f32⟩
  | 8 => ⟨S1024, .f32⟩
  | 9 => ⟨S1x1024, .f32⟩
  | 10 => ⟨S4096x1024, .f32⟩
  | 11 => ⟨S4096x1024, .f32⟩
  | 12 => ⟨S1x1024x1024, .f32⟩
  | 13 => ⟨S1024x1024, .f32⟩
  | 14 => ⟨S1024x1024, .f32⟩
  | 15 => ⟨S4096x1024, .f32⟩
  | 16 => ⟨S1x1024, .f32⟩
  | 17 => ⟨S1024, .f32⟩
  | 18 => ⟨S1x1024, .f32⟩
  | 19 => ⟨S4096x1024, .f32⟩
  | 20 => ⟨S4096x1024, .f32⟩
  | 21 => ⟨S1x1024x1024, .f32⟩
  | 22 => ⟨S1024x1024, .f32⟩
  | 23 => ⟨S1024x1024, .f32⟩
  | 24 => ⟨S4096x1024, .f32⟩
  | 25 => ⟨S1x1024, .f32⟩
  | 26 => ⟨S1024, .f32⟩
  | 27 => ⟨S1x1024, .f32⟩
  | 28 => ⟨S4096x1024, .f32⟩
  | 29 => ⟨S4096x1024, .f32⟩
  | 30 => ⟨S1x1024x1024, .f32⟩
  | 31 => ⟨S1024x1024, .f32⟩
  | 32 => ⟨S1024x1024, .f32⟩
  | 33 => ⟨S4096x1024, .f32⟩
  | 34 => ⟨S1x1024, .f32⟩
  | 35 => ⟨S1024, .f32⟩
  | 36 => ⟨S1x1024, .f32⟩
  | 37 => ⟨S4096x1024, .f32⟩
  | 38 => ⟨S4096x1024, .f32⟩
  | 39 => ⟨S1x1024x1024, .f32⟩
  | 40 => ⟨S1024x1024, .f32⟩
  | 41 => ⟨S1024x1024, .f32⟩
  | 42 => ⟨S4096x1024, .f32⟩
  | 43 => ⟨S1x1024, .f32⟩
  | 44 => ⟨S1024, .f32⟩
  | 45 => ⟨S1x1024, .f32⟩
  | 46 => ⟨S4096x1024, .f32⟩
  | 47 => ⟨S4096x1024, .f32⟩
  | 48 => ⟨S1x1024x1024, .f32⟩
  | 49 => ⟨S1024x1024, .f32⟩
  | 50 => ⟨S1024x1024, .f32⟩
  | 51 => ⟨S4096x1024, .f32⟩
  | 52 => ⟨S1x1024, .f32⟩
  | 53 => ⟨S1024, .f32⟩
  | 54 => ⟨S1x1024, .f32⟩
  | 55 => ⟨S4096x1024, .f32⟩
  | 56 => ⟨S4096x1024, .f32⟩
  | 57 => ⟨S1x1024x1024, .f32⟩
  | 58 => ⟨S1024x1024, .f32⟩
  | 59 => ⟨S1024x1024, .f32⟩
  | 60 => ⟨S4096x1024, .f32⟩
  | 61 => ⟨S1x1024, .f32⟩
  | 62 => ⟨S1024, .f32⟩
  | 63 => ⟨S1x1024, .f32⟩
  | 64 => ⟨S4096x1024, .f32⟩
  | 65 => ⟨S4096x1024, .f32⟩
  | 66 => ⟨S1x1024x1024, .f32⟩
  | 67 => ⟨S1024x1024, .f32⟩
  | 68 => ⟨S1024x1024, .f32⟩
  | 69 => ⟨S4096x1024, .f32⟩
  | 70 => ⟨S1x1024, .f32⟩
  | 71 => ⟨S1024, .f32⟩
  | 72 => ⟨S1x1024, .f32⟩
  | 73 => ⟨S4096x1024, .f32⟩
  | 74 => ⟨S4096x1024, .f32⟩
  | 75 => ⟨S1x1024x1024, .f32⟩
  | 76 => ⟨S1024x1024, .f32⟩
  | 77 => ⟨S1024x1024, .f32⟩
  | 78 => ⟨S4096x1024, .f32⟩
  | 79 => ⟨S1x1024, .f32⟩
  | 80 => ⟨S1024, .f32⟩
  | 81 => ⟨S1x1024, .f32⟩
  | 82 => ⟨S4096x1024, .f32⟩
  | 83 => ⟨S4096x1024, .f32⟩
  | 84 => ⟨S1x1024x1024, .f32⟩
  | 85 => ⟨S1024x1024, .f32⟩
  | 86 => ⟨S1024x1024, .f32⟩
  | 87 => ⟨S4096x1024, .f32⟩
  | 88 => ⟨S1x1024, .f32⟩
  | 89 => ⟨S1024, .f32⟩
  | 90 => ⟨S1x1024, .f32⟩
  | 91 => ⟨S4096x1024, .f32⟩
  | 92 => ⟨S4096x1024, .f32⟩
  | 93 => ⟨S1x1024x1024, .f32⟩
  | 94 => ⟨S1024x1024, .f32⟩
  | 95 => ⟨S1024x1024, .f32⟩
  | 96 => ⟨S4096x1024, .f32⟩
  | 97 => ⟨S1x1024, .f32⟩
  | 98 => ⟨S1024, .f32⟩
  | 99 => ⟨S1x1024, .f32⟩
  | 100 => ⟨S4096x1024, .f32⟩
  | 101 => ⟨S4096x1024, .f32⟩
  | 102 => ⟨S1x1024x1024, .f32⟩
  | 103 => ⟨S1024x1024, .f32⟩
  | 104 => ⟨S1024x1024, .f32⟩
  | 105 => ⟨S4096x1024, .f32⟩
  | 106 => ⟨S1x1024, .f32⟩
  | 107 => ⟨S1024, .f32⟩
  | 108 => ⟨S1x1024, .f32⟩
  | 109 => ⟨S4096x1024, .f32⟩
  | 110 => ⟨S4096x1024, .f32⟩
  | 111 => ⟨S1x1024x1024, .f32⟩
  | 112 => ⟨S1024x1024, .f32⟩
  | 113 => ⟨S1024x1024, .f32⟩
  | 114 => ⟨S4096x1024, .f32⟩
  | 115 => ⟨S1x1024, .f32⟩
  | 116 => ⟨S1024, .f32⟩
  | 117 => ⟨S1x1024, .f32⟩
  | 118 => ⟨S4096x1024, .f32⟩
  | 119 => ⟨S4096x1024, .f32⟩
  | 120 => ⟨S1x1024x1024, .f32⟩
  | 121 => ⟨S1024x1024, .f32⟩
  | 122 => ⟨S1024x1024, .f32⟩
  | 123 => ⟨S4096x1024, .f32⟩
  | 124 => ⟨S1x1024, .f32⟩
  | 125 => ⟨S1024, .f32⟩
  | 126 => ⟨S1x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S1x1024x1024, .f32⟩
  | 2 => ⟨S1024x1024, .f32⟩
  | 3 => ⟨S1024x1024, .f32⟩
  | 4 => ⟨S4096x1024, .f32⟩
  | 5 => ⟨S1x1024, .f32⟩
  | 6 => ⟨S1024, .f32⟩
  | 7 => ⟨S1x1024, .f32⟩
  | 8 => ⟨S4096x1024, .f32⟩
  | 9 => ⟨S4096x1024, .f32⟩
  | 10 => ⟨S1x1024x1024, .f32⟩
  | 11 => ⟨S1024x1024, .f32⟩
  | 12 => ⟨S1024x1024, .f32⟩
  | 13 => ⟨S4096x1024, .f32⟩
  | 14 => ⟨S1x1024, .f32⟩
  | 15 => ⟨S1024, .f32⟩
  | 16 => ⟨S1x1024, .f32⟩
  | 17 => ⟨S4096x1024, .f32⟩
  | 18 => ⟨S4096x1024, .f32⟩
  | 19 => ⟨S1x1024x1024, .f32⟩
  | 20 => ⟨S1024x1024, .f32⟩
  | 21 => ⟨S1024x1024, .f32⟩
  | 22 => ⟨S4096x1024, .f32⟩
  | 23 => ⟨S1x1024, .f32⟩
  | 24 => ⟨S1024, .f32⟩
  | 25 => ⟨S1x1024, .f32⟩
  | 26 => ⟨S4096x1024, .f32⟩
  | 27 => ⟨S4096x1024, .f32⟩
  | 28 => ⟨S1x1024x1024, .f32⟩
  | 29 => ⟨S1024x1024, .f32⟩
  | 30 => ⟨S1024x1024, .f32⟩
  | 31 => ⟨S4096x1024, .f32⟩
  | 32 => ⟨S1x1024, .f32⟩
  | 33 => ⟨S1024, .f32⟩
  | 34 => ⟨S1x1024, .f32⟩
  | 35 => ⟨S4096x1024, .f32⟩
  | 36 => ⟨S4096x1024, .f32⟩
  | 37 => ⟨S1x1024x1024, .f32⟩
  | 38 => ⟨S1024x1024, .f32⟩
  | 39 => ⟨S1024x1024, .f32⟩
  | 40 => ⟨S4096x1024, .f32⟩
  | 41 => ⟨S1x1024, .f32⟩
  | 42 => ⟨S1024, .f32⟩
  | 43 => ⟨S1x1024, .f32⟩
  | 44 => ⟨S4096x1024, .f32⟩
  | 45 => ⟨S4096x1024, .f32⟩
  | 46 => ⟨S1x1024x1024, .f32⟩
  | 47 => ⟨S1024x1024, .f32⟩
  | 48 => ⟨S1024x1024, .f32⟩
  | 49 => ⟨S4096x1024, .f32⟩
  | 50 => ⟨S1x1024, .f32⟩
  | 51 => ⟨S1024, .f32⟩
  | 52 => ⟨S1x1024, .f32⟩
  | 53 => ⟨S4096x1024, .f32⟩
  | 54 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_v157 : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_v161 : Ref sig .tc := ⟨.hbm, 164, rfl⟩
abbrev main_v162 : Ref sig .tc := ⟨.hbm, 165, rfl⟩
abbrev main_v163 : Ref sig .tc := ⟨.hbm, 166, rfl⟩
abbrev main_v164 : Ref sig .tc := ⟨.hbm, 167, rfl⟩
abbrev main_v165 : Ref sig .tc := ⟨.hbm, 168, rfl⟩
abbrev main_v166 : Ref sig .tc := ⟨.hbm, 169, rfl⟩
abbrev main_v167 : Ref sig .tc := ⟨.hbm, 170, rfl⟩
abbrev main_v168 : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_v173 : Ref sig .tc := ⟨.hbm, 176, rfl⟩
abbrev main_v174 : Ref sig .tc := ⟨.hbm, 177, rfl⟩
abbrev main_v175 : Ref sig .tc := ⟨.hbm, 178, rfl⟩
abbrev main_v176 : Ref sig .tc := ⟨.hbm, 179, rfl⟩
abbrev main_v177 : Ref sig .tc := ⟨.hbm, 180, rfl⟩
abbrev main_v178 : Ref sig .tc := ⟨.hbm, 181, rfl⟩
abbrev main_v179 : Ref sig .tc := ⟨.hbm, 182, rfl⟩

abbrev nD : Nat := 1
abbrev τ : Topo := Topo.v7x

variable {F : FTy → Type} [FloatOps F]

class Facts₀ : Prop where
  slices_S20x1024x1024_S1x1024x1024_0_0_0 : S20x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  slices_S20x1024_S1x1024_0_0 : S20x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S20x1024x1024_S1x1024x1024_1_0_0 : S20x1024x1024.Slices ![1, 0, 0] S1x1024x1024
  slices_S20x1024_S1x1024_1_0 : S20x1024.Slices ![1, 0] S1x1024
  slices_S20x1024x1024_S1x1024x1024_2_0_0 : S20x1024x1024.Slices ![2, 0, 0] S1x1024x1024
  slices_S20x1024_S1x1024_2_0 : S20x1024.Slices ![2, 0] S1x1024
  slices_S20x1024x1024_S1x1024x1024_3_0_0 : S20x1024x1024.Slices ![3, 0, 0] S1x1024x1024
  slices_S20x1024_S1x1024_3_0 : S20x1024.Slices ![3, 0] S1x1024
  slices_S20x1024x1024_S1x1024x1024_4_0_0 : S20x1024x1024.Slices ![4, 0, 0] S1x1024x1024
  slices_S20x1024_S1x1024_4_0 : S20x1024.Slices ![4, 0] S1x1024
  slices_S20x1024x1024_S1x1024x1024_5_0_0 : S20x1024x1024.Slices ![5, 0, 0] S1x1024x1024
  slices_S20x1024_S1x1024_5_0 : S20x1024.Slices ![5, 0] S1x1024
  slices_S20x1024x1024_S1x1024x1024_6_0_0 : S20x1024x1024.Slices ![6, 0, 0] S1x1024x1024
  slices_S20x1024_S1x1024_6_0 : S20x1024.Slices ![6, 0] S1x1024
  slices_S20x1024x1024_S1x1024x1024_7_0_0 : S20x1024x1024.Slices ![7, 0, 0] S1x1024x1024
  slices_S20x1024_S1x1024_7_0 : S20x1024.Slices ![7, 0] S1x1024
  slices_S20x1024x1024_S1x1024x1024_8_0_0 : S20x1024x1024.Slices ![8, 0, 0] S1x1024x1024
  slices_S20x1024_S1x1024_8_0 : S20x1024.Slices ![8, 0] S1x1024
  slices_S20x1024x1024_S1x1024x1024_9_0_0 : S20x1024x1024.Slices ![9, 0, 0] S1x1024x1024
  slices_S20x1024_S1x1024_9_0 : S20x1024.Slices ![9, 0] S1x1024
  slices_S20x1024x1024_S1x1024x1024_10_0_0 : S20x1024x1024.Slices ![10, 0, 0] S1x1024x1024
  slices_S20x1024_S1x1024_10_0 : S20x1024.Slices ![10, 0] S1x1024
  slices_S20x1024x1024_S1x1024x1024_11_0_0 : S20x1024x1024.Slices ![11, 0, 0] S1x1024x1024
  slices_S20x1024_S1x1024_11_0 : S20x1024.Slices ![11, 0] S1x1024
  slices_S20x1024x1024_S1x1024x1024_12_0_0 : S20x1024x1024.Slices ![12, 0, 0] S1x1024x1024
  slices_S20x1024_S1x1024_12_0 : S20x1024.Slices ![12, 0] S1x1024
  slices_S20x1024x1024_S1x1024x1024_13_0_0 : S20x1024x1024.Slices ![13, 0, 0] S1x1024x1024
  slices_S20x1024_S1x1024_13_0 : S20x1024.Slices ![13, 0] S1x1024
  slices_S20x1024x1024_S1x1024x1024_14_0_0 : S20x1024x1024.Slices ![14, 0, 0] S1x1024x1024
  slices_S20x1024_S1x1024_14_0 : S20x1024.Slices ![14, 0] S1x1024
  slices_S20x1024x1024_S1x1024x1024_15_0_0 : S20x1024x1024.Slices ![15, 0, 0] S1x1024x1024
  slices_S20x1024_S1x1024_15_0 : S20x1024.Slices ![15, 0] S1x1024
  slices_S20x1024x1024_S1x1024x1024_16_0_0 : S20x1024x1024.Slices ![16, 0, 0] S1x1024x1024
  slices_S20x1024_S1x1024_16_0 : S20x1024.Slices ![16, 0] S1x1024
  slices_S20x1024x1024_S1x1024x1024_17_0_0 : S20x1024x1024.Slices ![17, 0, 0] S1x1024x1024
  slices_S20x1024_S1x1024_17_0 : S20x1024.Slices ![17, 0] S1x1024
  slices_S20x1024x1024_S1x1024x1024_18_0_0 : S20x1024x1024.Slices ![18, 0, 0] S1x1024x1024
  slices_S20x1024_S1x1024_18_0 : S20x1024.Slices ![18, 0] S1x1024
  slices_S20x1024x1024_S1x1024x1024_19_0_0 : S20x1024x1024.Slices ![19, 0, 0] S1x1024x1024
  slices_S20x1024_S1x1024_19_0 : S20x1024.Slices ![19, 0] S1x1024
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.K.Shared.lean ====
/-
  What the three runs of the kernel body share: the arrays as the region finds them, each window's block at a
  grid point, which of the body's three branches a grid point takes (point 0 builds the augmented accumulator from
  the first four layers; points 1 to 4 fold four more layers each into it; points 5 to 8 apply it to a tile of
  rows), where the output window is idle, and the memrefs the body is called with.
-/
import proofs.«155183_g15564961481514_cont_week2b_1535_23_alg».proof.Proof.Gen.Kernel.Launch
import proofs.«155183_g15564961481514_cont_week2b_1535_23_alg».proof.Proof.Gen.Kernel.Skeleton
import proofs.«155183_g15564961481514_cont_week2b_1535_23_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffers when the region is entered: after the one host operation before it (the biases
    reshaped from 20×1024 to 20×1×1024). -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The reshape writes only its own result: argument 0 is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The reshape writes only its own result: argument 1 is found as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The reshape writes only its own result: argument 2 is found as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not: where it is not
    fetched its block index has not moved. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## Which branch a grid point takes -/

/-- Branch one: the first grid point. -/
abbrev condA (i : grid0.Coords) : Prop := (Scalar.cmpi .ne (Scalar.extui (Scalar.cmpi .eq (BitVec.ofNat 32 (i 0).val) 0#32)) 0#32) = 1#1
theorem hcondA : ∀ t : Fin cfg0.N, condA (grid0.coords t) ↔ t.val = 0 :=
  (by decide +kernel : ∀ t : Fin grid0.N, condA (grid0.coords t) ↔ t.val = 0)

/-- Branch two: points 1 to 4. -/
abbrev condB (i : grid0.Coords) : Prop := (Scalar.cmpi .ne (Scalar.extui (Scalar.andi (Scalar.cmpi .sgt (BitVec.ofNat 32 (i 0).val) 0#32) (Scalar.cmpi .slt (BitVec.ofNat 32 (i 0).val) 5#32))) 0#32) = 1#1
theorem hcondB : ∀ t : Fin cfg0.N, condB (grid0.coords t) ↔ (0 < t.val ∧ t.val < 5) :=
  (by decide +kernel : ∀ t : Fin grid0.N, condB (grid0.coords t) ↔ (0 < t.val ∧ t.val < 5))

/-- Branch three: points 5 to 8. -/
abbrev condC (i : grid0.Coords) : Prop := k0_cond3 i = 1#1
theorem hcondC : ∀ t : Fin cfg0.N, condC (grid0.coords t) ↔ 5 ≤ t.val :=
  (by decide +kernel : ∀ t : Fin grid0.N, condC (grid0.coords t) ↔ 5 ≤ t.val)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
/-- Before point 5 the body stores nothing into the output window: it is idle there, and not written back. -/
theorem idle_9 : ∀ t : Fin cfg0.N, ¬condC (grid0.coords t) → cfg0.idle 9 (grid0.coords t) = true := by decide +kernel
theorem noFlush_9 : ∀ t : Fin cfg0.N, ¬condC (grid0.coords t) → (cfg0.win 9).flush t = false := by decide +kernel
theorem live_9 : ∀ t : Fin cfg0.N, condC (grid0.coords t) → cfg0.idle 9 (grid0.coords t) = false := by decide +kernel

/-! ## The memrefs the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x1024 .f32 := win0_9.stage (cfg0.slots t 9)
abbrev hs9 (t : Fin cfg0.N) : (ms9 t).IsWhole := hstage0_9 ((cfg0.slots t 9).cast nbuf0_9)
/-- The scratch operand: the augmented accumulator, a whole buffer of the kernel's own. -/
abbrev scM : Memref sig .tc .vmem S1032x1024 .f32 := Memref.whole cc0_scratch0
/-- The views through which the output's and the accumulator's contents are stated. -/
abbrev VO : View sig .tc .vmem S1024x1024 .f32 := (Memref.whole cc0_stg9_0 : Memref sig .tc .vmem S1024x1024 .f32).view
abbrev VS : View sig .tc .vmem S1032x1024 .f32 := scM.view

/-- The invariant the launch hands the region: the accumulator at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Fr

end
-- ==== Proof.K.RunA.lean ====
/-
  The kernel body at the first grid point: it runs to the end holding every input window's buffer as it was and the
  output window's untouched, and leaves the accumulator written whole — the pieces it ends with are the ones its
  stores write.
-/
import proofs.«155183_g15564961481514_cont_week2b_1535_23_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in branch one (point 0), on whole memrefs: the inputs' at their contents, the output's at contents
    handed back untouched, the accumulator's at anything; it ends with the accumulator's buffer overwritten by
    the listed pieces. -/
noncomputable def runA (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : condA i) (hB : ¬condB i) (hC : ¬condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) :
    { LS : List (View.Piece (Elt F) S1032x1024 .f32) //
      ∀ (xo : Vec F S1024x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo ∗ (∃ f, arg11.view.loc (c : Thread nD τ) ↦[arg11.view.set]{fullShare} arg11.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun xo E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%ds, %fs, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hfo
    sl_exec (disch := first | exact hA | exact hB | exact hC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [Ho]
    · iexists _; isplitr; · ipureintro; exact harg10.read_unread _
      iexact Ho
    iexists _; iexact HS

end Cert.Kernel.Fr

end
-- ==== Proof.K.RunB.lean ====
/-
  The kernel body at grid points 1 to 4: it runs to the end holding every input window's buffer as it was and the
  output window's untouched, reads the accumulator the point before left and leaves it written whole.
-/
import proofs.«155183_g15564961481514_cont_week2b_1535_23_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in branch two, on whole memrefs: the inputs' at their contents, the output's handed back
    untouched, the accumulator's at the contents `xs` the point before left; it ends with the accumulator's
    buffer overwritten by the listed pieces. -/
noncomputable def runB (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : condB i) (hC : ¬condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (xs : Vec F S1032x1024 .f32) :
    { LS : List (View.Piece (Elt F) S1032x1024 .f32) //
      ∀ (xo : Vec F S1024x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo ∗ owns (c : Thread nD τ) arg11 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo ∗ (∃ f, arg11.view.loc (c : Thread nD τ) ↦[arg11.view.set]{fullShare} arg11.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun xo E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hfo; obtain rfl := harg11.eq_unread hfs
    sl_exec (disch := first | exact hA | exact hB | exact hC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [Ho]
    · iexists _; isplitr; · ipureintro; exact harg10.read_unread _
      iexact Ho
    iexists _; iexact HS

end Cert.Kernel.Fr

end
-- ==== Proof.K.RunC.lean ====
/-
  The kernel body at grid points 5 to 8: it runs to the end holding every input window's buffer and the
  accumulator as they were, and leaves the output window's buffer written whole.
-/
import proofs.«155183_g15564961481514_cont_week2b_1535_23_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in branch three, on whole memrefs: the inputs' at their contents, the accumulator's at the contents
    `xs` the point before left and kept, the output's at anything; it ends with the output's buffer overwritten
    by the listed pieces. -/
noncomputable def runC (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : ¬condB i) (hC : condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (xs : Vec F S1032x1024 .f32) :
    { LO : List (View.Piece (Elt F) S1024x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f LO) ∗ owns (c : Thread nD τ) arg11 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dd, %fo, -, Ho⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hfs
    sl_exec (disch := first | exact hA | exact hB | exact hC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [Ho]
    · iexists _; iexact Ho
    iexists _; isplitr; · ipureintro; exact harg11.read_unread _
    iexact HS

end Cert.Kernel.Fr

end
-- ==== Proof.K.Frame.lean ====
/-
  The frame of the kernel and what its output array holds: what each branch of the body leaves in the
  accumulator and in the output window (the stores' pieces read back), these carried from one grid point to the
  next, the proof data of the pipeline (each input window's buffer holds its block; the output window's buffer what
  branch three left; the accumulator what the point before left), the body's obligation at every grid point, and
  the launch. Two arrays are each read through four windows, so each is held in four shares, one per window.
-/
import proofs.«155183_g15564961481514_cont_week2b_1535_23_alg».proof.Proof.K.RunA
import proofs.«155183_g15564961481514_cont_week2b_1535_23_alg».proof.Proof.K.RunB
import proofs.«155183_g15564961481514_cont_week2b_1535_23_alg».proof.Proof.K.RunC
import Idealize.ShloMosaic.Lib.Pipeline.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each branch leaves -/

/-- Branch one's pieces cover the accumulator. -/
theorem coverA (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : condA i) (hB : ¬condB i) (hC : ¬condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (y : S1032x1024.Idx) :
    ∃ pc ∈ (runA c i arg1 harg1 arg2 harg2 arg3 harg3 arg4 harg4 arg5 harg5 arg6 harg6 arg7 harg7 arg8 harg8 arg9 harg9 arg10 harg10 arg11 harg11 hA hB hC x1 x2 x3 x4 x5 x6 x7 x8 x9).1, y ∈ pc.1.set :=
  View.cover_of_tiledL (runA c i arg1 harg1 arg2 harg2 arg3 harg3 arg4 harg4 arg5 harg5 arg6 harg6 arg7 harg7 arg8 harg8 arg9 harg9 arg10 harg10 arg11 harg11 hA hB hC x1 x2 x3 x4 x5 x6 x7 x8 x9).1 S1032x1024.size (by sl_kernel_rfl) y

/-- What branch one leaves in the accumulator. -/
def accA (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : condA i) (hB : ¬condB i) (hC : ¬condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) : Vec F S1032x1024 .f32 :=
  VS.read (Elt F) (VS.writes (Elt F) VS.junk (runA c i arg1 harg1 arg2 harg2 arg3 harg3 arg4 harg4 arg5 harg5 arg6 harg6 arg7 harg7 arg8 harg8 arg9 harg9 arg10 harg10 arg11 harg11 hA hB hC x1 x2 x3 x4 x5 x6 x7 x8 x9).1)

/-- Branch two's pieces cover the accumulator. -/
theorem coverB (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : condB i) (hC : ¬condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (xs : Vec F S1032x1024 .f32) (y : S1032x1024.Idx) :
    ∃ pc ∈ (runB c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs).1, y ∈ pc.1.set :=
  View.cover_of_tiledL (runB c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs).1 S1032x1024.size (by sl_kernel_rfl) y

/-- What branch two leaves in the accumulator. -/
def accB (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : condB i) (hC : ¬condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (xs : Vec F S1032x1024 .f32) : Vec F S1032x1024 .f32 :=
  VS.read (Elt F) (VS.writes (Elt F) VS.junk (runB c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs).1)

/-- Branch three's pieces cover the output window's block. -/
theorem coverC (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : ¬condB i) (hC : condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (xs : Vec F S1032x1024 .f32) (y : S1024x1024.Idx) :
    ∃ pc ∈ (runC c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs).1, y ∈ pc.1.set :=
  View.cover_of_tiledL (runC c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs).1 S1024x1024.size (by sl_kernel_rfl) y

/-- What branch three leaves in the output window's buffer. -/
def outC (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : ¬condB i) (hC : condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (xs : Vec F S1032x1024 .f32) : Vec F S1024x1024 .f32 :=
  VO.read (Elt F) (VO.writes (Elt F) VO.junk (runC c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs).1)

/-- Where the body stores nothing into the output window: a placeholder nothing consults. -/
def outIdle : Vec F S1024x1024 .f32 := VO.read (Elt F) VO.junk

/-! ## Point by point -/

theorem N9 : cfg0.N = 9 := N_0

/-- What the output window's buffer and the accumulator hold after the body at position `n`: at position 0 the
    accumulator branch one builds; at positions 1 to 4 the accumulator of the position before folded once more; from
    position 5 on the accumulator unchanged, and the output's buffer at what branch three computes from it. -/
def outsAt (c : Dev nD) : (n : ℕ) → n < cfg0.N → Vec F S1024x1024 .f32 × Vec F S1032x1024 .f32
  | 0, hn => (outIdle, accA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scM (Memref.isWhole_whole _) ((hcondA ⟨0, hn⟩).mpr rfl) (fun h => (fun h' => by (try dsimp only at h'); omega) ((hcondB ⟨0, hn⟩).mp h)) (fun h => (fun h' => by (try dsimp only at h'); omega) ((hcondC ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h5 : n + 1 < 5 then
      (outIdle, accB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scM (Memref.isWhole_whole _) (fun h => (fun h' => by (try dsimp only at h'); omega) ((hcondA ⟨n + 1, hn⟩).mp h)) ((hcondB ⟨n + 1, hn⟩).mpr (by (try dsimp only); omega)) (fun h => (fun h' => by (try dsimp only at h'); omega) ((hcondC ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt c n (Nat.lt_of_succ_lt hn)).2)
    else
      (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scM (Memref.isWhole_whole _) (fun h => (fun h' => by (try dsimp only at h'); omega) ((hcondA ⟨n + 1, hn⟩).mp h)) (fun h => (fun h' => by (try dsimp only at h'); omega) ((hcondB ⟨n + 1, hn⟩).mp h)) ((hcondC ⟨n + 1, hn⟩).mpr (by (try dsimp only); omega)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt c n (Nat.lt_of_succ_lt hn)).2, (outsAt c n (Nat.lt_of_succ_lt hn)).2)

theorem outsAt_A (c : Dev nD) (t : Fin cfg0.N) (h0 : t.val = 0) :
    outsAt m c t.val t.isLt = (outIdle, accA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcondA t).mpr h0) (fun h => (fun h' => by (try dsimp only at h'); omega) ((hcondB t).mp h)) (fun h => (fun h' => by (try dsimp only at h'); omega) ((hcondC t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact absurd h0 (Nat.succ_ne_zero n)

theorem outsAt_B (c : Dev nD) (t : Fin cfg0.N) (h0 : 0 < t.val) (h5 : t.val < 5) :
    outsAt m c t.val t.isLt = (outIdle, accB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun h => (fun h' => by (try dsimp only at h'); omega) ((hcondA t).mp h)) ((hcondB t).mpr (by (try dsimp only); omega)) (fun h => (fun h' => by (try dsimp only at h'); omega) ((hcondC t).mp h)) (iblk m c 0 t) (iblk m c 1 t) (iblk m c 2 t) (iblk m c 3 t) (iblk m c 4 t) (iblk m c 5 t) (iblk m c 6 t) (iblk m c 7 t) (iblk m c 8 t) (outsAt m c (t.val - 1) (Nat.lt_of_le_of_lt (Nat.sub_le _ _) t.isLt)).2) := by
  obtain ⟨n, hn⟩ := t
  cases n with
  | zero => exact absurd h0 (Nat.lt_irrefl 0)
  | succ n => exact (dif_pos h5).trans rfl

theorem outsAt_C (c : Dev nD) (t : Fin cfg0.N) (h5 : 5 ≤ t.val) :
    outsAt m c t.val t.isLt = (outC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun h => (fun h' => by (try dsimp only at h'); omega) ((hcondA t).mp h)) (fun h => (fun h' => by (try dsimp only at h'); omega) ((hcondB t).mp h)) ((hcondC t).mpr (by (try dsimp only); omega)) (iblk m c 0 t) (iblk m c 1 t) (iblk m c 2 t) (iblk m c 3 t) (iblk m c 4 t) (iblk m c 5 t) (iblk m c 6 t) (iblk m c 7 t) (iblk m c 8 t) (outsAt m c (t.val - 1) (Nat.lt_of_le_of_lt (Nat.sub_le _ _) t.isLt)).2, (outsAt m c (t.val - 1) (Nat.lt_of_le_of_lt (Nat.sub_le _ _) t.isLt)).2) := by
  obtain ⟨n, hn⟩ := t
  have h5' : 5 ≤ n := h5
  cases n with
  | zero => exact absurd h5' (by omega)
  | succ n => exact (dif_neg (by omega)).trans rfl

/-- The region's invariant before position `n`: the accumulator at anything before the first point, afterwards
    at what the point before left. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) : PhiS m c n h = iprop(∃ d, owns (c : Thread nD τ) scM fullShare d) := by
  subst hz; rfl
theorem PhiS_succ (c : Dev nD) (n : ℕ) (hn : n < cfg0.N) :
    PhiS m c (n + 1) hn = owns (c : Thread nD τ) scM fullShare ((outsAt m c n hn).2) := rfl
theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The shares the windows hold their arrays at: the weights' array is read through windows 1 to 4 and the
    reshaped biases' through windows 5 to 8, a quarter each. -/
def shareOf : Fin 10 → PosShare TreeShare
  | ⟨1, _⟩ => fullShare.left.left
  | ⟨2, _⟩ => fullShare.left.right
  | ⟨3, _⟩ => fullShare.right.left
  | ⟨4, _⟩ => fullShare.right.right
  | ⟨5, _⟩ => fullShare.left.left
  | ⟨6, _⟩ => fullShare.left.right
  | ⟨7, _⟩ => fullShare.right.left
  | ⟨8, _⟩ => fullShare.right.right
  | _ => fullShare

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
  Φ t := PhiS m c t.val (Nat.le_of_lt_succ t.isLt)
  q w := shareOf w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (outsAt m c t.val t.isLt).1 := by dsimp only [dats]

theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d
theorem before_3 (c : Dev nD) (t : Fin cfg0.N) (d) : (dats m 0 c).before 3 t d = iblk m c 3 t :=
  before_in_3 m (dats m 0 c) (A_eq m c 3) (after_3 m c) t d
theorem before_4 (c : Dev nD) (t : Fin cfg0.N) (d) : (dats m 0 c).before 4 t d = iblk m c 4 t :=
  before_in_4 m (dats m 0 c) (A_eq m c 4) (after_4 m c) t d
theorem before_5 (c : Dev nD) (t : Fin cfg0.N) (d) : (dats m 0 c).before 5 t d = iblk m c 5 t :=
  before_in_5 m (dats m 0 c) (A_eq m c 5) (after_5 m c) t d
theorem before_6 (c : Dev nD) (t : Fin cfg0.N) (d) : (dats m 0 c).before 6 t d = iblk m c 6 t :=
  before_in_6 m (dats m 0 c) (A_eq m c 6) (after_6 m c) t d
theorem before_7 (c : Dev nD) (t : Fin cfg0.N) (d) : (dats m 0 c).before 7 t d = iblk m c 7 t :=
  before_in_7 m (dats m 0 c) (A_eq m c 7) (after_7 m c) t d
theorem before_8 (c : Dev nD) (t : Fin cfg0.N) (d) : (dats m 0 c).before 8 t d = iblk m c 8 t :=
  before_in_8 m (dats m 0 c) (A_eq m c 8) (after_8 m c) t d

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any grid point: every input window's buffer holds its block; the point's position says which
    branch runs; the accumulator comes in at what the point before left and goes out at what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt N9
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  by_cases h0 : t.val = 0
  · have hnC : ¬condC (grid0.coords t) := fun h => absurd ((hcondC t).mp h) (by omega)
    rw [Dat.leavesExact_idle (dats m 0 c) 9 t (idle_9 t hnC) (noFlush_9 t hnC)]
    rw [outsAt_A m c t h0]
    unfold accA; (try dsimp only)
    rw [PhiS_castSucc m c t, PhiS_zero m c _ _ h0]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) _ _ _ _ _ _ _ _ _ _ _ _ _ _ _ _ _ _ _ _ _ _ ((hcondA t).mpr h0) (fun h => (fun h' => by (try dsimp only at h'); omega) ((hcondB t).mp h)) (fun h => (fun h' => by (try dsimp only at h'); omega) ((hcondC t).mp h)) (iblk m c 0 t) (iblk m c 1 t) (iblk m c 2 t) (iblk m c 3 t) (iblk m c 4 t) (iblk m c 5 t) (iblk m c 6 t) (iblk m c 7 t) (iblk m c 8 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, ⟨%es, HS⟩⟩
    isplitl [HS]
    · unfold owns; iexists _; isplitr
      swap; · iexact HS
      ipureintro; exact View.read_writes_of_cover _ _ _ _ _ (coverA c _ _ _ _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases h5 : t.val < 5
    · have hnC : ¬condC (grid0.coords t) := fun h => absurd ((hcondC t).mp h) (by omega)
      rw [Dat.leavesExact_idle (dats m 0 c) 9 t (idle_9 t hnC) (noFlush_9 t hnC)]
      rw [outsAt_B m c t (by omega) h5]
      unfold accB; (try dsimp only)
      rw [PhiS_castSucc m c t, PhiS_pos m c _ _ h0]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB c (grid0.coords t) _ _ _ _ _ _ _ _ _ _ _ _ _ _ _ _ _ _ _ _ _ _ (fun h => (fun h' => by (try dsimp only at h'); omega) ((hcondA t).mp h)) ((hcondB t).mpr (by (try dsimp only); omega)) (fun h => (fun h' => by (try dsimp only at h'); omega) ((hcondC t).mp h)) (iblk m c 0 t) (iblk m c 1 t) (iblk m c 2 t) (iblk m c 3 t) (iblk m c 4 t) (iblk m c 5 t) (iblk m c 6 t) (iblk m c 7 t) (iblk m c 8 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, ⟨%es, HS⟩⟩
      isplitl [HS]
      · unfold owns; iexists _; isplitr
        swap; · iexact HS
        ipureintro; exact View.read_writes_of_cover _ _ _ _ _ (coverB c _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · have hC : condC (grid0.coords t) := (hcondC t).mpr (by omega)
      rw [show (dats m 0 c).leavesExact 9 t = owns (c : Thread nD τ) (ms9 t) fullShare ((dats m 0 c).after 9 t) from by
        unfold Dat.leavesExact; rw [live_9 t hC], after_9]
      rw [outsAt_C m c t (by omega)]
      unfold outC; (try dsimp only)
      rw [PhiS_castSucc m c t, PhiS_pos m c _ _ h0]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC c (grid0.coords t) _ _ _ _ _ _ _ _ _ _ _ _ _ _ _ _ _ _ _ _ _ _ (fun h => (fun h' => by (try dsimp only at h'); omega) ((hcondA t).mp h)) (fun h => (fun h' => by (try dsimp only at h'); omega) ((hcondB t).mp h)) ((hcondC t).mpr (by (try dsimp only); omega)) (iblk m c 0 t) (iblk m c 1 t) (iblk m c 2 t) (iblk m c 3 t) (iblk m c 4 t) (iblk m c 5 t) (iblk m c 6 t) (iblk m c 7 t) (iblk m c 8 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, ⟨%e9, H9⟩, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (coverC c _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- What the launch hands the region is the invariant before the first point: the accumulator at anything. -/
theorem hin (c : Dev nD) : iprop((emp : sProp 𝕄) ∗ Pipeline.scopedRest spec0 c) ⊢ (dats m 0 c).Φ 0 := by
  rw [show (dats m 0 c).Φ 0 = PhiS m c 0 (Nat.zero_le _) from rfl, PhiS_zero m c 0 _ rfl, scopedRest0_eq]
  simp only [scM, owns_whole]
  iintro ⟨-, H⟩; iexact H

/-- After the last point the accumulator's contents are forgotten. -/
theorem hout (c : Dev nD) : (dats m 0 c).Φ (Fin.last cfg0.N) ⊢ iprop((emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have := N9; omega), scopedRest0_eq]
  simp only [scM, owns_whole]
  iintro H
  isplitr; · iempintro
  iexists _; iexact H

/-- The ten windows read four distinct buffers. -/
theorem bigSep_arrs (Φ : Ref sig .tc → sProp 𝕄) :
    bigSep (Finset.univ.image (Pipeline.arrRef spec0)) Φ = iprop(Φ main_arg0 ∗ Φ main_arg1 ∗ Φ main_v0 ∗ Φ main_v1) := by
  rw [show (Finset.univ.image (Pipeline.arrRef spec0)) = {main_arg0, main_arg1, main_v0, main_v1} from by decide,
    bigSep_insert (by decide), bigSep_insert (by decide), bigSep_insert (by decide), bigSep_singleton]
  rfl

/-- The four buffers behind the ten windows' arrays, each whole, dealt to the windows: the rows' array and the
    result's each to its one window, the weights' array in quarters to windows 1 to 4 and the reshaped biases'
    in quarters to windows 5 to 8. -/
theorem hsplit (c : Dev nD) :
    (Pipeline.arrBufs spec0 c (V m c) : sProp 𝕄) ⊢ (dats m 0 c).arrays ((dats m 0 c).arrAt · 0) := by
  have hset : ∀ w, (cfg0.win w).arr.view.set = Finset.univ := fun w => (arr_whole0 w).set_eq_univ
  unfold Pipeline.arrBufs Dat.arrays
  rw [bigSep_arrs, bigSep_W0]
  rw [hset 0, hset 1, hset 5, hset 9]
  show _ ⊢ (iprop(((c.tc : Thread nD τ).loc main_arg0 ↦{fullShare} V m c main_arg0)
    ∗ ((c.tc : Thread nD τ).loc main_arg1 ↦{fullShare.left.left} V m c main_arg1)
    ∗ ((c.tc : Thread nD τ).loc main_arg1 ↦{fullShare.left.right} V m c main_arg1)
    ∗ ((c.tc : Thread nD τ).loc main_arg1 ↦{fullShare.right.left} V m c main_arg1)
    ∗ ((c.tc : Thread nD τ).loc main_arg1 ↦{fullShare.right.right} V m c main_arg1)
    ∗ ((c.tc : Thread nD τ).loc main_v0 ↦{fullShare.left.left} V m c main_v0)
    ∗ ((c.tc : Thread nD τ).loc main_v0 ↦{fullShare.left.right} V m c main_v0)
    ∗ ((c.tc : Thread nD τ).loc main_v0 ↦{fullShare.right.left} V m c main_v0)
    ∗ ((c.tc : Thread nD τ).loc main_v0 ↦{fullShare.right.right} V m c main_v0)
    ∗ ((c.tc : Thread nD τ).loc main_v1 ↦{fullShare} V m c main_v1)) : sProp 𝕄)
  iintro ⟨H0, HW, HB, H9⟩
  ihave HW := (pointsTo_share (PosShare.mem_left_op_right fullShare)).1 $$ HW
  icases HW with ⟨HWl, HWr⟩
  ihave HWl := (pointsTo_share (PosShare.mem_left_op_right fullShare.left)).1 $$ HWl
  icases HWl with ⟨H1, H2⟩
  ihave HWr := (pointsTo_share (PosShare.mem_left_op_right fullShare.right)).1 $$ HWr
  icases HWr with ⟨H3, H4⟩
  ihave HB := (pointsTo_share (PosShare.mem_left_op_right fullShare)).1 $$ HB
  icases HB with ⟨HBl, HBr⟩
  ihave HBl := (pointsTo_share (PosShare.mem_left_op_right fullShare.left)).1 $$ HBl
  icases HBl with ⟨H5, H6⟩
  ihave HBr := (pointsTo_share (PosShare.mem_left_op_right fullShare.right)).1 $$ HBr
  icases HBr with ⟨H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The run's post: every window's array at what the library computes from the proof data, and the one
    buffer no window reads (the biases as passed) unchanged. -/
def RunPost (r : PUnit × MemSt nD τ sig (Elt F)) : Prop :=
  ∀ c : Dev nD, (∀ w, r.2.mem ((cfg0.spec w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- At the compiled mesh, for any values, from any memory with zero counters: every weakly fair execution of the
    program terminates, nothing faulting, in a state of `RunPost`. -/
theorem run_main : θ_run defs (onTc (τ := τ) (main (F := F))) ⟨m, fun _ => 0, ρ⟩ (RunPost m) :=
  Pipeline.θ_run_region_noSem_shared cfgs (dats m) () cellOf_inj (0 : Fin 1) winFacts₀0 (emb₁ : Emb (UR sig nD τ) 𝕄) defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp)) (Z := fun c => Pipeline.unscopedRest spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- info: 'Cert.Kernel.Fr.run_main' depends on axioms: [propext, Classical.choice, Quot.sound] -/
#guard_msgs in #print axioms run_main

/-- THE FRAME: the program runs to the end, nothing faulting, and its three argument arrays end as launched —
    the rows' and the weights' arrays are inputs of windows (never written), the biases' array bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 rfl (by decide))).trans (V_main_arg2 m c)⟩) (run_main m ρ)

end Cert.Kernel.Fr

end
-- ==== Proof.KI.Shared.lean ====
/-
  What the three runs of the kernel body share: the arrays as the region finds them, each window's block at a
  grid point, which of the body's three branches a grid point takes (point 0 builds the augmented accumulator from
  the first four layers; points 1 to 4 fold four more layers each into it; points 5 to 8 apply it to a tile of
  rows), where the output window is idle, and the memrefs the body is called with.
-/
import proofs.«155183_g15564961481514_cont_week2b_1535_23_alg».proof.Proof.Gen.KernelIdeal.Launch
import proofs.«155183_g15564961481514_cont_week2b_1535_23_alg».proof.Proof.Gen.KernelIdeal.Skeleton
import proofs.«155183_g15564961481514_cont_week2b_1535_23_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffers when the region is entered: after the one host operation before it (the biases
    reshaped from 20×1024 to 20×1×1024). -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The reshape writes only its own result: argument 0 is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The reshape writes only its own result: argument 1 is found as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The reshape writes only its own result: argument 2 is found as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not: where it is not
    fetched its block index has not moved. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## Which branch a grid point takes -/

/-- Branch one: the first grid point. -/
abbrev condA (i : grid0.Coords) : Prop := (Scalar.cmpi .ne (Scalar.extui (Scalar.cmpi .eq (BitVec.ofNat 32 (i 0).val) 0#32)) 0#32) = 1#1
theorem hcondA : ∀ t : Fin cfg0.N, condA (grid0.coords t) ↔ t.val = 0 :=
  (by decide +kernel : ∀ t : Fin grid0.N, condA (grid0.coords t) ↔ t.val = 0)

/-- Branch two: points 1 to 4. -/
abbrev condB (i : grid0.Coords) : Prop := (Scalar.cmpi .ne (Scalar.extui (Scalar.andi (Scalar.cmpi .sgt (BitVec.ofNat 32 (i 0).val) 0#32) (Scalar.cmpi .slt (BitVec.ofNat 32 (i 0).val) 5#32))) 0#32) = 1#1
theorem hcondB : ∀ t : Fin cfg0.N, condB (grid0.coords t) ↔ (0 < t.val ∧ t.val < 5) :=
  (by decide +kernel : ∀ t : Fin grid0.N, condB (grid0.coords t) ↔ (0 < t.val ∧ t.val < 5))

/-- Branch three: points 5 to 8. -/
abbrev condC (i : grid0.Coords) : Prop := k0_cond3 i = 1#1
theorem hcondC : ∀ t : Fin cfg0.N, condC (grid0.coords t) ↔ 5 ≤ t.val :=
  (by decide +kernel : ∀ t : Fin grid0.N, condC (grid0.coords t) ↔ 5 ≤ t.val)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
/-- Before point 5 the body stores nothing into the output window: it is idle there, and not written back. -/
theorem idle_9 : ∀ t : Fin cfg0.N, ¬condC (grid0.coords t) → cfg0.idle 9 (grid0.coords t) = true := by decide +kernel
theorem noFlush_9 : ∀ t : Fin cfg0.N, ¬condC (grid0.coords t) → (cfg0.win 9).flush t = false := by decide +kernel
theorem live_9 : ∀ t : Fin cfg0.N, condC (grid0.coords t) → cfg0.idle 9 (grid0.coords t) = false := by decide +kernel

/-! ## The memrefs the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x1024 .f32 := win0_9.stage (cfg0.slots t 9)
abbrev hs9 (t : Fin cfg0.N) : (ms9 t).IsWhole := hstage0_9 ((cfg0.slots t 9).cast nbuf0_9)
/-- The scratch operand: the augmented accumulator, a whole buffer of the kernel's own. -/
abbrev scM : Memref sig .tc .vmem S1032x1024 .f32 := Memref.whole cc0_scratch0
/-- The views through which the output's and the accumulator's contents are stated. -/
abbrev VO : View sig .tc .vmem S1024x1024 .f32 := (Memref.whole cc0_stg9_0 : Memref sig .tc .vmem S1024x1024 .f32).view
abbrev VS : View sig .tc .vmem S1032x1024 .f32 := scM.view

/-- The invariant the launch hands the region: the accumulator at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Fr

end
-- ==== Proof.KI.RunA.lean ====
/-
  The kernel body at the first grid point: it runs to the end holding every input window's buffer as it was and the
  output window's untouched, and leaves the accumulator written whole — the pieces it ends with are the ones its
  stores write.
-/
import proofs.«155183_g15564961481514_cont_week2b_1535_23_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in branch one (point 0), on whole memrefs: the inputs' at their contents, the output's at contents
    handed back untouched, the accumulator's at anything; it ends with the accumulator's buffer overwritten by
    the listed pieces. -/
noncomputable def runA (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : condA i) (hB : ¬condB i) (hC : ¬condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) :
    { LS : List (View.Piece (Elt F) S1032x1024 .f32) //
      ∀ (xo : Vec F S1024x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo ∗ (∃ f, arg11.view.loc (c : Thread nD τ) ↦[arg11.view.set]{fullShare} arg11.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun xo E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%ds, %fs, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hfo
    sl_exec (disch := first | exact hA | exact hB | exact hC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [Ho]
    · iexists _; isplitr; · ipureintro; exact harg10.read_unread _
      iexact Ho
    iexists _; iexact HS

end Cert.KernelIdeal.Fr

end
-- ==== Proof.KI.RunB.lean ====
/-
  The kernel body at grid points 1 to 4: it runs to the end holding every input window's buffer as it was and the
  output window's untouched, reads the accumulator the point before left and leaves it written whole.
-/
import proofs.«155183_g15564961481514_cont_week2b_1535_23_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in branch two, on whole memrefs: the inputs' at their contents, the output's handed back
    untouched, the accumulator's at the contents `xs` the point before left; it ends with the accumulator's
    buffer overwritten by the listed pieces. -/
noncomputable def runB (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : condB i) (hC : ¬condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (xs : Vec F S1032x1024 .f32) :
    { LS : List (View.Piece (Elt F) S1032x1024 .f32) //
      ∀ (xo : Vec F S1024x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo ∗ owns (c : Thread nD τ) arg11 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xo ∗ (∃ f, arg11.view.loc (c : Thread nD τ) ↦[arg11.view.set]{fullShare} arg11.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun xo E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, Ho⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hfo; obtain rfl := harg11.eq_unread hfs
    sl_exec (disch := first | exact hA | exact hB | exact hC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [Ho]
    · iexists _; isplitr; · ipureintro; exact harg10.read_unread _
      iexact Ho
    iexists _; iexact HS

end Cert.KernelIdeal.Fr

end
-- ==== Proof.KI.RunC.lean ====
/-
  The kernel body at grid points 5 to 8: it runs to the end holding every input window's buffer and the
  accumulator as they were, and leaves the output window's buffer written whole.
-/
import proofs.«155183_g15564961481514_cont_week2b_1535_23_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in branch three, on whole memrefs: the inputs' at their contents, the accumulator's at the contents
    `xs` the point before left and kept, the output's at anything; it ends with the output's buffer overwritten
    by the listed pieces. -/
noncomputable def runC (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : ¬condB i) (hC : condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (xs : Vec F S1032x1024 .f32) :
    { LO : List (View.Piece (Elt F) S1024x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f LO) ∗ owns (c : Thread nD τ) arg11 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dd, %fo, -, Ho⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hfs
    sl_exec (disch := first | exact hA | exact hB | exact hC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [Ho]
    · iexists _; iexact Ho
    iexists _; isplitr; · ipureintro; exact harg11.read_unread _
    iexact HS

end Cert.KernelIdeal.Fr

end
-- ==== Proof.KI.Frame.lean ====
/-
  The frame of the kernel and what its output array holds: what each branch of the body leaves in the
  accumulator and in the output window (the stores' pieces read back), these carried from one grid point to the
  next, the proof data of the pipeline (each input window's buffer holds its block; the output window's buffer what
  branch three left; the accumulator what the point before left), the body's obligation at every grid point, and
  the launch. Two arrays are each read through four windows, so each is held in four shares, one per window.
-/
import proofs.«155183_g15564961481514_cont_week2b_1535_23_alg».proof.Proof.KI.RunA
import proofs.«155183_g15564961481514_cont_week2b_1535_23_alg».proof.Proof.KI.RunB
import proofs.«155183_g15564961481514_cont_week2b_1535_23_alg».proof.Proof.KI.RunC
import Idealize.ShloMosaic.Lib.Pipeline.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each branch leaves -/

/-- Branch one's pieces cover the accumulator. -/
theorem coverA (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : condA i) (hB : ¬condB i) (hC : ¬condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (y : S1032x1024.Idx) :
    ∃ pc ∈ (runA c i arg1 harg1 arg2 harg2 arg3 harg3 arg4 harg4 arg5 harg5 arg6 harg6 arg7 harg7 arg8 harg8 arg9 harg9 arg10 harg10 arg11 harg11 hA hB hC x1 x2 x3 x4 x5 x6 x7 x8 x9).1, y ∈ pc.1.set :=
  View.cover_of_tiledL (runA c i arg1 harg1 arg2 harg2 arg3 harg3 arg4 harg4 arg5 harg5 arg6 harg6 arg7 harg7 arg8 harg8 arg9 harg9 arg10 harg10 arg11 harg11 hA hB hC x1 x2 x3 x4 x5 x6 x7 x8 x9).1 S1032x1024.size (by sl_kernel_rfl) y

/-- What branch one leaves in the accumulator. -/
def accA (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : condA i) (hB : ¬condB i) (hC : ¬condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) : Vec F S1032x1024 .f32 :=
  VS.read (Elt F) (VS.writes (Elt F) VS.junk (runA c i arg1 harg1 arg2 harg2 arg3 harg3 arg4 harg4 arg5 harg5 arg6 harg6 arg7 harg7 arg8 harg8 arg9 harg9 arg10 harg10 arg11 harg11 hA hB hC x1 x2 x3 x4 x5 x6 x7 x8 x9).1)

/-- Branch two's pieces cover the accumulator. -/
theorem coverB (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : condB i) (hC : ¬condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (xs : Vec F S1032x1024 .f32) (y : S1032x1024.Idx) :
    ∃ pc ∈ (runB c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs).1, y ∈ pc.1.set :=
  View.cover_of_tiledL (runB c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs).1 S1032x1024.size (by sl_kernel_rfl) y

/-- What branch two leaves in the accumulator. -/
def accB (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : condB i) (hC : ¬condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (xs : Vec F S1032x1024 .f32) : Vec F S1032x1024 .f32 :=
  VS.read (Elt F) (VS.writes (Elt F) VS.junk (runB c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs).1)

/-- Branch three's pieces cover the output window's block. -/
theorem coverC (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : ¬condB i) (hC : condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (xs : Vec F S1032x1024 .f32) (y : S1024x1024.Idx) :
    ∃ pc ∈ (runC c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs).1, y ∈ pc.1.set :=
  View.cover_of_tiledL (runC c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs).1 S1024x1024.size (by sl_kernel_rfl) y

/-- What branch three leaves in the output window's buffer. -/
def outC (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : ¬condB i) (hC : condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (xs : Vec F S1032x1024 .f32) : Vec F S1024x1024 .f32 :=
  VO.read (Elt F) (VO.writes (Elt F) VO.junk (runC c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs).1)

/-- Where the body stores nothing into the output window: a placeholder nothing consults. -/
def outIdle : Vec F S1024x1024 .f32 := VO.read (Elt F) VO.junk

/-! ## Point by point -/

theorem N9 : cfg0.N = 9 := N_0

/-- What the output window's buffer and the accumulator hold after the body at position `n`: at position 0 the
    accumulator branch one builds; at positions 1 to 4 the accumulator of the position before folded once more; from
    position 5 on the accumulator unchanged, and the output's buffer at what branch three computes from it. -/
def outsAt (c : Dev nD) : (n : ℕ) → n < cfg0.N → Vec F S1024x1024 .f32 × Vec F S1032x1024 .f32
  | 0, hn => (outIdle, accA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scM (Memref.isWhole_whole _) ((hcondA ⟨0, hn⟩).mpr rfl) (fun h => (fun h' => by (try dsimp only at h'); omega) ((hcondB ⟨0, hn⟩).mp h)) (fun h => (fun h' => by (try dsimp only at h'); omega) ((hcondC ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h5 : n + 1 < 5 then
      (outIdle, accB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scM (Memref.isWhole_whole _) (fun h => (fun h' => by (try dsimp only at h'); omega) ((hcondA ⟨n + 1, hn⟩).mp h)) ((hcondB ⟨n + 1, hn⟩).mpr (by (try dsimp only); omega)) (fun h => (fun h' => by (try dsimp only at h'); omega) ((hcondC ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt c n (Nat.lt_of_succ_lt hn)).2)
    else
      (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scM (Memref.isWhole_whole _) (fun h => (fun h' => by (try dsimp only at h'); omega) ((hcondA ⟨n + 1, hn⟩).mp h)) (fun h => (fun h' => by (try dsimp only at h'); omega) ((hcondB ⟨n + 1, hn⟩).mp h)) ((hcondC ⟨n + 1, hn⟩).mpr (by (try dsimp only); omega)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt c n (Nat.lt_of_succ_lt hn)).2, (outsAt c n (Nat.lt_of_succ_lt hn)).2)

theorem outsAt_A (c : Dev nD) (t : Fin cfg0.N) (h0 : t.val = 0) :
    outsAt m c t.val t.isLt = (outIdle, accA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) ((hcondA t).mpr h0) (fun h => (fun h' => by (try dsimp only at h'); omega) ((hcondB t).mp h)) (fun h => (fun h' => by (try dsimp only at h'); omega) ((hcondC t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact absurd h0 (Nat.succ_ne_zero n)

theorem outsAt_B (c : Dev nD) (t : Fin cfg0.N) (h0 : 0 < t.val) (h5 : t.val < 5) :
    outsAt m c t.val t.isLt = (outIdle, accB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun h => (fun h' => by (try dsimp only at h'); omega) ((hcondA t).mp h)) ((hcondB t).mpr (by (try dsimp only); omega)) (fun h => (fun h' => by (try dsimp only at h'); omega) ((hcondC t).mp h)) (iblk m c 0 t) (iblk m c 1 t) (iblk m c 2 t) (iblk m c 3 t) (iblk m c 4 t) (iblk m c 5 t) (iblk m c 6 t) (iblk m c 7 t) (iblk m c 8 t) (outsAt m c (t.val - 1) (Nat.lt_of_le_of_lt (Nat.sub_le _ _) t.isLt)).2) := by
  obtain ⟨n, hn⟩ := t
  cases n with
  | zero => exact absurd h0 (Nat.lt_irrefl 0)
  | succ n => exact (dif_pos h5).trans rfl

theorem outsAt_C (c : Dev nD) (t : Fin cfg0.N) (h5 : 5 ≤ t.val) :
    outsAt m c t.val t.isLt = (outC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (fun h => (fun h' => by (try dsimp only at h'); omega) ((hcondA t).mp h)) (fun h => (fun h' => by (try dsimp only at h'); omega) ((hcondB t).mp h)) ((hcondC t).mpr (by (try dsimp only); omega)) (iblk m c 0 t) (iblk m c 1 t) (iblk m c 2 t) (iblk m c 3 t) (iblk m c 4 t) (iblk m c 5 t) (iblk m c 6 t) (iblk m c 7 t) (iblk m c 8 t) (outsAt m c (t.val - 1) (Nat.lt_of_le_of_lt (Nat.sub_le _ _) t.isLt)).2, (outsAt m c (t.val - 1) (Nat.lt_of_le_of_lt (Nat.sub_le _ _) t.isLt)).2) := by
  obtain ⟨n, hn⟩ := t
  have h5' : 5 ≤ n := h5
  cases n with
  | zero => exact absurd h5' (by omega)
  | succ n => exact (dif_neg (by omega)).trans rfl

/-- The region's invariant before position `n`: the accumulator at anything before the first point, afterwards
    at what the point before left. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) : PhiS m c n h = iprop(∃ d, owns (c : Thread nD τ) scM fullShare d) := by
  subst hz; rfl
theorem PhiS_succ (c : Dev nD) (n : ℕ) (hn : n < cfg0.N) :
    PhiS m c (n + 1) hn = owns (c : Thread nD τ) scM fullShare ((outsAt m c n hn).2) := rfl
theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The shares the windows hold their arrays at: the weights' array is read through windows 1 to 4 and the
    reshaped biases' through windows 5 to 8, a quarter each. -/
def shareOf : Fin 10 → PosShare TreeShare
  | ⟨1, _⟩ => fullShare.left.left
  | ⟨2, _⟩ => fullShare.left.right
  | ⟨3, _⟩ => fullShare.right.left
  | ⟨4, _⟩ => fullShare.right.right
  | ⟨5, _⟩ => fullShare.left.left
  | ⟨6, _⟩ => fullShare.left.right
  | ⟨7, _⟩ => fullShare.right.left
  | ⟨8, _⟩ => fullShare.right.right
  | _ => fullShare

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
  Φ t := PhiS m c t.val (Nat.le_of_lt_succ t.isLt)
  q w := shareOf w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (outsAt m c t.val t.isLt).1 := by dsimp only [dats]

theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d
theorem before_3 (c : Dev nD) (t : Fin cfg0.N) (d) : (dats m 0 c).before 3 t d = iblk m c 3 t :=
  before_in_3 m (dats m 0 c) (A_eq m c 3) (after_3 m c) t d
theorem before_4 (c : Dev nD) (t : Fin cfg0.N) (d) : (dats m 0 c).before 4 t d = iblk m c 4 t :=
  before_in_4 m (dats m 0 c) (A_eq m c 4) (after_4 m c) t d
theorem before_5 (c : Dev nD) (t : Fin cfg0.N) (d) : (dats m 0 c).before 5 t d = iblk m c 5 t :=
  before_in_5 m (dats m 0 c) (A_eq m c 5) (after_5 m c) t d
theorem before_6 (c : Dev nD) (t : Fin cfg0.N) (d) : (dats m 0 c).before 6 t d = iblk m c 6 t :=
  before_in_6 m (dats m 0 c) (A_eq m c 6) (after_6 m c) t d
theorem before_7 (c : Dev nD) (t : Fin cfg0.N) (d) : (dats m 0 c).before 7 t d = iblk m c 7 t :=
  before_in_7 m (dats m 0 c) (A_eq m c 7) (after_7 m c) t d
theorem before_8 (c : Dev nD) (t : Fin cfg0.N) (d) : (dats m 0 c).before 8 t d = iblk m c 8 t :=
  before_in_8 m (dats m 0 c) (A_eq m c 8) (after_8 m c) t d

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any grid point: every input window's buffer holds its block; the point's position says which
    branch runs; the accumulator comes in at what the point before left and goes out at what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt N9
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  by_cases h0 : t.val = 0
  · have hnC : ¬condC (grid0.coords t) := fun h => absurd ((hcondC t).mp h) (by omega)
    rw [Dat.leavesExact_idle (dats m 0 c) 9 t (idle_9 t hnC) (noFlush_9 t hnC)]
    rw [outsAt_A m c t h0]
    unfold accA; (try dsimp only)
    rw [PhiS_castSucc m c t, PhiS_zero m c _ _ h0]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) _ _ _ _ _ _ _ _ _ _ _ _ _ _ _ _ _ _ _ _ _ _ ((hcondA t).mpr h0) (fun h => (fun h' => by (try dsimp only at h'); omega) ((hcondB t).mp h)) (fun h => (fun h' => by (try dsimp only at h'); omega) ((hcondC t).mp h)) (iblk m c 0 t) (iblk m c 1 t) (iblk m c 2 t) (iblk m c 3 t) (iblk m c 4 t) (iblk m c 5 t) (iblk m c 6 t) (iblk m c 7 t) (iblk m c 8 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, ⟨%es, HS⟩⟩
    isplitl [HS]
    · unfold owns; iexists _; isplitr
      swap; · iexact HS
      ipureintro; exact View.read_writes_of_cover _ _ _ _ _ (coverA c _ _ _ _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases h5 : t.val < 5
    · have hnC : ¬condC (grid0.coords t) := fun h => absurd ((hcondC t).mp h) (by omega)
      rw [Dat.leavesExact_idle (dats m 0 c) 9 t (idle_9 t hnC) (noFlush_9 t hnC)]
      rw [outsAt_B m c t (by omega) h5]
      unfold accB; (try dsimp only)
      rw [PhiS_castSucc m c t, PhiS_pos m c _ _ h0]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB c (grid0.coords t) _ _ _ _ _ _ _ _ _ _ _ _ _ _ _ _ _ _ _ _ _ _ (fun h => (fun h' => by (try dsimp only at h'); omega) ((hcondA t).mp h)) ((hcondB t).mpr (by (try dsimp only); omega)) (fun h => (fun h' => by (try dsimp only at h'); omega) ((hcondC t).mp h)) (iblk m c 0 t) (iblk m c 1 t) (iblk m c 2 t) (iblk m c 3 t) (iblk m c 4 t) (iblk m c 5 t) (iblk m c 6 t) (iblk m c 7 t) (iblk m c 8 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, ⟨%es, HS⟩⟩
      isplitl [HS]
      · unfold owns; iexists _; isplitr
        swap; · iexact HS
        ipureintro; exact View.read_writes_of_cover _ _ _ _ _ (coverB c _ _ _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · have hC : condC (grid0.coords t) := (hcondC t).mpr (by omega)
      rw [show (dats m 0 c).leavesExact 9 t = owns (c : Thread nD τ) (ms9 t) fullShare ((dats m 0 c).after 9 t) from by
        unfold Dat.leavesExact; rw [live_9 t hC], after_9]
      rw [outsAt_C m c t (by omega)]
      unfold outC; (try dsimp only)
      rw [PhiS_castSucc m c t, PhiS_pos m c _ _ h0]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC c (grid0.coords t) _ _ _ _ _ _ _ _ _ _ _ _ _ _ _ _ _ _ _ _ _ _ (fun h => (fun h' => by (try dsimp only at h'); omega) ((hcondA t).mp h)) (fun h => (fun h' => by (try dsimp only at h'); omega) ((hcondB t).mp h)) ((hcondC t).mpr (by (try dsimp only); omega)) (iblk m c 0 t) (iblk m c 1 t) (iblk m c 2 t) (iblk m c 3 t) (iblk m c 4 t) (iblk m c 5 t) (iblk m c 6 t) (iblk m c 7 t) (iblk m c 8 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, ⟨%e9, H9⟩, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (coverC c _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- What the launch hands the region is the invariant before the first point: the accumulator at anything. -/
theorem hin (c : Dev nD) : iprop((emp : sProp 𝕄) ∗ Pipeline.scopedRest spec0 c) ⊢ (dats m 0 c).Φ 0 := by
  rw [show (dats m 0 c).Φ 0 = PhiS m c 0 (Nat.zero_le _) from rfl, PhiS_zero m c 0 _ rfl, scopedRest0_eq]
  simp only [scM, owns_whole]
  iintro ⟨-, H⟩; iexact H

/-- After the last point the accumulator's contents are forgotten. -/
theorem hout (c : Dev nD) : (dats m 0 c).Φ (Fin.last cfg0.N) ⊢ iprop((emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have := N9; omega), scopedRest0_eq]
  simp only [scM, owns_whole]
  iintro H
  isplitr; · iempintro
  iexists _; iexact H

/-- The ten windows read four distinct buffers. -/
theorem bigSep_arrs (Φ : Ref sig .tc → sProp 𝕄) :
    bigSep (Finset.univ.image (Pipeline.arrRef spec0)) Φ = iprop(Φ main_arg0 ∗ Φ main_arg1 ∗ Φ main_v0 ∗ Φ main_v1) := by
  rw [show (Finset.univ.image (Pipeline.arrRef spec0)) = {main_arg0, main_arg1, main_v0, main_v1} from by decide,
    bigSep_insert (by decide), bigSep_insert (by decide), bigSep_insert (by decide), bigSep_singleton]
  rfl

/-- The four buffers behind the ten windows' arrays, each whole, dealt to the windows: the rows' array and the
    result's each to its one window, the weights' array in quarters to windows 1 to 4 and the reshaped biases'
    in quarters to windows 5 to 8. -/
theorem hsplit (c : Dev nD) :
    (Pipeline.arrBufs spec0 c (V m c) : sProp 𝕄) ⊢ (dats m 0 c).arrays ((dats m 0 c).arrAt · 0) := by
  have hset : ∀ w, (cfg0.win w).arr.view.set = Finset.univ := fun w => (arr_whole0 w).set_eq_univ
  unfold Pipeline.arrBufs Dat.arrays
  rw [bigSep_arrs, bigSep_W0]
  rw [hset 0, hset 1, hset 5, hset 9]
  show _ ⊢ (iprop(((c.tc : Thread nD τ).loc main_arg0 ↦{fullShare} V m c main_arg0)
    ∗ ((c.tc : Thread nD τ).loc main_arg1 ↦{fullShare.left.left} V m c main_arg1)
    ∗ ((c.tc : Thread nD τ).loc main_arg1 ↦{fullShare.left.right} V m c main_arg1)
    ∗ ((c.tc : Thread nD τ).loc main_arg1 ↦{fullShare.right.left} V m c main_arg1)
    ∗ ((c.tc : Thread nD τ).loc main_arg1 ↦{fullShare.right.right} V m c main_arg1)
    ∗ ((c.tc : Thread nD τ).loc main_v0 ↦{fullShare.left.left} V m c main_v0)
    ∗ ((c.tc : Thread nD τ).loc main_v0 ↦{fullShare.left.right} V m c main_v0)
    ∗ ((c.tc : Thread nD τ).loc main_v0 ↦{fullShare.right.left} V m c main_v0)
    ∗ ((c.tc : Thread nD τ).loc main_v0 ↦{fullShare.right.right} V m c main_v0)
    ∗ ((c.tc : Thread nD τ).loc main_v1 ↦{fullShare} V m c main_v1)) : sProp 𝕄)
  iintro ⟨H0, HW, HB, H9⟩
  ihave HW := (pointsTo_share (PosShare.mem_left_op_right fullShare)).1 $$ HW
  icases HW with ⟨HWl, HWr⟩
  ihave HWl := (pointsTo_share (PosShare.mem_left_op_right fullShare.left)).1 $$ HWl
  icases HWl with ⟨H1, H2⟩
  ihave HWr := (pointsTo_share (PosShare.mem_left_op_right fullShare.right)).1 $$ HWr
  icases HWr with ⟨H3, H4⟩
  ihave HB := (pointsTo_share (PosShare.mem_left_op_right fullShare)).1 $$ HB
  icases HB with ⟨HBl, HBr⟩
  ihave HBl := (pointsTo_share (PosShare.mem_left_op_right fullShare.left)).1 $$ HBl
  icases HBl with ⟨H5, H6⟩
  ihave HBr := (pointsTo_share (PosShare.mem_left_op_right fullShare.right)).1 $$ HBr
  icases HBr with ⟨H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The run's post: every window's array at what the library computes from the proof data, and the one
    buffer no window reads (the biases as passed) unchanged. -/
def RunPost (r : PUnit × MemSt nD τ sig (Elt F)) : Prop :=
  ∀ c : Dev nD, (∀ w, r.2.mem ((cfg0.spec w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- At the compiled mesh, for any values, from any memory with zero counters: every weakly fair execution of the
    program terminates, nothing faulting, in a state of `RunPost`. -/
theorem run_main : θ_run defs (onTc (τ := τ) (main (F := F))) ⟨m, fun _ => 0, ρ⟩ (RunPost m) :=
  Pipeline.θ_run_region_noSem_shared cfgs (dats m) () cellOf_inj (0 : Fin 1) winFacts₀0 (emb₁ : Emb (UR sig nD τ) 𝕄) defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp)) (Z := fun c => Pipeline.unscopedRest spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- info: 'Cert.KernelIdeal.Fr.run_main' depends on axioms: [propext, Classical.choice, Quot.sound] -/
#guard_msgs in #print axioms run_main

/-- THE FRAME: the program runs to the end, nothing faulting, and its three argument arrays end as launched —
    the rows' and the weights' arrays are inputs of windows (never written), the biases' array bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 rfl (by decide))).trans (V_main_arg2 m c)⟩) (run_main m ρ)

end Cert.KernelIdeal.Fr

end
-- ==== Proof.KI.Value1.lean ====
/-
  What the body's stores leave, as the kernel's own arithmetic: the accumulator after the first grid point is the
  first payload of the four blocks of weights and biases the point reads; after a later folding point it is the
  second payload of the accumulator before and that point's four blocks; and the output window's buffer at an
  applying point is the third payload of the rows' tile, the accumulator's first 1024 rows and its row 1024.
-/
import proofs.«155183_g15564961481514_cont_week2b_1535_23_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Branch one leaves the accumulator built from the point's four layers. -/
theorem accA_eq (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : condA i) (hB : ¬condB i) (hC : ¬condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) :
    accA c i arg1 harg1 arg2 harg2 arg3 harg3 arg4 harg4 arg5 harg5 arg6 harg6 arg7 harg7 arg8 harg8 arg9 harg9 arg10 harg10 arg11 harg11 hA hB hC x1 x2 x3 x4 x5 x6 x7 x8 x9 = k0_pay1 (k0_pay4 x2 x6 x3 x7 x4 x8) (k0_pay5 x5) x9 := by
  unfold accA
  rw [View.read_writes_eq_canon _ _ _ (coverA c i arg1 harg1 arg2 harg2 arg3 harg3 arg4 harg4 arg5 harg5 arg6 harg6 arg7 harg7 arg8 harg8 arg9 harg9 arg10 harg10 arg11 harg11 hA hB hC x1 x2 x3 x4 x5 x6 x7 x8 x9)]
  unfold runA
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S1x1024x1024) hz3, View.ld_unit_zero (S := S1x1x1024) hz3]

/-- Branch two leaves the accumulator of the point before with the point's four layers folded in. -/
theorem accB_eq (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : condB i) (hC : ¬condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (xs : Vec F S1032x1024 .f32) :
    accB c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs = k0_pay2 (k0_pay6 xs x2 x6 x3 x7 x4 x8) x5 x9 := by
  unfold accB
  rw [View.read_writes_eq_canon _ _ _ (coverB c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs)]
  unfold runB
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread,
    View.ld_unit_zero (S := S1x1024x1024) hz3, View.ld_unit_zero (S := S1x1x1024) hz3, View.ld_unit_zero (S := S1032x1024) hz2]

/-- Branch three leaves, in the output window's buffer, the rows' tile applied to the accumulator. -/
theorem outC_eq (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : ¬condB i) (hC : condC i)
    (x1 : Vec F S1024x1024 .f32) (x2 : Vec F S1x1024x1024 .f32) (x3 : Vec F S1x1024x1024 .f32) (x4 : Vec F S1x1024x1024 .f32) (x5 : Vec F S1x1024x1024 .f32) (x6 : Vec F S1x1x1024 .f32) (x7 : Vec F S1x1x1024 .f32) (x8 : Vec F S1x1x1024 .f32) (x9 : Vec F S1x1x1024 .f32) (xs : Vec F S1032x1024 .f32) :
    outC c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs
      = k0_pay3 x1 (View.ld xs (Rect.unit (s := S1032x1024) ![0, 0] S1024x1024.size Facts₀.inb_S1032x1024_S1024x1024_0_0))
          (View.ld xs (Rect.unit (s := S1032x1024) ![1024, 0] S1x1024.size Facts₀.inb_S1032x1024_S1x1024_1024_0)) := by
  unfold outC
  rw [View.read_writes_eq_canon _ _ _ (coverC c i arg1 harg1 arg2 harg2 arg3 harg3 arg4 harg4 arg5 harg5 arg6 harg6 arg7 harg7 arg8 harg8 arg9 harg9 arg10 harg10 arg11 harg11 hA hB hC x1 x2 x3 x4 x5 x6 x7 x8 x9 xs)]
  unfold runC
  dsimp only
  sl_unfold_words
  rw [View.canon_unit_zero hz2]
  simp only [View.readAt_eq_ld, harg1.read_unread, harg11.read_unread, View.ld_unit_zero (S := S1024x1024) hz2]

end Cert.KernelIdeal.Fr

end
-- ==== Proof.KI.Blocks.lean ====
/-
  Each window's block at a grid point, read at an entry of the array it is cut from.

  The grid has nine points.  The tile of rows of x read at point t is block row max(t - 5, 0): entry (p, k) of the block is
  entry ((t - 5) * 1024 + p, k) of the array (natural subtraction).  The four weight blocks read at point t are layers
  4 * min(t, 4) + r, r = 0 … 3, of the 20 x 1024 x 1024 array, and the four bias blocks are the same layers of the
  20 x 1 x 1024 array, which is the 20 x 1024 argument with a unit axis put in: its entry (l, 0, q) is the argument's
  entry (l, q).  The output's block at point t is again block row max(t - 5, 0); it is written back exactly at the points
  t ≥ 5, and those four blocks of 1024 rows cover the 4096 rows: row i lies in the block of point 5 + i / 1024.
-/
import proofs.«155183_g15564961481514_cont_week2b_1535_23_alg».proof.Proof.KI.Shared
import Idealize.ShloMosaic.Lib.ValueIdx
import Idealize.ShloMosaic.Lib.Pipeline.Value
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ) (ρ : Dev nD → PrngReg)

/-! ## The index maps over the grid -/

/-- The grid has nine points. -/
theorem t_lt (t : Fin cfg0.N) : t.val < 9 := lt_of_lt_of_eq t.isLt N_0

/-- Layer `4 * min(t, 4) + r`, `r < 4`, is one of the twenty. -/
theorem layer_lt (t : Fin cfg0.N) (r : ℕ) (hr : r < 4) : 4 * min t.val 4 + r < 20 := by omega

/-- Row `(t - 5) * 1024 + p`, `p < 1024`, is one of the 4096. -/
theorem row_lt (t : Fin cfg0.N) (p : Fin 1024) : (t.val - 5) * 1024 + p.val < 4096 := by
  have := t_lt t; have := p.isLt; omega

theorem idx_0 : ∀ t : Fin cfg0.N, win0_0.index t (0 : Fin 2) = t.val - 5 ∧ win0_0.index t (1 : Fin 2) = 0 :=
  (by decide +kernel : ∀ t : Fin grid0.N, _)
theorem idx_1 : ∀ t : Fin cfg0.N, win0_1.index t (0 : Fin 3) = 4 * min t.val 4 + 0
    ∧ win0_1.index t (1 : Fin 3) = 0 ∧ win0_1.index t (2 : Fin 3) = 0 :=
  (by decide +kernel : ∀ t : Fin grid0.N, _)
theorem idx_2 : ∀ t : Fin cfg0.N, win0_2.index t (0 : Fin 3) = 4 * min t.val 4 + 1
    ∧ win0_2.index t (1 : Fin 3) = 0 ∧ win0_2.index t (2 : Fin 3) = 0 :=
  (by decide +kernel : ∀ t : Fin grid0.N, _)
theorem idx_3 : ∀ t : Fin cfg0.N, win0_3.index t (0 : Fin 3) = 4 * min t.val 4 + 2
    ∧ win0_3.index t (1 : Fin 3) = 0 ∧ win0_3.index t (2 : Fin 3) = 0 :=
  (by decide +kernel : ∀ t : Fin grid0.N, _)
theorem idx_4 : ∀ t : Fin cfg0.N, win0_4.index t (0 : Fin 3) = 4 * min t.val 4 + 3
    ∧ win0_4.index t (1 : Fin 3) = 0 ∧ win0_4.index t (2 : Fin 3) = 0 :=
  (by decide +kernel : ∀ t : Fin grid0.N, _)
theorem idx_5 : ∀ t : Fin cfg0.N, win0_5.index t (0 : Fin 3) = 4 * min t.val 4 + 0
    ∧ win0_5.index t (1 : Fin 3) = 0 ∧ win0_5.index t (2 : Fin 3) = 0 :=
  (by decide +kernel : ∀ t : Fin grid0.N, _)
theorem idx_6 : ∀ t : Fin cfg0.N, win0_6.index t (0 : Fin 3) = 4 * min t.val 4 + 1
    ∧ win0_6.index t (1 : Fin 3) = 0 ∧ win0_6.index t (2 : Fin 3) = 0 :=
  (by decide +kernel : ∀ t : Fin grid0.N, _)
theorem idx_7 : ∀ t : Fin cfg0.N, win0_7.index t (0 : Fin 3) = 4 * min t.val 4 + 2
    ∧ win0_7.index t (1 : Fin 3) = 0 ∧ win0_7.index t (2 : Fin 3) = 0 :=
  (by decide +kernel : ∀ t : Fin grid0.N, _)
theorem idx_8 : ∀ t : Fin cfg0.N, win0_8.index t (0 : Fin 3) = 4 * min t.val 4 + 3
    ∧ win0_8.index t (1 : Fin 3) = 0 ∧ win0_8.index t (2 : Fin 3) = 0 :=
  (by decide +kernel : ∀ t : Fin grid0.N, _)
theorem idx_9 : ∀ t : Fin cfg0.N, win0_9.index t (0 : Fin 2) = t.val - 5 ∧ win0_9.index t (1 : Fin 2) = 0 :=
  (by decide +kernel : ∀ t : Fin grid0.N, _)

/-! ## The input blocks at an entry -/

/-- The tile of rows: entry `(p, k)` of the block at point `t` is entry `((t - 5) * 1024 + p, k)` of the array. -/
theorem iblk_x (c : Dev nD) (t : Fin cfg0.N) (p k : Fin 1024) :
    (iblk m c 0 t : S1024x1024.Idx → Elt F .f32) (ix2 p k)
      = (V m c main_arg0 : S4096x1024.Idx → Elt F .f32) (ix2 ⟨(t.val - 5) * 1024 + p.val, row_lt t p⟩ k) := by
  obtain ⟨e0, e1⟩ := idx_0 t
  unfold iblk
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = (t.val - 5) * 1024 + p.val; omega
  | ⟨1, _⟩ => show win0_0.index t (1 : Fin 2) * 1024 + 1 * k.val = k.val; omega

/-! The four weight blocks: entry `(0, q, k)` of window `w`'s block at point `t` is entry
    `(4 * min(t, 4) + (w - 1), q, k)` of the weights. -/

theorem iblk_1 (c : Dev nD) (t : Fin cfg0.N) (q k : Fin 1024) :
    (iblk m c 1 t : S1x1024x1024.Idx → Elt F .f32) (ix3 (0 : Fin 1) q k)
      = (V m c main_arg1 : S20x1024x1024.Idx → Elt F .f32) (ix3 ⟨4 * min t.val 4 + 0, layer_lt t 0 (by decide)⟩ q k) := by
  obtain ⟨e0, e1, e2⟩ := idx_1 t
  unfold iblk
  show V m c main_arg1 (((cfg0.win 1).blk t).view.emb (ix3 (0 : Fin 1) q k)) = _
  refine congrArg (V m c main_arg1) (funext fun a => Fin.ext ?_)
  match a with
  | ⟨0, _⟩ => show win0_1.index t (0 : Fin 3) * 1 + 1 * 0 = 4 * min t.val 4 + 0; omega
  | ⟨1, _⟩ => show win0_1.index t (1 : Fin 3) * 1024 + 1 * q.val = q.val; omega
  | ⟨2, _⟩ => show win0_1.index t (2 : Fin 3) * 1024 + 1 * k.val = k.val; omega

theorem iblk_2 (c : Dev nD) (t : Fin cfg0.N) (q k : Fin 1024) :
    (iblk m c 2 t : S1x1024x1024.Idx → Elt F .f32) (ix3 (0 : Fin 1) q k)
      = (V m c main_arg1 : S20x1024x1024.Idx → Elt F .f32) (ix3 ⟨4 * min t.val 4 + 1, layer_lt t 1 (by decide)⟩ q k) := by
  obtain ⟨e0, e1, e2⟩ := idx_2 t
  unfold iblk
  show V m c main_arg1 (((cfg0.win 2).blk t).view.emb (ix3 (0 : Fin 1) q k)) = _
  refine congrArg (V m c main_arg1) (funext fun a => Fin.ext ?_)
  match a with
  | ⟨0, _⟩ => show win0_2.index t (0 : Fin 3) * 1 + 1 * 0 = 4 * min t.val 4 + 1; omega
  | ⟨1, _⟩ => show win0_2.index t (1 : Fin 3) * 1024 + 1 * q.val = q.val; omega
  | ⟨2, _⟩ => show win0_2.index t (2 : Fin 3) * 1024 + 1 * k.val = k.val; omega

theorem iblk_3 (c : Dev nD) (t : Fin cfg0.N) (q k : Fin 1024) :
    (iblk m c 3 t : S1x1024x1024.Idx → Elt F .f32) (ix3 (0 : Fin 1) q k)
      = (V m c main_arg1 : S20x1024x1024.Idx → Elt F .f32) (ix3 ⟨4 * min t.val 4 + 2, layer_lt t 2 (by decide)⟩ q k) := by
  obtain ⟨e0, e1, e2⟩ := idx_3 t
  unfold iblk
  show V m c main_arg1 (((cfg0.win 3).blk t).view.emb (ix3 (0 : Fin 1) q k)) = _
  refine congrArg (V m c main_arg1) (funext fun a => Fin.ext ?_)
  match a with
  | ⟨0, _⟩ => show win0_3.index t (0 : Fin 3) * 1 + 1 * 0 = 4 * min t.val 4 + 2; omega
  | ⟨1, _⟩ => show win0_3.index t (1 : Fin 3) * 1024 + 1 * q.val = q.val; omega
  | ⟨2, _⟩ => show win0_3.index t (2 : Fin 3) * 1024 + 1 * k.val = k.val; omega

theorem iblk_4 (c : Dev nD) (t : Fin cfg0.N) (q k : Fin 1024) :
    (iblk m c 4 t : S1x1024x1024.Idx → Elt F .f32) (ix3 (0 : Fin 1) q k)
      = (V m c main_arg1 : S20x1024x1024.Idx → Elt F .f32) (ix3 ⟨4 * min t.val 4 + 3, layer_lt t 3 (by decide)⟩ q k) := by
  obtain ⟨e0, e1, e2⟩ := idx_4 t
  unfold iblk
  show V m c main_arg1 (((cfg0.win 4).blk t).view.emb (ix3 (0 : Fin 1) q k)) = _
  refine congrArg (V m c main_arg1) (funext fun a => Fin.ext ?_)
  match a with
  | ⟨0, _⟩ => show win0_4.index t (0 : Fin 3) * 1 + 1 * 0 = 4 * min t.val 4 + 3; omega
  | ⟨1, _⟩ => show win0_4.index t (1 : Fin 3) * 1024 + 1 * q.val = q.val; omega
  | ⟨2, _⟩ => show win0_4.index t (2 : Fin 3) * 1024 + 1 * k.val = k.val; omega

/-! The four bias blocks: entry `(0, 0, q)` of window `w`'s block at point `t` is entry
    `(4 * min(t, 4) + (w - 5), 0, q)` of the biases with the unit axis. -/

theorem iblk_5 (c : Dev nD) (t : Fin cfg0.N) (q : Fin 1024) :
    (iblk m c 5 t : S1x1x1024.Idx → Elt F .f32) (ix3 (0 : Fin 1) (0 : Fin 1) q)
      = (V m c main_v0 : S20x1x1024.Idx → Elt F .f32) (ix3 ⟨4 * min t.val 4 + 0, layer_lt t 0 (by decide)⟩ (0 : Fin 1) q) := by
  obtain ⟨e0, e1, e2⟩ := idx_5 t
  unfold iblk
  show V m c main_v0 (((cfg0.win 5).blk t).view.emb (ix3 (0 : Fin 1) (0 : Fin 1) q)) = _
  refine congrArg (V m c main_v0) (funext fun a => Fin.ext ?_)
  match a with
  | ⟨0, _⟩ => show win0_5.index t (0 : Fin 3) * 1 + 1 * 0 = 4 * min t.val 4 + 0; omega
  | ⟨1, _⟩ => show win0_5.index t (1 : Fin 3) * 1 + 1 * 0 = 0; omega
  | ⟨2, _⟩ => show win0_5.index t (2 : Fin 3) * 1024 + 1 * q.val = q.val; omega

theorem iblk_6 (c : Dev nD) (t : Fin cfg0.N) (q : Fin 1024) :
    (iblk m c 6 t : S1x1x1024.Idx → Elt F .f32) (ix3 (0 : Fin 1) (0 : Fin 1) q)
      = (V m c main_v0 : S20x1x1024.Idx → Elt F .f32) (ix3 ⟨4 * min t.val 4 + 1, layer_lt t 1 (by decide)⟩ (0 : Fin 1) q) := by
  obtain ⟨e0, e1, e2⟩ := idx_6 t
  unfold iblk
  show V m c main_v0 (((cfg0.win 6).blk t).view.emb (ix3 (0 : Fin 1) (0 : Fin 1) q)) = _
  refine congrArg (V m c main_v0) (funext fun a => Fin.ext ?_)
  match a with
  | ⟨0, _⟩ => show win0_6.index t (0 : Fin 3) * 1 + 1 * 0 = 4 * min t.val 4 + 1; omega
  | ⟨1, _⟩ => show win0_6.index t (1 : Fin 3) * 1 + 1 * 0 = 0; omega
  | ⟨2, _⟩ => show win0_6.index t (2 : Fin 3) * 1024 + 1 * q.val = q.val; omega

theorem iblk_7 (c : Dev nD) (t : Fin cfg0.N) (q : Fin 1024) :
    (iblk m c 7 t : S1x1x1024.Idx → Elt F .f32) (ix3 (0 : Fin 1) (0 : Fin 1) q)
      = (V m c main_v0 : S20x1x1024.Idx → Elt F .f32) (ix3 ⟨4 * min t.val 4 + 2, layer_lt t 2 (by decide)⟩ (0 : Fin 1) q) := by
  obtain ⟨e0, e1, e2⟩ := idx_7 t
  unfold iblk
  show V m c main_v0 (((cfg0.win 7).blk t).view.emb (ix3 (0 : Fin 1) (0 : Fin 1) q)) = _
  refine congrArg (V m c main_v0) (funext fun a => Fin.ext ?_)
  match a with
  | ⟨0, _⟩ => show win0_7.index t (0 : Fin 3) * 1 + 1 * 0 = 4 * min t.val 4 + 2; omega
  | ⟨1, _⟩ => show win0_7.index t (1 : Fin 3) * 1 + 1 * 0 = 0; omega
  | ⟨2, _⟩ => show win0_7.index t (2 : Fin 3) * 1024 + 1 * q.val = q.val; omega

theorem iblk_8 (c : Dev nD) (t : Fin cfg0.N) (q : Fin 1024) :
    (iblk m c 8 t : S1x1x1024.Idx → Elt F .f32) (ix3 (0 : Fin 1) (0 : Fin 1) q)
      = (V m c main_v0 : S20x1x1024.Idx → Elt F .f32) (ix3 ⟨4 * min t.val 4 + 3, layer_lt t 3 (by decide)⟩ (0 : Fin 1) q) := by
  obtain ⟨e0, e1, e2⟩ := idx_8 t
  unfold iblk
  show V m c main_v0 (((cfg0.win 8).blk t).view.emb (ix3 (0 : Fin 1) (0 : Fin 1) q)) = _
  refine congrArg (V m c main_v0) (funext fun a => Fin.ext ?_)
  match a with
  | ⟨0, _⟩ => show win0_8.index t (0 : Fin 3) * 1 + 1 * 0 = 4 * min t.val 4 + 3; omega
  | ⟨1, _⟩ => show win0_8.index t (1 : Fin 3) * 1 + 1 * 0 = 0; omega
  | ⟨2, _⟩ => show win0_8.index t (2 : Fin 3) * 1024 + 1 * q.val = q.val; omega

/-- The biases with the unit axis are the 20 x 1024 argument: entry `(l, 0, q)` is its entry `(l, q)`. -/
theorem V_main_v0_apply (c : Dev nD) (l : Fin 20) (q : Fin 1024) :
    (V m c main_v0 : S20x1x1024.Idx → Elt F .f32) (ix3 l (0 : Fin 1) q)
      = (m ((c : Thread nD τ).loc main_arg2) : S20x1024.Idx → Elt F .f32) (ix2 l q) := by
  have e : (V m c main_v0 : S20x1x1024.Idx → Elt F .f32)
      = shapeCast S20x1x1024 (m ((c : Thread nD τ).loc main_arg2) : S20x1024.Idx → Elt F .f32)
          shapeCasts_S20x1024_S20x1x1024 := by
    dsimp only [V, hostOps0]
    simp only [List.flatten_cons, List.flatten_nil, List.append_nil]
    after_results
    rfl
  rw [e]
  refine shapeCast_apply (s := S20x1024) (t := S20x1x1024) _ _ _ _ ?_
  show (S20x1024.rowMajor (ix2 l q)).val = (S20x1x1024.rowMajor (ix3 l (0 : Fin 1) q)).val
  rw [Shape.rowMajor_val_two, Shape.rowMajor_val_three]
  show l.val * 1024 + q.val = (l.val * 1 + 0) * 1024 + q.val
  omega

/-! ## The output window -/

/-- The output block is written back exactly at the points from 5 on. -/
theorem flush_9 : ∀ t : Fin cfg0.N, (cfg0.win 9).flush t = true ↔ 5 ≤ t.val :=
  (by decide +kernel : ∀ t : Fin grid0.N, _)

/-- An index of the output array is in point `t`'s block iff its row is one of the block's 1024 rows. -/
theorem mem_blk_9 (t : Fin cfg0.N) (i : S4096x1024.Idx) :
    i ∈ ((cfg0.win 9).blk t).view.set ↔ (t.val - 5) * 1024 ≤ (i 0).val ∧ (i 0).val < (t.val - 5) * 1024 + 1024 := by
  obtain ⟨e0, e1⟩ := idx_9 t
  have h : i ∈ ((cfg0.win 9).blk t).view.set ↔ ∀ a : Fin 2, win0_9.index t a * S1024x1024.size a ≤ (i a).val
      ∧ (i a).val < win0_9.index t a * S1024x1024.size a + S1024x1024.size a := by
    show i ∈ ((View.whole main_v1).slice (win0_9.rect t)).set ↔ _
    rw [View.set_slice_whole, Rect.mem_set_unit]
    exact Iff.rfl
  rw [h]
  have hi1 : (i 1).val < 1024 := (i 1).isLt
  constructor
  · intro hh
    have b0 : win0_9.index t (0 : Fin 2) * 1024 ≤ (i 0).val ∧ (i 0).val < win0_9.index t (0 : Fin 2) * 1024 + 1024 := hh 0
    omega
  · intro hh a
    match a with
    | ⟨0, _⟩ => show win0_9.index t (0 : Fin 2) * 1024 ≤ (i 0).val ∧ (i 0).val < win0_9.index t (0 : Fin 2) * 1024 + 1024; omega
    | ⟨1, _⟩ => show win0_9.index t (1 : Fin 2) * 1024 ≤ (i 1).val ∧ (i 1).val < win0_9.index t (1 : Fin 2) * 1024 + 1024; omega

/-- Every index of the output array is in the block of a point that writes back: point `5 + row / 1024`. -/
theorem cover_9 (i : S4096x1024.Idx) :
    ∃ t : Fin cfg0.N, (cfg0.win 9).flush t = true ∧ i ∈ ((cfg0.win 9).blk t).view.set := by
  have hi0 : (i 0).val < 4096 := (i 0).isLt
  have hN : cfg0.N = 9 := N_0
  refine ⟨⟨5 + (i 0).val / 1024, by rw [hN]; omega⟩, (flush_9 _).2 (by show 5 ≤ 5 + (i 0).val / 1024; omega), ?_⟩
  rw [mem_blk_9]
  show (5 + (i 0).val / 1024 - 5) * 1024 ≤ (i 0).val ∧ (i 0).val < (5 + (i 0).val / 1024 - 5) * 1024 + 1024
  omega

/-- A function of the output array's index read through point `t`'s block: entry `(p, q)` of the block is the
    function at `((t - 5) * 1024 + p, q)`. -/
theorem read_blk_9 (t : Fin cfg0.N) (G : S4096x1024.Idx → Elt F .f32) (p q : Fin 1024) :
    (((cfg0.win 9).blk t).view.read (Elt F) G : S1024x1024.Idx → Elt F .f32) (ix2 p q)
      = G (ix2 ⟨(t.val - 5) * 1024 + p.val, row_lt t p⟩ q) := by
  obtain ⟨e0, e1⟩ := idx_9 t
  show G (((cfg0.win 9).blk t).view.emb (ix2 p q)) = _
  refine congrArg G (funext fun a => Fin.ext ?_)
  match a with
  | ⟨0, _⟩ => show win0_9.index t (0 : Fin 2) * 1024 + 1 * p.val = (t.val - 5) * 1024 + p.val; omega
  | ⟨1, _⟩ => show win0_9.index t (1 : Fin 2) * 1024 + 1 * q.val = q.val; omega

end Cert.KernelIdeal.Fr

end
-- ==== Proof.Affine.lean ====
/-
  Twenty affine layers  h ↦ h · Wₗᵀ + bₗ  applied one after the other, and the same map composed first:
  the chain of layers is itself affine,  x ↦ x · Q + c,  with  Q = W₀ᵀ · W₁ᵀ ⋯  and  c  the image of the biases.
  Both are written here over arbitrary finite index types, entry by entry on the extended reals, with the
  weights and biases indexed by the layer's number.
-/
import Mathlib

noncomputable section

namespace Cert.Affine

variable {ι κ : Type} [Fintype ι] [Fintype κ]

/-- One layer: row `p` of `h` times row `q` of `w`, summed over the shared axis, plus the bias's entry `q`. -/
def layer (h : ι → κ → EReal) (w : κ → κ → EReal) (β : κ → EReal) : ι → κ → EReal :=
  fun p q => (∑ k, h p k * w q k) + β q

/-- The first `n` layers applied to `x` in order. -/
def chain (x : ι → κ → EReal) (W : ℕ → κ → κ → EReal) (b : ℕ → κ → EReal) : ℕ → ι → κ → EReal
  | 0 => x
  | n + 1 => layer (chain x W b n) (W n) (b n)

/-- The composed matrix after layers `0 … n`: the transpose of `W 0`, multiplied on the right by each later
    layer's transposed weights. -/
def mat (W : ℕ → κ → κ → EReal) : ℕ → κ → κ → EReal
  | 0 => fun k q => W 0 q k
  | n + 1 => fun k q => ∑ j, mat W n k j * W (n + 1) q j

/-- The composed offset after layers `0 … n`: the bias of layer 0 carried through each later layer. -/
def off (W : ℕ → κ → κ → EReal) (b : ℕ → κ → EReal) : ℕ → κ → EReal
  | 0 => b 0
  | n + 1 => fun q => (∑ j, off W b n j * W (n + 1) q j) + b (n + 1) q

/-- The composed map applied to `x`: one product with the composed matrix, plus the composed offset. -/
def composed (x : ι → κ → EReal) (W : ℕ → κ → κ → EReal) (b : ℕ → κ → EReal) (n : ℕ) : ι → κ → EReal :=
  fun p q => (∑ k, x p k * mat W n k q) + off W b n q

end Cert.Affine

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«155183_g15564961481514_cont_week2b_1535_23_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.KI.Payload.lean ====
/-
  The arithmetic of the three stored arrays, at the exact instance (floats are extended reals).

  The accumulator is an augmented 1032 x 1024 array  aug Q c : rows 0 … 1023 hold a 1024 x 1024 matrix Q, and each of
  rows 1024 … 1031 holds the same row vector c.  Folding one affine layer (weights w, given as rows q of w, and bias β)
  into it multiplies every row by wᵀ and adds β to the last eight rows:
      fold (aug Q c) w β = aug (Q · wᵀ) (c · wᵀ + β),
  because a product with the transpose acts row by row, the upper 1024 rows and the lower 8 rows are then cut out, β
  (one row, repeated eight times) is added to the lower ones, and the two pieces are stacked again.  The first array is
  the transpose of the first layer's weights stacked over its bias row, which is  aug (w₀ᵀ) b₀ ; each later array is four
  folds of the one before; the last array is a block of rows x times the matrix part plus the offset row:
      (x · Q + c)(p, q) = ∑ₖ x(p, k) · Q(k, q) + c(q).
-/
import proofs.«155183_g15564961481514_cont_week2b_1535_23_alg».proof.Proof.Gen.KernelIdeal.Skeleton
import proofs.«155183_g15564961481514_cont_week2b_1535_23_alg».proof.Proof.Affine
import proofs.«155183_g15564961481514_cont_week2b_1535_23_alg».proof.Proof.LibMatmul
import proofs.«155183_g15564961481514_cont_week2b_1535_23_alg».proof.Proof.LibRank2
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen
open Idealize.ShloMosaic Idealize.ShloMosaic.ValueIdx

/-! ## The augmented array and one layer's action on its two parts -/

/-- The augmented array: the matrix `Q` in rows 0 … 1023, the row vector `c` in each of rows 1024 … 1031. -/
def aug (Q : Fin 1024 → Fin 1024 → EReal) (c : Fin 1024 → EReal) : S1032x1024.Idx → EReal :=
  fun j => if h : (j 0).val < 1024 then Q ⟨(j 0).val, h⟩ ⟨(j 1).val, (j 1).isLt⟩ else c ⟨(j 1).val, (j 1).isLt⟩

/-- A layer's weights as a matrix: entry `(q, k)` of the one 1024 x 1024 block. -/
def wOf (w : Vec Ideal S1x1024x1024 .f32) : Fin 1024 → Fin 1024 → EReal := fun q k => w (ix3 (0 : Fin 1) q k)

/-- A layer's bias as a vector: entry `q` of the one row. -/
def bOf (β : Vec Ideal S1x1x1024 .f32) : Fin 1024 → EReal := fun q => β (ix3 (0 : Fin 1) (0 : Fin 1) q)

/-- The matrix part after one more layer: `Q · wᵀ`. -/
def stepQ (Q : Fin 1024 → Fin 1024 → EReal) (w : Fin 1024 → Fin 1024 → EReal) : Fin 1024 → Fin 1024 → EReal :=
  fun k q => ∑ j, Q k j * w q j

/-- The offset after one more layer: `c · wᵀ + β`. -/
def stepC (c : Fin 1024 → EReal) (w : Fin 1024 → Fin 1024 → EReal) (β : Fin 1024 → EReal) : Fin 1024 → EReal :=
  fun q => (∑ j, c j * w q j) + β q

/-- The composed matrix's recursion is `stepQ`. -/
theorem mat_succ (W : ℕ → Fin 1024 → Fin 1024 → EReal) (n : ℕ) :
    Cert.Affine.mat W (n + 1) = stepQ (Cert.Affine.mat W n) (W (n + 1)) := rfl

/-- The composed offset's recursion is `stepC`. -/
theorem off_succ (W : ℕ → Fin 1024 → Fin 1024 → EReal) (b : ℕ → Fin 1024 → EReal) (n : ℕ) :
    Cert.Affine.off W b (n + 1) = stepC (Cert.Affine.off W b n) (W (n + 1)) (b (n + 1)) := rfl

/-- At a row of the upper part the augmented array reads the matrix. -/
theorem aug_top (Q : Fin 1024 → Fin 1024 → EReal) (c : Fin 1024 → EReal) (p : Fin 1032) (q : Fin 1024)
    (hp : p.val < 1024) : aug Q c (ix2 p q) = Q ⟨p.val, hp⟩ q := by
  unfold aug
  exact dif_pos hp

/-- At a row of the lower part the augmented array reads the row vector. -/
theorem aug_bot (Q : Fin 1024 → Fin 1024 → EReal) (c : Fin 1024 → EReal) (p : Fin 1032) (q : Fin 1024)
    (hp : 1024 ≤ p.val) : aug Q c (ix2 p q) = c q := by
  unfold aug
  exact dif_neg (Nat.not_lt.2 hp)

/-! ## The pieces of a fold, as terms -/

/-- The 1 x 1024 x 1024 block of weights seen as a 1024 x 1024 matrix. -/
def sc2 (w : Vec Ideal S1x1024x1024 .f32) : FVec Ideal S1024x1024 .f32 :=
  shapeCast S1024x1024 w shapeCasts_S1x1024x1024_S1024x1024

/-- The 1 x 1 x 1024 block of biases seen as a 1 x 1024 row. -/
def sc1 (β : Vec Ideal S1x1x1024 .f32) : FVec Ideal S1x1024 .f32 :=
  shapeCast S1x1024 β shapeCasts_S1x1x1024_S1x1024

theorem sc2_apply (w : Vec Ideal S1x1024x1024 .f32) (q k : Fin 1024) : sc2 w (ix2 q k) = wOf w q k :=
  shapeCast_1ab_ab_apply w shapeCasts_S1x1024x1024_S1024x1024 q k

theorem sc1_apply (β : Vec Ideal S1x1x1024 .f32) (q : Fin 1024) : sc1 β (ix2 (0 : Fin 1) q) = bOf β q :=
  shapeCast_1ab_ab_apply β shapeCasts_S1x1x1024_S1x1024 (0 : Fin 1) q

/-- The product of the array with the transposed weights, rounded operands, zero start. -/
def mm (A : FVec Ideal S1032x1024 .f32) (w2 : FVec Ideal S1024x1024 .f32) : FVec Ideal S1032x1024 .f32 :=
  matmul dot_S1032x1024_S1024x1024_S1032x1024_1_1_0_0_n_n none (truncf .bf16 A bitsLt_bf16_f32)
    (truncf .bf16 w2 bitsLt_bf16_f32) (constant (F := Ideal) S1032x1024 .f32 0x00000000#32)

/-- One fold: the product, its upper 1024 rows, its lower 8 rows plus the bias row repeated, stacked again. -/
def fold (A : FVec Ideal S1032x1024 .f32) (w2 : FVec Ideal S1024x1024 .f32) (β1 : FVec Ideal S1x1024 .f32) :
    FVec Ideal S1032x1024 .f32 :=
  concatenate S1032x1024 0
    [⟨S1024x1024, extractStridedSlice S1024x1024 ![0, 0] (mm A w2) slices_S1032x1024_o0_0_S1024x1024⟩,
     ⟨S8x1024, addf (extractStridedSlice S8x1024 ![1024, 0] (mm A w2) slices_S1032x1024_o1024_0_S8x1024)
        (broadcastTo S8x1024 β1 broadcasts_S1x1024_S8x1024)⟩]
    concatenates_S1024x1024_S8x1024_S1032x1024_d0

/-- The first array: the first layer's weights transposed, stacked over its bias row repeated eight times. -/
def start (w0 : Vec Ideal S1x1024x1024 .f32) (b0 : Vec Ideal S1x1x1024 .f32) : FVec Ideal S1032x1024 .f32 :=
  concatenate S1032x1024 0
    [⟨S1024x1024, transpose S1024x1024 [1, 0] (sc2 w0) transposes_S1024x1024_p1_0_S1024x1024⟩,
     ⟨S8x1024, broadcastTo S8x1024 (shapeCast S1x1024 (sc1 b0) shapeCasts_S1x1024_S1x1024) broadcasts_S1x1024_S8x1024⟩]
    concatenates_S1024x1024_S8x1024_S1032x1024_d0

/-! ## The stored arrays are folds -/

theorem pay6_eq (A : Vec Ideal S1032x1024 .f32) (w0 w1 w2 : Vec Ideal S1x1024x1024 .f32)
    (b0 b1 b2 : Vec Ideal S1x1x1024 .f32) :
    k0_pay6 (F := Ideal) A w0 b0 w1 b1 w2 b2
      = fold (fold (fold A (sc2 w0) (sc1 b0)) (sc2 w1) (sc1 b1)) (sc2 w2) (sc1 b2) := rfl

theorem pay2_eq (A : FVec Ideal S1032x1024 .f32) (w : Vec Ideal S1x1024x1024 .f32) (b : Vec Ideal S1x1x1024 .f32) :
    k0_pay2 (F := Ideal) A w b = fold A (sc2 w) (sc1 b) :=
  shapeCast_self _ _

theorem pay4_eq (w0 w1 w2 : Vec Ideal S1x1024x1024 .f32) (b0 b1 b2 : Vec Ideal S1x1x1024 .f32) :
    k0_pay4 (F := Ideal) w0 b0 w1 b1 w2 b2 = fold (fold (start w0 b0) (sc2 w1) (sc1 b1)) (sc2 w2) (sc1 b2) := rfl

theorem pay1_eq (A : FVec Ideal S1032x1024 .f32) (w2 : FVec Ideal S1024x1024 .f32) (b : Vec Ideal S1x1x1024 .f32) :
    k0_pay1 (F := Ideal) A w2 b = fold A w2 (sc1 b) :=
  shapeCast_self _ _

theorem pay5_eq (w : Vec Ideal S1x1024x1024 .f32) : k0_pay5 (F := Ideal) w = sc2 w := rfl

/-! ## One fold read at an entry -/

/-- The product with the transposed weights at an entry: row `p` of the array against row `q` of the weights. -/
theorem mm_apply (A : FVec Ideal S1032x1024 .f32) (w2 : FVec Ideal S1024x1024 .f32) (p : Fin 1032) (q : Fin 1024) :
    mm A w2 (ix2 p q) = ∑ k : Fin 1024, A (ix2 p k) * w2 (ix2 q k) :=
  Cert.MatmulAt.matmul_zero_nt_apply (M := 1032) (K := 1024) (N := 1024)
    dot_S1032x1024_S1024x1024_S1032x1024_1_1_0_0_n_n_wf none
    (truncf .bf16 A bitsLt_bf16_f32) (truncf .bf16 w2 bitsLt_bf16_f32) p q

/-- A fold at a row of the upper part: the product's entry. -/
theorem fold_top (A : FVec Ideal S1032x1024 .f32) (w2 : FVec Ideal S1024x1024 .f32) (β1 : FVec Ideal S1x1024 .f32)
    (p : Fin 1032) (q : Fin 1024) (hp : p.val < 1024) :
    fold A w2 β1 (ix2 p q) = ∑ k : Fin 1024, A (ix2 p k) * w2 (ix2 q k) := by
  unfold fold
  refine (Cert.Rank2.concat_rows_left _ _ concatenates_S1024x1024_S8x1024_S1032x1024_d0 p q ⟨p.val, hp⟩ rfl).trans ?_
  refine (slice2_axis0_apply 0 (mm A w2) slices_S1032x1024_o0_0_S1024x1024 ⟨p.val, hp⟩ q p
    (Nat.zero_add _).symm).trans ?_
  exact mm_apply A w2 p q

/-- A fold at a row of the lower part: the product's entry plus the bias row's entry. -/
theorem fold_bot (A : FVec Ideal S1032x1024 .f32) (w2 : FVec Ideal S1024x1024 .f32) (β1 : FVec Ideal S1x1024 .f32)
    (p : Fin 1032) (q : Fin 1024) (hp : 1024 ≤ p.val) :
    fold A w2 β1 (ix2 p q) = (∑ k : Fin 1024, A (ix2 p k) * w2 (ix2 q k)) + β1 (ix2 (0 : Fin 1) q) := by
  have h8 : p.val - 1024 < 8 := by have := p.isLt; omega
  unfold fold
  refine (Cert.Rank2.concat_rows_right _ _ concatenates_S1024x1024_S8x1024_S1032x1024_d0 p q ⟨p.val - 1024, h8⟩
    (Nat.sub_add_cancel hp)).trans ?_
  refine (addf_apply _ _ _).trans ?_
  refine congrArg₂ (· + ·) ?_ ?_
  · refine (slice2_axis0_apply 1024 (mm A w2) slices_S1032x1024_o1024_0_S8x1024 ⟨p.val - 1024, h8⟩ q p ?_).trans
      (mm_apply A w2 p q)
    show p.val = 1024 + (p.val - 1024)
    omega
  · exact broadcastTo_1b_ab_apply β1 broadcasts_S1x1024_S8x1024 ⟨p.val - 1024, h8⟩ q

/-- Folding a layer into an augmented array gives the augmented array of the layer's action on both parts. -/
theorem fold_aug (Q : Fin 1024 → Fin 1024 → EReal) (c : Fin 1024 → EReal) (w : Vec Ideal S1x1024x1024 .f32)
    (β : Vec Ideal S1x1x1024 .f32) :
    fold (aug Q c) (sc2 w) (sc1 β) = aug (stepQ Q (wOf w)) (stepC c (wOf w) (bOf β)) := by
  funext j
  obtain ⟨p, q, rfl⟩ : ∃ (p : Fin 1032) (q : Fin 1024), j = ix2 p q := ⟨j 0, j 1, eq_ix2 j⟩
  by_cases hp : p.val < 1024
  · refine (fold_top _ _ _ p q hp).trans ?_
    refine Eq.trans ?_ (aug_top _ _ p q hp).symm
    show ∑ k : Fin 1024, aug Q c (ix2 p k) * sc2 w (ix2 q k) = ∑ k : Fin 1024, Q ⟨p.val, hp⟩ k * wOf w q k
    refine Finset.sum_congr rfl fun k _ => ?_
    rw [aug_top Q c p k hp, sc2_apply]
  · have hp' : 1024 ≤ p.val := Nat.le_of_not_lt hp
    refine (fold_bot _ _ _ p q hp').trans ?_
    refine Eq.trans ?_ (aug_bot _ _ p q hp').symm
    show (∑ k : Fin 1024, aug Q c (ix2 p k) * sc2 w (ix2 q k)) + sc1 β (ix2 (0 : Fin 1) q)
        = (∑ k : Fin 1024, c k * wOf w q k) + bOf β q
    rw [sc1_apply]
    refine congrArg (· + bOf β q) (Finset.sum_congr rfl fun k _ => ?_)
    rw [aug_bot Q c p k hp', sc2_apply]

/-- The first array is the augmented array of the first layer: its weights transposed, and its bias. -/
theorem start_eq (w0 : Vec Ideal S1x1024x1024 .f32) (b0 : Vec Ideal S1x1x1024 .f32) :
    start w0 b0 = aug (fun k q => wOf w0 q k) (bOf b0) := by
  funext j
  obtain ⟨p, q, rfl⟩ : ∃ (p : Fin 1032) (q : Fin 1024), j = ix2 p q := ⟨j 0, j 1, eq_ix2 j⟩
  by_cases hp : p.val < 1024
  · refine Eq.trans ?_ (aug_top _ _ p q hp).symm
    unfold start
    refine (Cert.Rank2.concat_rows_left _ _ concatenates_S1024x1024_S8x1024_S1032x1024_d0 p q ⟨p.val, hp⟩ rfl).trans ?_
    refine (transpose_ix2_apply (sc2 w0) transposes_S1024x1024_p1_0_S1024x1024 ⟨p.val, hp⟩ q).trans ?_
    exact sc2_apply w0 q ⟨p.val, hp⟩
  · have hp' : 1024 ≤ p.val := Nat.le_of_not_lt hp
    have h8 : p.val - 1024 < 8 := by have := p.isLt; omega
    refine Eq.trans ?_ (aug_bot _ _ p q hp').symm
    unfold start
    refine (Cert.Rank2.concat_rows_right _ _ concatenates_S1024x1024_S8x1024_S1032x1024_d0 p q ⟨p.val - 1024, h8⟩
      (Nat.sub_add_cancel hp')).trans ?_
    refine (broadcastTo_1b_ab_apply _ broadcasts_S1x1024_S8x1024 ⟨p.val - 1024, h8⟩ q).trans ?_
    rw [shapeCast_self]
    exact sc1_apply b0 q

/-! ## The three stored arrays -/

/-- A later array: four more layers folded into the augmented array. -/
theorem pay_chain (Q : Fin 1024 → Fin 1024 → EReal) (c : Fin 1024 → EReal)
    (w0 w1 w2 w3 : Vec Ideal S1x1024x1024 .f32) (b0 b1 b2 b3 : Vec Ideal S1x1x1024 .f32) :
    k0_pay2 (F := Ideal) (k0_pay6 (aug Q c) w0 b0 w1 b1 w2 b2) w3 b3
      = aug (stepQ (stepQ (stepQ (stepQ Q (wOf w0)) (wOf w1)) (wOf w2)) (wOf w3))
            (stepC (stepC (stepC (stepC c (wOf w0) (bOf b0)) (wOf w1) (bOf b1)) (wOf w2) (bOf b2)) (wOf w3) (bOf b3)) := by
  rw [pay6_eq, pay2_eq, fold_aug Q c w0 b0, fold_aug _ _ w1 b1, fold_aug _ _ w2 b2, fold_aug _ _ w3 b3]

/-- The first array: the first layer's augmented array with three more layers folded in, then a fourth. -/
theorem pay_init (w0 w1 w2 w3 : Vec Ideal S1x1024x1024 .f32) (b0 b1 b2 b3 : Vec Ideal S1x1x1024 .f32) :
    k0_pay1 (F := Ideal) (k0_pay4 w0 b0 w1 b1 w2 b2) (k0_pay5 w3) b3
      = aug (stepQ (stepQ (stepQ (fun k q => wOf w0 q k) (wOf w1)) (wOf w2)) (wOf w3))
            (stepC (stepC (stepC (bOf b0) (wOf w1) (bOf b1)) (wOf w2) (bOf b2)) (wOf w3) (bOf b3)) := by
  rw [pay4_eq, pay5_eq, pay1_eq, start_eq, fold_aug _ _ w1 b1, fold_aug _ _ w2 b2, fold_aug _ _ w3 b3]

/-- The last array at an entry: a row of `x` against a column of the matrix part, plus the offset row's entry. -/
theorem pay_apply (x T : Vec Ideal S1024x1024 .f32) (R : Vec Ideal S1x1024 .f32) (p q : Fin 1024) :
    k0_pay3 (F := Ideal) x T R (ix2 p q)
      = (∑ k : Fin 1024, x (ix2 p k) * T (ix2 k q)) + R (ix2 (0 : Fin 1) q) := by
  show matmul dot_S1024x1024_S1024x1024_S1024x1024_1_0_0_1_n_n none (truncf .bf16 x bitsLt_bf16_f32)
      (truncf .bf16 T bitsLt_bf16_f32) (constant (F := Ideal) S1024x1024 .f32 0x00000000#32) (ix2 p q)
      + broadcastTo S1024x1024 R broadcasts_S1x1024_S1024x1024 (ix2 p q) = _
  refine congrArg₂ (· + ·) ?_ ?_
  · exact Cert.MatmulAt.matmul_zero_plain_apply (M := 1024) (K := 1024) (N := 1024)
      dot_S1024x1024_S1024x1024_S1024x1024_1_0_0_1_n_n_wf none
      (truncf .bf16 x bitsLt_bf16_f32) (truncf .bf16 T bitsLt_bf16_f32) p q
  · exact broadcastTo_1b_ab_apply R broadcasts_S1x1024_S1024x1024 p q

end Cert.KernelIdeal.Pay

end
-- ==== Proof.AffineLaw.lean ====
/-
  The chain of affine layers  h ↦ h · Wₗᵀ + bₗ  is itself affine.  For real inputs, applying layers
  0 … n one after the other gives the same array as one product with the composed matrix
  Q = W₀ᵀ · W₁ᵀ ⋯ Wₙᵀ  plus the composed offset  c  (the bias of layer 0 carried through the later layers):
      chain (n+1) = x · Q + c.
  The proof moves to the real numbers, where the extended-real sums and products of real entries are the
  coercions of the real sums and products, and there the identity is associativity of the matrix product
  together with distributivity, by induction on the number of layers.
-/
import Mathlib
import proofs.«155183_g15564961481514_cont_week2b_1535_23_alg».proof.Proof.Affine

noncomputable section

namespace Cert.Affine

variable {ι κ : Type} [Fintype ι] [Fintype κ]

/-- The coercion of a finite real sum is the extended-real sum of the coercions. -/
theorem coe_finset_sum {α : Type} (s : Finset α) (f : α → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- An extended real that is neither infinity is a real number. -/
theorem exists_real_of_ne {a : EReal} (h1 : a ≠ ⊤) (h2 : a ≠ ⊥) : ∃ r : ℝ, a = (r : EReal) :=
  ⟨a.toReal, (EReal.coe_toReal h1 h2).symm⟩

/-- The first `n` layers over the reals. -/
def chainR (x : ι → κ → ℝ) (W : ℕ → κ → κ → ℝ) (b : ℕ → κ → ℝ) : ℕ → ι → κ → ℝ
  | 0 => x
  | n + 1 => fun p q => (∑ k, chainR x W b n p k * W n q k) + b n q

/-- The composed matrix over the reals. -/
def matR (W : ℕ → κ → κ → ℝ) : ℕ → κ → κ → ℝ
  | 0 => fun k q => W 0 q k
  | n + 1 => fun k q => ∑ j, matR W n k j * W (n + 1) q j

/-- The composed offset over the reals. -/
def offR (W : ℕ → κ → κ → ℝ) (b : ℕ → κ → ℝ) : ℕ → κ → ℝ
  | 0 => b 0
  | n + 1 => fun q => (∑ j, offR W b n j * W (n + 1) q j) + b (n + 1) q

/-- On real inputs the extended-real chain is the coercion of the real chain. -/
theorem chain_coe (x : ι → κ → ℝ) (W : ℕ → κ → κ → ℝ) (b : ℕ → κ → ℝ) (n : ℕ) (p : ι) (q : κ) :
    chain (fun p k => ((x p k : ℝ) : EReal)) (fun l q k => ((W l q k : ℝ) : EReal))
        (fun l q => ((b l q : ℝ) : EReal)) n p q
      = ((chainR x W b n p q : ℝ) : EReal) := by
  induction n generalizing p q with
  | zero => rfl
  | succ n ih =>
    simp only [chain, layer, chainR]
    rw [EReal.coe_add, coe_finset_sum]
    congr 1
    refine Finset.sum_congr rfl fun k _ => ?_
    rw [ih, EReal.coe_mul]

/-- On real weights the extended-real composed matrix is the coercion of the real one. -/
theorem mat_coe (W : ℕ → κ → κ → ℝ) (n : ℕ) (k q : κ) :
    mat (fun l q k => ((W l q k : ℝ) : EReal)) n k q = ((matR W n k q : ℝ) : EReal) := by
  induction n generalizing k q with
  | zero => rfl
  | succ n ih =>
    simp only [mat, matR]
    rw [coe_finset_sum]
    refine Finset.sum_congr rfl fun j _ => ?_
    rw [ih, EReal.coe_mul]

/-- On real weights and biases the extended-real composed offset is the coercion of the real one. -/
theorem off_coe (W : ℕ → κ → κ → ℝ) (b : ℕ → κ → ℝ) (n : ℕ) (q : κ) :
    off (fun l q k => ((W l q k : ℝ) : EReal)) (fun l q => ((b l q : ℝ) : EReal)) n q
      = ((offR W b n q : ℝ) : EReal) := by
  induction n generalizing q with
  | zero => rfl
  | succ n ih =>
    simp only [off, offR]
    rw [EReal.coe_add, coe_finset_sum]
    congr 1
    refine Finset.sum_congr rfl fun j _ => ?_
    rw [ih, EReal.coe_mul]

/-- Over the reals: layers `0 … n` applied in order equal one product with the composed matrix plus the
    composed offset.  The step is associativity of the product and distributivity over the offset. -/
theorem chainR_succ_eq (x : ι → κ → ℝ) (W : ℕ → κ → κ → ℝ) (b : ℕ → κ → ℝ) (n : ℕ) (p : ι) (q : κ) :
    chainR x W b (n + 1) p q = (∑ k, x p k * matR W n k q) + offR W b n q := by
  induction n generalizing p q with
  | zero => rfl
  | succ n ih =>
    have step : chainR x W b (n + 1 + 1) p q
        = (∑ k, chainR x W b (n + 1) p k * W (n + 1) q k) + b (n + 1) q := rfl
    rw [step]
    simp only [ih, matR, offR]
    have h1 : ∀ k, ((∑ i, x p i * matR W n i k) + offR W b n k) * W (n + 1) q k
        = (∑ i, x p i * (matR W n i k * W (n + 1) q k)) + offR W b n k * W (n + 1) q k := by
      intro k
      rw [add_mul, Finset.sum_mul]
      congr 1
      exact Finset.sum_congr rfl fun i _ => mul_assoc _ _ _
    simp only [h1, Finset.sum_add_distrib, Finset.mul_sum]
    rw [Finset.sum_comm, add_assoc]

/-- For real inputs the composed map after layers `0 … n` is the chain of the first `n + 1` layers. -/
theorem composed_eq_chain (x : ι → κ → ℝ) (W : ℕ → κ → κ → ℝ) (b : ℕ → κ → ℝ) (n : ℕ) :
    composed (fun p k => ((x p k : ℝ) : EReal)) (fun l q k => ((W l q k : ℝ) : EReal))
        (fun l q => ((b l q : ℝ) : EReal)) n
      = chain (fun p k => ((x p k : ℝ) : EReal)) (fun l q k => ((W l q k : ℝ) : EReal))
        (fun l q => ((b l q : ℝ) : EReal)) (n + 1) := by
  funext p q
  rw [chain_coe, chainR_succ_eq, EReal.coe_add, coe_finset_sum]
  unfold composed
  rw [off_coe]
  congr 1
  refine Finset.sum_congr rfl fun k _ => ?_
  rw [mat_coe, EReal.coe_mul]

/-- The same for extended-real arrays all of whose entries are real numbers. -/
theorem composed_eq_chain_of_real (x : ι → κ → EReal) (W : ℕ → κ → κ → EReal) (b : ℕ → κ → EReal)
    (hx : ∀ p k, ∃ r : ℝ, x p k = r) (hW : ∀ l q k, ∃ r : ℝ, W l q k = r)
    (hb : ∀ l q, ∃ r : ℝ, b l q = r) (n : ℕ) :
    composed x W b n = chain x W b (n + 1) := by
  choose x' hx' using hx
  choose W' hW' using hW
  choose b' hb' using hb
  have ex : x = fun p k => ((x' p k : ℝ) : EReal) := by funext p k; exact hx' p k
  have eW : W = fun l q k => ((W' l q k : ℝ) : EReal) := by funext l q k; exact hW' l q k
  have eb : b = fun l q => ((b' l q : ℝ) : EReal) := by funext l q; exact hb' l q
  rw [ex, eW, eb]
  exact composed_eq_chain x' W' b' n

end Cert.Affine

end
-- ==== Proof.KI.Value2.lean ====
/-
  The output array in closed form, at the exact instance (floats are extended reals).

  Write X for the 4096 x 1024 rows, W l for the weights of layer l (rows q, columns k) and b l for its bias.  The first
  grid point leaves the augmented array of layers 0 … 3 composed; each of the next four points folds four more layers
  in, so after point n < 5 the accumulator is  aug (W₀ᵀ ⋯ W₄ₙ₊₃ᵀ) (the offset carried along), and from point 4 on it
  holds all twenty layers.  A point t ≥ 5 stores rows (t - 5) * 1024 … of  X · Q + c  with Q, c the composed matrix and
  offset of the twenty layers.  When every input entry is a real number this is the twenty layers applied one after
  the other (associativity and distributivity in the reals), and the four row tiles cover the output array.
-/
import proofs.«155183_g15564961481514_cont_week2b_1535_23_alg».proof.Proof.KI.Value1
import proofs.«155183_g15564961481514_cont_week2b_1535_23_alg».proof.Proof.KI.Blocks
import proofs.«155183_g15564961481514_cont_week2b_1535_23_alg».proof.Proof.KI.Payload
import proofs.«155183_g15564961481514_cont_week2b_1535_23_alg».proof.Proof.AffineLaw

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Pay Cert.Affine Idealize.ShloMosaic.ValueIdx

variable (m : (ℓ : Loc nD τ sig) → Buf (Elt Ideal) ℓ) (ρ : Dev nD → PrngReg)

/-! ## The three argument arrays as matrices, and the result -/

/-- The rows: entry `(p, k)` of the 4096 x 1024 argument. -/
def Xf (c : Dev nD) : Fin 4096 → Fin 1024 → EReal :=
  fun p k => (m ((c : Thread nD τ).loc main_arg0) : S4096x1024.Idx → EReal) (ix2 p k)

/-- The weights by layer: entry `(q, k)` of layer `l` (zero past the twentieth layer, which nothing reads). -/
def Wf (c : Dev nD) : ℕ → Fin 1024 → Fin 1024 → EReal :=
  fun l q k => if h : l < 20 then (m ((c : Thread nD τ).loc main_arg1) : S20x1024x1024.Idx → EReal) (ix3 ⟨l, h⟩ q k) else 0

/-- The biases by layer: entry `q` of layer `l` (zero past the twentieth layer). -/
def bf (c : Dev nD) : ℕ → Fin 1024 → EReal :=
  fun l q => if h : l < 20 then (m ((c : Thread nD τ).loc main_arg2) : S20x1024.Idx → EReal) (ix2 ⟨l, h⟩ q) else 0

/-- The result: the twenty layers applied in order to the rows. -/
def G (c : Dev nD) : S4096x1024.Idx → EReal :=
  fun i => chain (Xf m c) (Wf m c) (bf m c) 20 ⟨(i 0).val, (i 0).isLt⟩ ⟨(i 1).val, (i 1).isLt⟩

theorem G_apply (c : Dev nD) (p : Fin 4096) (q : Fin 1024) :
    G m c (ix2 p q) = chain (Xf m c) (Wf m c) (bf m c) 20 p q := rfl

/-! ## The blocks a point reads, as layers of the arguments -/

theorem wOf_iblk_1 (c : Dev nD) (t : Fin cfg0.N) (l : ℕ) (hl : 4 * min t.val 4 + 0 = l) :
    wOf (iblk m c 1 t : S1x1024x1024.Idx → EReal) = Wf m c l := by
  subst hl
  funext q k
  exact ((iblk_1 m c t q k).trans (congrFun (V_main_arg1 m c) _)).trans
    (dif_pos (layer_lt t 0 (by decide)) : Wf m c (4 * min t.val 4 + 0) q k = _).symm

theorem wOf_iblk_2 (c : Dev nD) (t : Fin cfg0.N) (l : ℕ) (hl : 4 * min t.val 4 + 1 = l) :
    wOf (iblk m c 2 t : S1x1024x1024.Idx → EReal) = Wf m c l := by
  subst hl
  funext q k
  exact ((iblk_2 m c t q k).trans (congrFun (V_main_arg1 m c) _)).trans
    (dif_pos (layer_lt t 1 (by decide)) : Wf m c (4 * min t.val 4 + 1) q k = _).symm

theorem wOf_iblk_3 (c : Dev nD) (t : Fin cfg0.N) (l : ℕ) (hl : 4 * min t.val 4 + 2 = l) :
    wOf (iblk m c 3 t : S1x1024x1024.Idx → EReal) = Wf m c l := by
  subst hl
  funext q k
  exact ((iblk_3 m c t q k).trans (congrFun (V_main_arg1 m c) _)).trans
    (dif_pos (layer_lt t 2 (by decide)) : Wf m c (4 * min t.val 4 + 2) q k = _).symm

theorem wOf_iblk_4 (c : Dev nD) (t : Fin cfg0.N) (l : ℕ) (hl : 4 * min t.val 4 + 3 = l) :
    wOf (iblk m c 4 t : S1x1024x1024.Idx → EReal) = Wf m c l := by
  subst hl
  funext q k
  exact ((iblk_4 m c t q k).trans (congrFun (V_main_arg1 m c) _)).trans
    (dif_pos (layer_lt t 3 (by decide)) : Wf m c (4 * min t.val 4 + 3) q k = _).symm

theorem bOf_iblk_5 (c : Dev nD) (t : Fin cfg0.N) (l : ℕ) (hl : 4 * min t.val 4 + 0 = l) :
    bOf (iblk m c 5 t : S1x1x1024.Idx → EReal) = bf m c l := by
  subst hl
  funext q
  exact ((iblk_5 m c t q).trans (V_main_v0_apply m c _ q)).trans
    (dif_pos (layer_lt t 0 (by decide)) : bf m c (4 * min t.val 4 + 0) q = _).symm

theorem bOf_iblk_6 (c : Dev nD) (t : Fin cfg0.N) (l : ℕ) (hl : 4 * min t.val 4 + 1 = l) :
    bOf (iblk m c 6 t : S1x1x1024.Idx → EReal) = bf m c l := by
  subst hl
  funext q
  exact ((iblk_6 m c t q).trans (V_main_v0_apply m c _ q)).trans
    (dif_pos (layer_lt t 1 (by decide)) : bf m c (4 * min t.val 4 + 1) q = _).symm

theorem bOf_iblk_7 (c : Dev nD) (t : Fin cfg0.N) (l : ℕ) (hl : 4 * min t.val 4 + 2 = l) :
    bOf (iblk m c 7 t : S1x1x1024.Idx → EReal) = bf m c l := by
  subst hl
  funext q
  exact ((iblk_7 m c t q).trans (V_main_v0_apply m c _ q)).trans
    (dif_pos (layer_lt t 2 (by decide)) : bf m c (4 * min t.val 4 + 2) q = _).symm

theorem bOf_iblk_8 (c : Dev nD) (t : Fin cfg0.N) (l : ℕ) (hl : 4 * min t.val 4 + 3 = l) :
    bOf (iblk m c 8 t : S1x1x1024.Idx → EReal) = bf m c l := by
  subst hl
  funext q
  exact ((iblk_8 m c t q).trans (V_main_v0_apply m c _ q)).trans
    (dif_pos (layer_lt t 3 (by decide)) : bf m c (4 * min t.val 4 + 3) q = _).symm

/-- The tile of rows at point `t`: rows `(t - 5) * 1024 + p` of the argument. -/
theorem iblk_0_Xf (c : Dev nD) (t : Fin cfg0.N) (p k : Fin 1024) :
    (iblk m c 0 t : S1024x1024.Idx → EReal) (ix2 p k) = Xf m c ⟨(t.val - 5) * 1024 + p.val, row_lt t p⟩ k :=
  (iblk_x m c t p k).trans (congrFun (V_main_arg0 m c) _)

/-! ## The accumulator's two loads, at an entry -/

/-- The first 1024 rows of an augmented array are its matrix. -/
theorem ld_aug_top (Q : Fin 1024 → Fin 1024 → EReal) (cc : Fin 1024 → EReal)
    (h : ∀ a, (![0, 0] : Fin 2 → Nat) a + S1024x1024.size a ≤ S1032x1024.size a) (k q : Fin 1024) :
    (View.ld (Val := Elt Ideal) (e' := .f32) (aug Q cc) (Rect.unit (s := S1032x1024) ![0, 0] S1024x1024.size h) : S1024x1024.Idx → EReal) (ix2 k q)
      = Q k q :=
  Eq.trans (congrArg (aug Q cc) (funext fun a => Fin.ext (by
      match a with
      | ⟨0, _⟩ => show 0 + 1 * k.val = k.val; omega
      | ⟨1, _⟩ => show 0 + 1 * q.val = q.val; omega)))
    (aug_top Q cc ⟨k.val, by have := k.isLt; omega⟩ q k.isLt)

/-- Row 1024 of an augmented array is its row vector. -/
theorem ld_aug_bot (Q : Fin 1024 → Fin 1024 → EReal) (cc : Fin 1024 → EReal)
    (h : ∀ a, (![1024, 0] : Fin 2 → Nat) a + S1x1024.size a ≤ S1032x1024.size a) (u : Fin 1) (q : Fin 1024) :
    (View.ld (Val := Elt Ideal) (e' := .f32) (aug Q cc) (Rect.unit (s := S1032x1024) ![1024, 0] S1x1024.size h) : S1x1024.Idx → EReal) (ix2 u q)
      = cc q :=
  Eq.trans (congrArg (aug Q cc) (funext fun a => Fin.ext (by
      match a with
      | ⟨0, _⟩ => show 1024 + 1 * u.val = 1024 + u.val; omega
      | ⟨1, _⟩ => show 0 + 1 * q.val = q.val; omega)))
    (aug_bot Q cc ⟨1024 + u.val, by have := u.isLt; omega⟩ q (by show 1024 ≤ 1024 + u.val; omega))

/-! ## Real entries -/

theorem Xf_real (c : Dev nD)
    (h : ∀ i, ∃ r : ℝ, (m ((c : Thread nD τ).loc main_arg0) : S4096x1024.Idx → EReal) i = (r : EReal)) :
    ∀ p k, ∃ r : ℝ, Xf m c p k = (r : EReal) := fun p k => h (ix2 p k)

theorem Wf_real (c : Dev nD)
    (h : ∀ i, ∃ r : ℝ, (m ((c : Thread nD τ).loc main_arg1) : S20x1024x1024.Idx → EReal) i = (r : EReal)) :
    ∀ l q k, ∃ r : ℝ, Wf m c l q k = (r : EReal) := fun l q k => by
  unfold Wf
  split
  · exact h _
  · exact ⟨0, EReal.coe_zero.symm⟩

theorem bf_real (c : Dev nD)
    (h : ∀ i, ∃ r : ℝ, (m ((c : Thread nD τ).loc main_arg2) : S20x1024.Idx → EReal) i = (r : EReal)) :
    ∀ l q, ∃ r : ℝ, bf m c l q = (r : EReal) := fun l q => by
  unfold bf
  split
  · exact h _
  · exact ⟨0, EReal.coe_zero.symm⟩

/-- With real entries, one product with the composed matrix plus the composed offset is the chain of twenty layers. -/
theorem composed_19 (c : Dev nD)
    (hx : ∀ p k, ∃ r : ℝ, Xf m c p k = (r : EReal)) (hW : ∀ l q k, ∃ r : ℝ, Wf m c l q k = (r : EReal))
    (hb : ∀ l q, ∃ r : ℝ, bf m c l q = (r : EReal)) (p : Fin 4096) (q : Fin 1024) :
    (∑ k : Fin 1024, Xf m c p k * mat (Wf m c) 19 k q) + off (Wf m c) (bf m c) 19 q
      = chain (Xf m c) (Wf m c) (bf m c) 20 p q :=
  congrFun (congrFun (composed_eq_chain_of_real (Xf m c) (Wf m c) (bf m c) hx hW hb 19) p) q

/-! ## What each branch leaves, as layers -/

/-- Branch one, on blocks that are layers 0 … 3: the augmented array of the first four layers composed. -/
theorem accA_val (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : condA i) (hB : ¬condB i) (hC : ¬condC i)
    (x1 : Vec Ideal S1024x1024 .f32) (x2 : Vec Ideal S1x1024x1024 .f32) (x3 : Vec Ideal S1x1024x1024 .f32) (x4 : Vec Ideal S1x1024x1024 .f32) (x5 : Vec Ideal S1x1024x1024 .f32) (x6 : Vec Ideal S1x1x1024 .f32) (x7 : Vec Ideal S1x1x1024 .f32) (x8 : Vec Ideal S1x1x1024 .f32) (x9 : Vec Ideal S1x1x1024 .f32)
    (W : ℕ → Fin 1024 → Fin 1024 → EReal) (b : ℕ → Fin 1024 → EReal)
    (h2 : wOf x2 = W 0) (h3 : wOf x3 = W 1) (h4 : wOf x4 = W 2) (h5 : wOf x5 = W 3)
    (h6 : bOf x6 = b 0) (h7 : bOf x7 = b 1) (h8 : bOf x8 = b 2) (h9 : bOf x9 = b 3) :
    accA c i arg1 harg1 arg2 harg2 arg3 harg3 arg4 harg4 arg5 harg5 arg6 harg6 arg7 harg7 arg8 harg8 arg9 harg9 arg10 harg10 arg11 harg11 hA hB hC x1 x2 x3 x4 x5 x6 x7 x8 x9 = aug (mat W 3) (off W b 3) := by
  rw [accA_eq, pay_init, h2, h3, h4, h5, h6, h7, h8, h9]
  rfl

/-- Branch two, on the augmented array of layers 0 … k and blocks that are layers k+1 … k+4: four more layers. -/
theorem accB_val (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : condB i) (hC : ¬condC i)
    (x1 : Vec Ideal S1024x1024 .f32) (x2 : Vec Ideal S1x1024x1024 .f32) (x3 : Vec Ideal S1x1024x1024 .f32) (x4 : Vec Ideal S1x1024x1024 .f32) (x5 : Vec Ideal S1x1024x1024 .f32) (x6 : Vec Ideal S1x1x1024 .f32) (x7 : Vec Ideal S1x1x1024 .f32) (x8 : Vec Ideal S1x1x1024 .f32) (x9 : Vec Ideal S1x1x1024 .f32)
    (W : ℕ → Fin 1024 → Fin 1024 → EReal) (b : ℕ → Fin 1024 → EReal) (k : ℕ)
    (h2 : wOf x2 = W (k + 1)) (h3 : wOf x3 = W (k + 1 + 1)) (h4 : wOf x4 = W (k + 1 + 1 + 1))
    (h5 : wOf x5 = W (k + 1 + 1 + 1 + 1))
    (h6 : bOf x6 = b (k + 1)) (h7 : bOf x7 = b (k + 1 + 1)) (h8 : bOf x8 = b (k + 1 + 1 + 1))
    (h9 : bOf x9 = b (k + 1 + 1 + 1 + 1)) :
    accB c i arg1 harg1 arg2 harg2 arg3 harg3 arg4 harg4 arg5 harg5 arg6 harg6 arg7 harg7 arg8 harg8 arg9 harg9 arg10 harg10 arg11 harg11 hA hB hC x1 x2 x3 x4 x5 x6 x7 x8 x9 (aug (mat W k) (off W b k))
      = aug (mat W (k + 1 + 1 + 1 + 1)) (off W b (k + 1 + 1 + 1 + 1)) := by
  rw [accB_eq, pay_chain, h2, h3, h4, h5, h6, h7, h8, h9]
  rfl

/-- Branch three, on an augmented array: the tile of rows times the matrix part, plus the offset row. -/
theorem outC_val (c : Dev nD) (i : grid0.Coords) (arg1 : Memref sig .tc .vmem S1024x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1032x1024 .f32) (harg11 : arg11.IsWhole) (hA : ¬condA i) (hB : ¬condB i) (hC : condC i)
    (x1 : Vec Ideal S1024x1024 .f32) (x2 : Vec Ideal S1x1024x1024 .f32) (x3 : Vec Ideal S1x1024x1024 .f32) (x4 : Vec Ideal S1x1024x1024 .f32) (x5 : Vec Ideal S1x1024x1024 .f32) (x6 : Vec Ideal S1x1x1024 .f32) (x7 : Vec Ideal S1x1x1024 .f32) (x8 : Vec Ideal S1x1x1024 .f32) (x9 : Vec Ideal S1x1x1024 .f32)
    (Q : Fin 1024 → Fin 1024 → EReal) (cc : Fin 1024 → EReal) (p q : Fin 1024) :
    outC c i arg1 harg1 arg2 harg2 arg3 harg3 arg4 harg4 arg5 harg5 arg6 harg6 arg7 harg7 arg8 harg8 arg9 harg9 arg10 harg10 arg11 harg11 hA hB hC x1 x2 x3 x4 x5 x6 x7 x8 x9 (aug Q cc) (ix2 p q)
      = (∑ k : Fin 1024, x1 (ix2 p k) * Q k q) + cc q := by
  rw [outC_eq, pay_apply]
  refine congrArg₂ (· + ·) (Finset.sum_congr rfl fun k _ => ?_) (ld_aug_bot Q cc _ (0 : Fin 1) q)
  rw [ld_aug_top]

/-! ## The accumulator along the grid -/

theorem pair_fst {α β : Type} (a : α) (b : β) : (a, b).1 = a := rfl
theorem pair_snd {α β : Type} (a : α) (b : β) : (a, b).2 = b := rfl

/-- The first point (any point at position 0) leaves the augmented array of layers 0 … 3 composed. -/
theorem acc_A (c : Dev nD) (t : Fin cfg0.N) (h0 : t.val = 0) :
    (outsAt m c t.val t.isLt).2 = aug (mat (Wf m c) 3) (off (Wf m c) (bf m c) 3) := by
  have hA : condA (grid0.coords t) := (hcondA t).mpr h0
  have hB : ¬condB (grid0.coords t) := fun h => absurd ((hcondB t).mp h) (by omega)
  have hC : ¬condC (grid0.coords t) := fun h => absurd ((hcondC t).mp h) (by omega)
  refine ((congrArg Prod.snd (outsAt_A m c t h0)).trans (pair_snd _ _)).trans ?_
  exact accA_val c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hA hB hC
    (iblk m c 0 t) (iblk m c 1 t) (iblk m c 2 t) (iblk m c 3 t) (iblk m c 4 t) (iblk m c 5 t) (iblk m c 6 t) (iblk m c 7 t) (iblk m c 8 t) (Wf m c) (bf m c)
    (wOf_iblk_1 m c t 0 (by omega)) (wOf_iblk_2 m c t 1 (by omega)) (wOf_iblk_3 m c t 2 (by omega))
    (wOf_iblk_4 m c t 3 (by omega))
    (bOf_iblk_5 m c t 0 (by omega)) (bOf_iblk_6 m c t 1 (by omega)) (bOf_iblk_7 m c t 2 (by omega))
    (bOf_iblk_8 m c t 3 (by omega))

/-- A point at position 1 … 4 folds its four layers into what the point before left. -/
theorem acc_B (c : Dev nD) (t : Fin cfg0.N) (h0 : 0 < t.val) (h5 : t.val < 5) (k : ℕ) (hk : 4 * t.val = k + 1)
    (n' : ℕ) (hn' : n' < cfg0.N) (hpred : t.val - 1 = n')
    (ih : (outsAt m c n' hn').2 = aug (mat (Wf m c) k) (off (Wf m c) (bf m c) k)) :
    (outsAt m c t.val t.isLt).2
      = aug (mat (Wf m c) (k + 1 + 1 + 1 + 1)) (off (Wf m c) (bf m c) (k + 1 + 1 + 1 + 1)) := by
  subst hpred
  have hA : ¬condA (grid0.coords t) := fun h => absurd ((hcondA t).mp h) (by omega)
  have hB : condB (grid0.coords t) := (hcondB t).mpr ⟨h0, h5⟩
  have hC : ¬condC (grid0.coords t) := fun h => absurd ((hcondC t).mp h) (by omega)
  refine ((congrArg Prod.snd (outsAt_B m c t h0 h5)).trans (pair_snd _ _)).trans ?_
  refine (congrArg (fun xs => accB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hA hB hC
    (iblk m c 0 t) (iblk m c 1 t) (iblk m c 2 t) (iblk m c 3 t) (iblk m c 4 t) (iblk m c 5 t) (iblk m c 6 t) (iblk m c 7 t) (iblk m c 8 t) xs) ih).trans ?_
  exact accB_val c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hA hB hC
    (iblk m c 0 t) (iblk m c 1 t) (iblk m c 2 t) (iblk m c 3 t) (iblk m c 4 t) (iblk m c 5 t) (iblk m c 6 t) (iblk m c 7 t) (iblk m c 8 t) (Wf m c) (bf m c) k
    (wOf_iblk_1 m c t _ (by omega)) (wOf_iblk_2 m c t _ (by omega)) (wOf_iblk_3 m c t _ (by omega))
    (wOf_iblk_4 m c t _ (by omega))
    (bOf_iblk_5 m c t _ (by omega)) (bOf_iblk_6 m c t _ (by omega)) (bOf_iblk_7 m c t _ (by omega))
    (bOf_iblk_8 m c t _ (by omega))

/-- A point from position 5 on stores, from an augmented accumulator, its tile of rows times the matrix part plus the
    offset row. -/
theorem out_C (c : Dev nD) (t : Fin cfg0.N) (h5 : 5 ≤ t.val) (Q : Fin 1024 → Fin 1024 → EReal) (cc : Fin 1024 → EReal)
    (n' : ℕ) (hn' : n' < cfg0.N) (hpred : t.val - 1 = n') (hacc : (outsAt m c n' hn').2 = aug Q cc) (p q : Fin 1024) :
    ((outsAt m c t.val t.isLt).1 : S1024x1024.Idx → EReal) (ix2 p q)
      = (∑ k : Fin 1024, Xf m c ⟨(t.val - 5) * 1024 + p.val, row_lt t p⟩ k * Q k q) + cc q := by
  subst hpred
  have hA : ¬condA (grid0.coords t) := fun h => absurd ((hcondA t).mp h) (by omega)
  have hB : ¬condB (grid0.coords t) := fun h => absurd ((hcondB t).mp h) (by omega)
  have hC : condC (grid0.coords t) := (hcondC t).mpr h5
  refine (congrFun ((congrArg Prod.fst (outsAt_C m c t h5)).trans (pair_fst _ _)) (ix2 p q)).trans ?_
  refine (congrArg (fun xs => outC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hA hB hC
    (iblk m c 0 t) (iblk m c 1 t) (iblk m c 2 t) (iblk m c 3 t) (iblk m c 4 t) (iblk m c 5 t) (iblk m c 6 t) (iblk m c 7 t) (iblk m c 8 t) xs (ix2 p q)) hacc).trans ?_
  refine (outC_val c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hA hB hC
    (iblk m c 0 t) (iblk m c 1 t) (iblk m c 2 t) (iblk m c 3 t) (iblk m c 4 t) (iblk m c 5 t) (iblk m c 6 t) (iblk m c 7 t) (iblk m c 8 t) Q cc p q).trans ?_
  refine congrArg (· + cc q) (Finset.sum_congr rfl fun k _ => ?_)
  rw [iblk_0_Xf m c t p k]

/-- After point `n`, `n < 5`, the accumulator is the augmented array of layers 0 … 4n + 3 composed. -/
theorem acc_fold (c : Dev nD) : ∀ (n : ℕ) (hn : n < cfg0.N), n < 5 →
    (outsAt m c n hn).2 = aug (mat (Wf m c) (4 * n + 3)) (off (Wf m c) (bf m c) (4 * n + 3))
  | 0, hn, _ => acc_A m c ⟨0, hn⟩ rfl
  | n + 1, hn, h5 => by
    have ih := acc_fold c n (Nat.lt_of_succ_lt hn) (by omega)
    have e4 : 4 * n + 3 + 1 + 1 + 1 + 1 = 4 * (n + 1) + 3 := by omega
    rw [← e4]
    exact acc_B m c ⟨n + 1, hn⟩ (Nat.succ_pos n) h5 (4 * n + 3) (by show 4 * (n + 1) = 4 * n + 3 + 1; omega)
      n (Nat.lt_of_succ_lt hn) (by show n + 1 - 1 = n; omega) ih

/-- From point 4 on the accumulator is the augmented array of all twenty layers composed. -/
theorem acc_last (c : Dev nD) : ∀ (n : ℕ) (hn : n < cfg0.N), 4 ≤ n →
    (outsAt m c n hn).2 = aug (mat (Wf m c) 19) (off (Wf m c) (bf m c) 19)
  | 0, _, h => absurd h (by omega)
  | n + 1, hn, h => by
    by_cases h5 : n + 1 < 5
    · have e := acc_fold m c (n + 1) hn h5
      have e19 : 4 * (n + 1) + 3 = 19 := by omega
      rw [e19] at e
      exact e
    · have ih := acc_last c n (Nat.lt_of_succ_lt hn) (by omega)
      refine ((congrArg Prod.snd (outsAt_C m c ⟨n + 1, hn⟩ (by show 5 ≤ n + 1; omega))).trans (pair_snd _ _)).trans ?_
      exact ih

/-! ## The output array -/

/-- What a point from 5 on writes back is its block of the result. -/
theorem flushed_eq (c : Dev nD)
    (hx : ∀ p k, ∃ r : ℝ, Xf m c p k = (r : EReal)) (hW : ∀ l q k, ∃ r : ℝ, Wf m c l q k = (r : EReal))
    (hb : ∀ l q, ∃ r : ℝ, bf m c l q = (r : EReal)) (t : Fin cfg0.N) (hf : (cfg0.win 9).flush t = true) :
    (dats m 0 c).flushed 9 t = ((cfg0.win 9).blk t).view.read (Elt Ideal) (G m c) := by
  have h5 : 5 ≤ t.val := (flush_9 t).1 hf
  have hlt : t.val - 1 < cfg0.N := Nat.lt_of_le_of_lt (Nat.sub_le _ _) t.isLt
  have hacc := acc_last m c (t.val - 1) hlt (by omega)
  funext y
  obtain ⟨p, q, rfl⟩ : ∃ (p q : Fin 1024), y = ix2 p q := ⟨y 0, y 1, eq_ix2 y⟩
  refine Eq.trans ?_ (read_blk_9 (F := Ideal) t (G m c) p q).symm
  rw [G_apply, ← composed_19 m c hx hW hb]
  refine Eq.trans (?_ : _ = ((outsAt m c t.val t.isLt).1 : S1024x1024.Idx → EReal) (ix2 p q)) ?_
  · exact congrFun (after_9 m c t) _
  exact out_C m c t h5 _ _ (t.val - 1) hlt rfl hacc p q

/-- The output array ends holding the result. -/
theorem final (c : Dev nD)
    (hx : ∀ p k, ∃ r : ℝ, Xf m c p k = (r : EReal)) (hW : ∀ l q k, ∃ r : ℝ, Wf m c l q k = (r : EReal))
    (hb : ∀ l q, ∃ r : ℝ, bf m c l q = (r : EReal)) : (dats m 0 c).arrAt 9 cfg0.N = G m c :=
  (dats m 0 c).arrAt_eq_of_cover 9 (G m c) (fun t hf => flushed_eq m c hx hW hb t hf) cover_9

/-- The run, read: with real inputs, the result array ends at the twenty layers applied to the rows, and the three
    arguments are as launched. -/
theorem value_run
    (hreal : ∀ c : Dev nD,
      (∀ i, ∃ r : ℝ, (m ((c : Thread nD τ).loc main_arg0) : S4096x1024.Idx → EReal) i = (r : EReal))
      ∧ (∀ i, ∃ r : ℝ, (m ((c : Thread nD τ).loc main_arg1) : S20x1024x1024.Idx → EReal) i = (r : EReal))
      ∧ (∀ i, ∃ r : ℝ, (m ((c : Thread nD τ).loc main_arg2) : S20x1024.Idx → EReal) i = (r : EReal))) :
    θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 9).trans (final m c (Xf_real m c (hreal c).1) (Wf_real m c (hreal c).2.1) (bf_real m c (hreal c).2.2)),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 rfl (by decide))).trans (V_main_arg2 m c)⟩) (run_main m ρ)

end Cert.KernelIdeal.Fr

end
-- ==== Proof.RefChain.lean ====
import proofs.«155183_g15564961481514_cont_week2b_1535_23_alg».proof.Proof.Gen.ReferenceIdeal
import proofs.«155183_g15564961481514_cont_week2b_1535_23_alg».proof.Proof.Affine
import Idealize.ShloMosaic.Lib.Pipeline.Value
import Idealize.ShloMosaic.Lib.ValueIdx
import Idealize.ShloMosaic.PureOps.Ideal.Laws

/-
  The reference program read entry by entry. Its 180 operations are twenty groups of nine: a slice, a reshape and a
  transpose pick layer l's weight matrix (transposed), a dot_general contracts the running value's second axis with
  it, a slice, a reshape and two broadcasts pick layer l's bias row, and an add joins them. Read at the entry (p, q),
  group l is therefore  (∑ k, h p k * W l q k) + b l q  of the previous group's result h: one affine layer. The group
  is written once, for a variable layer number l; twenty of them in a row are the chain of layers.
-/

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-! ## The chain's data as functions of coordinates -/

/-- The input array as a function of its two coordinates. -/
def inp (x0 : FVec Ideal S4096x1024 .f32) : Fin 4096 → Fin 1024 → EReal :=
  fun p k => x0 (ix2 p k)

/-- The stacked weights as a function of the layer's number and two coordinates (zero past the last layer). -/
def wts (x1 : FVec Ideal S20x1024x1024 .f32) : ℕ → Fin 1024 → Fin 1024 → EReal :=
  fun l q k => if h : l < 20 then x1 (ix3 ⟨l, h⟩ q k) else 0

/-- The stacked biases as a function of the layer's number and one coordinate (zero past the last layer). -/
def bias (x2 : FVec Ideal S20x1024 .f32) : ℕ → Fin 1024 → EReal :=
  fun l q => if h : l < 20 then x2 (ix2 ⟨l, h⟩ q) else 0

theorem wts_lt (x1 : FVec Ideal S20x1024x1024 .f32) (l : ℕ) (h : l < 20) (q k : Fin 1024) :
    wts x1 l q k = x1 (ix3 ⟨l, h⟩ q k) := dif_pos h

theorem bias_lt (x2 : FVec Ideal S20x1024 .f32) (l : ℕ) (h : l < 20) (q : Fin 1024) :
    bias x2 l q = x2 (ix2 ⟨l, h⟩ q) := dif_pos h

/-- One more layer of the chain: if f is the chain after n layers, w the weights of layer n and β its bias, then
    the affine expression in them is the chain after n + 1 layers. -/
theorem chain_step {ι κ : Type} [Fintype ι] [Fintype κ] (X : ι → κ → EReal) (W : ℕ → κ → κ → EReal)
    (B : ℕ → κ → EReal) (n : ℕ)
    (f : ι → κ → EReal) (hf : ∀ p k, f p k = Cert.Affine.chain X W B n p k)
    (w : κ → κ → EReal) (hw : ∀ q k, w q k = W n q k) (β : κ → EReal) (hβ : ∀ q, β q = B n q) (p : ι) (q : κ) :
    (∑ k, f p k * w q k) + β q = Cert.Affine.chain X W B (n + 1) p q := by
  simp only [Cert.Affine.chain, Cert.Affine.layer, hf, hw, hβ]

/-! ## Slicing out layer l is within range for every l below 20 -/

theorem slices3 (l : ℕ) (hl : l < 20) : S20x1024x1024.Slices ![l, 0, 0] S1x1024x1024 :=
  ⟨rfl, fun a => match a with
    | ⟨0, _⟩ => by show l + 1 ≤ 20; omega
    | ⟨1, _⟩ => by show 0 + 1024 ≤ 1024; omega
    | ⟨2, _⟩ => by show 0 + 1024 ≤ 1024; omega⟩

theorem slices2 (l : ℕ) (hl : l < 20) : S20x1024.Slices ![l, 0] S1x1024 :=
  ⟨rfl, fun a => match a with
    | ⟨0, _⟩ => by show l + 1 ≤ 20; omega
    | ⟨1, _⟩ => by show 0 + 1024 ≤ 1024; omega⟩

/-! ## The contraction: rows of the left operand against columns of the right -/

theorem dot_lhs_0 (i : S4096x1024.Idx) (c : dot_S4096x1024_S1024x1024_S4096x1024_1_0_0_1_n_n.contr.Idx) :
    (dot_S4096x1024_S1024x1024_S4096x1024_1_0_0_1_n_n.lhsIdx i c 0).val = (i 0).val := by
  unfold DotDims.lhsIdx
  rw [dif_neg (show ¬(0 : Fin S4096x1024.rank) ∈ dot_S4096x1024_S1024x1024_S4096x1024_1_0_0_1_n_n.lhsBatch by decide), dif_pos (show (0 : Fin S4096x1024.rank) ∈ dot_S4096x1024_S1024x1024_S4096x1024_1_0_0_1_n_n.lhsNonContracting by decide)]
  rfl

theorem dot_lhs_1 (i : S4096x1024.Idx) (c : dot_S4096x1024_S1024x1024_S4096x1024_1_0_0_1_n_n.contr.Idx) :
    (dot_S4096x1024_S1024x1024_S4096x1024_1_0_0_1_n_n.lhsIdx i c 1).val = (c ⟨0, by decide⟩).val :=
  dot_S4096x1024_S1024x1024_S4096x1024_1_0_0_1_n_n.lhsIdx_val_of_single rfl i c

theorem dot_rhs_0 (i : S4096x1024.Idx) (c : dot_S4096x1024_S1024x1024_S4096x1024_1_0_0_1_n_n.contr.Idx) :
    (dot_S4096x1024_S1024x1024_S4096x1024_1_0_0_1_n_n.rhsIdx i c 0).val = (c ⟨0, by decide⟩).val :=
  dot_S4096x1024_S1024x1024_S4096x1024_1_0_0_1_n_n.rhsIdx_val_of_single rfl i c

theorem dot_rhs_1 (i : S4096x1024.Idx) (c : dot_S4096x1024_S1024x1024_S4096x1024_1_0_0_1_n_n.contr.Idx) :
    (dot_S4096x1024_S1024x1024_S4096x1024_1_0_0_1_n_n.rhsIdx i c 1).val = (i 1).val := by
  unfold DotDims.rhsIdx
  rw [dif_neg (show ¬(1 : Fin S1024x1024.rank) ∈ dot_S4096x1024_S1024x1024_S4096x1024_1_0_0_1_n_n.rhsBatch by decide), dif_pos (show (1 : Fin S1024x1024.rank) ∈ dot_S4096x1024_S1024x1024_S4096x1024_1_0_0_1_n_n.rhsNonContracting by decide)]
  rfl

/-- The dot_general at the entry (p, q): row p of the left operand against column q of the right. -/
theorem dot_apply (prev : FVec Ideal S4096x1024 .f32) (R : FVec Ideal S1024x1024 .f32) (p : Fin 4096) (q : Fin 1024) :
    Host.dotGeneral dot_S4096x1024_S1024x1024_S4096x1024_1_0_0_1_n_n none prev R (ix2 p q) = ∑ k : Fin 1024, prev (ix2 p k) * R (ix2 k q) := by
  simp only [Host.dotGeneral]
  rw [Ideal.dotGeneral_apply, ← Equiv.sum_comp (ValueIdx.contrEquiv1 dot_S4096x1024_S1024x1024_S4096x1024_1_0_0_1_n_n 1024 rfl rfl).symm]
  refine Finset.sum_congr rfl fun k _ => ?_
  have hk := ValueIdx.contrEquiv1_symm_val dot_S4096x1024_S1024x1024_S4096x1024_1_0_0_1_n_n 1024 rfl rfl k
  have el : dot_S4096x1024_S1024x1024_S4096x1024_1_0_0_1_n_n.lhsIdx (ix2 p q) ((ValueIdx.contrEquiv1 dot_S4096x1024_S1024x1024_S4096x1024_1_0_0_1_n_n 1024 rfl rfl).symm k) = ix2 p k := funext fun a => Fin.ext (by
    match a with
    | ⟨0, _⟩ => exact dot_lhs_0 _ _
    | ⟨1, _⟩ => exact (dot_lhs_1 _ _).trans hk)
  have er : dot_S4096x1024_S1024x1024_S4096x1024_1_0_0_1_n_n.rhsIdx (ix2 p q) ((ValueIdx.contrEquiv1 dot_S4096x1024_S1024x1024_S4096x1024_1_0_0_1_n_n 1024 rfl rfl).symm k) = ix2 k q := funext fun a => Fin.ext (by
    match a with
    | ⟨0, _⟩ => exact (dot_rhs_0 _ _).trans hk
    | ⟨1, _⟩ => exact dot_rhs_1 _ _)
  rw [el, er]

/-! ## The layer's weights and bias, read through the layout operations -/

/-- Slice l of the stacked weights, reshaped to a matrix and transposed, at (k, q) is the stacked weights at (l, q, k). -/
theorem weight_apply {α : Type} (W : S20x1024x1024.Idx → α) (l : ℕ) (hl : l < 20)
    (h3 : S20x1024x1024.Slices ![l, 0, 0] S1x1024x1024) (k q : Fin 1024) :
    transpose S1024x1024 [1, 0] (shapeCast S1024x1024 (extractStridedSlice S1x1024x1024 ![l, 0, 0] W h3) shapeCasts_S1x1024x1024_S1024x1024) transposes_S1024x1024_S1024x1024_1_0 (ix2 k q)
      = W (ix3 ⟨l, hl⟩ q k) := by
  rw [transpose_apply [1, 0] _ transposes_S1024x1024_S1024x1024_1_0 (ix2 k q) (ix2 q k) (fun b => match b with
        | ⟨0, _⟩ => rfl
        | ⟨1, _⟩ => rfl),
      shapeCast_apply _ shapeCasts_S1x1024x1024_S1024x1024 (ix2 q k) (ix3 (⟨0, Nat.one_pos⟩ : Fin 1) q k) (by
        rewrite [Shape.rowMajor_val_three, Shape.rowMajor_val_two]
        show (0 * 1024 + q.val) * 1024 + k.val = q.val * 1024 + k.val
        omega)]
  exact extractStridedSlice_apply ![l, 0, 0] W h3 _ (ix3 ⟨l, hl⟩ q k) (fun a => match a with
    | ⟨0, _⟩ => by show l = l + 0; omega
    | ⟨1, _⟩ => by show q.val = 0 + q.val; omega
    | ⟨2, _⟩ => by show k.val = 0 + k.val; omega)

/-- Slice l of the stacked biases, reshaped to a row and broadcast down the rows, at (p, q) is the stacked biases at (l, q). -/
theorem bias_apply {α : Type} (b : S20x1024.Idx → α) (l : ℕ) (hl : l < 20)
    (h2 : S20x1024.Slices ![l, 0] S1x1024) (p : Fin 4096) (q : Fin 1024) :
    broadcastInDim S4096x1024 ![0, 1] bcast_S1x1024_S4096x1024_0_1 (broadcastInDim S1x1024 ![1] bcast_S1024_S1x1024_1 (shapeCast S1024 (extractStridedSlice S1x1024 ![l, 0] b h2) shapeCasts_S1x1024_S1024)) (ix2 p q)
      = b (ix2 ⟨l, hl⟩ q) := by
  rw [broadcastInDim_apply _ bcast_S1x1024_S4096x1024_0_1 _ (ix2 p q) (ix2 (⟨0, Nat.one_pos⟩ : Fin 1) q) (fun a => match a with
        | ⟨0, _⟩ => by show 0 = if (1 : Nat) = 1 then 0 else p.val; rw [if_pos rfl]
        | ⟨1, _⟩ => by show q.val = if (1024 : Nat) = 1 then 0 else q.val; rw [if_neg (by decide)]),
      broadcastInDim_apply _ bcast_S1024_S1x1024_1 _ (ix2 (⟨0, Nat.one_pos⟩ : Fin 1) q) (ix1 q) (fun a => match a with
        | ⟨0, _⟩ => by show q.val = if (1024 : Nat) = 1 then 0 else q.val; rw [if_neg (by decide)]),
      shapeCast_apply _ shapeCasts_S1x1024_S1024 (ix1 q) (ix2 (⟨0, Nat.one_pos⟩ : Fin 1) q) (by
        rewrite [Shape.rowMajor_val_two, Shape.rowMajor_val_one]
        show 0 * 1024 + q.val = q.val
        omega)]
  exact extractStridedSlice_apply ![l, 0] b h2 _ (ix2 ⟨l, hl⟩ q) (fun a => match a with
    | ⟨0, _⟩ => by show l = l + 0; omega
    | ⟨1, _⟩ => by show q.val = 0 + q.val; omega)

/-! ## One group of nine operations, for a variable layer number -/

/-- The nine operations of layer l applied to the running value prev: the term the reference program builds. -/
def layerTerm (l : ℕ) (h3 : S20x1024x1024.Slices ![l, 0, 0] S1x1024x1024) (h2 : S20x1024.Slices ![l, 0] S1x1024)
    (prev : FVec Ideal S4096x1024 .f32) (W : FVec Ideal S20x1024x1024 .f32) (b : FVec Ideal S20x1024 .f32) :
    FVec Ideal S4096x1024 .f32 :=
  addf
    (Host.dotGeneral dot_S4096x1024_S1024x1024_S4096x1024_1_0_0_1_n_n none prev
      (transpose S1024x1024 [1, 0] (shapeCast S1024x1024 (extractStridedSlice S1x1024x1024 ![l, 0, 0] W h3) shapeCasts_S1x1024x1024_S1024x1024) transposes_S1024x1024_S1024x1024_1_0))
    (broadcastInDim S4096x1024 ![0, 1] bcast_S1x1024_S4096x1024_0_1 (broadcastInDim S1x1024 ![1] bcast_S1024_S1x1024_1 (shapeCast S1024 (extractStridedSlice S1x1024 ![l, 0] b h2) shapeCasts_S1x1024_S1024)))

/-- Layer l at the entry (p, q): the previous value's row p against row q of the layer's weights, plus the layer's
    bias at q. -/
theorem layerTerm_apply (l : ℕ) (hl : l < 20) (h3 : S20x1024x1024.Slices ![l, 0, 0] S1x1024x1024)
    (h2 : S20x1024.Slices ![l, 0] S1x1024) (prev : FVec Ideal S4096x1024 .f32) (W : FVec Ideal S20x1024x1024 .f32)
    (b : FVec Ideal S20x1024 .f32) (p : Fin 4096) (q : Fin 1024) :
    layerTerm l h3 h2 prev W b (ix2 p q)
      = (∑ k : Fin 1024, prev (ix2 p k) * W (ix3 ⟨l, hl⟩ q k)) + b (ix2 ⟨l, hl⟩ q) := by
  unfold layerTerm
  rw [ValueIdx.addf_apply, dot_apply, bias_apply b l hl h2 p q]
  congr 1
  refine Finset.sum_congr rfl fun k _ => ?_
  rw [weight_apply W l hl h3 k q]

/-! ## Twenty groups in a row -/

/-- The running value after the first n layers (n at most 20), as the reference program builds it. -/
def ref (x0 : FVec Ideal S4096x1024 .f32) (x1 : FVec Ideal S20x1024x1024 .f32) (x2 : FVec Ideal S20x1024 .f32) :
    ℕ → FVec Ideal S4096x1024 .f32
  | 0 => x0
  | n + 1 => if h : n < 20 then layerTerm n (slices3 n h) (slices2 n h) (ref x0 x1 x2 n) x1 x2 else ref x0 x1 x2 n

/-- One more layer, with any witnesses of the two slice facts. -/
theorem ref_succ (x0 : FVec Ideal S4096x1024 .f32) (x1 : FVec Ideal S20x1024x1024 .f32) (x2 : FVec Ideal S20x1024 .f32)
    (n : ℕ) (h : n < 20) (h3 : S20x1024x1024.Slices ![n, 0, 0] S1x1024x1024) (h2 : S20x1024.Slices ![n, 0] S1x1024) :
    ref x0 x1 x2 (n + 1) = layerTerm n h3 h2 (ref x0 x1 x2 n) x1 x2 := by
  rw [ref, dif_pos h]

/-- Entry by entry, the running value after n layers is the chain of the first n layers. -/
theorem ref_apply (x0 : FVec Ideal S4096x1024 .f32) (x1 : FVec Ideal S20x1024x1024 .f32) (x2 : FVec Ideal S20x1024 .f32) :
    ∀ n : ℕ, n ≤ 20 → ∀ (p : Fin 4096) (q : Fin 1024),
      ref x0 x1 x2 n (ix2 p q) = Cert.Affine.chain (inp x0) (wts x1) (bias x2) n p q
  | 0, _, _, _ => rfl
  | n + 1, hn, p, q => by
    have h : n < 20 := hn
    rw [ref, dif_pos h, layerTerm_apply n h]
    exact chain_step (inp x0) (wts x1) (bias x2) n (fun p k => ref x0 x1 x2 n (ix2 p k))
      (ref_apply x0 x1 x2 n (Nat.le_of_lt h))
      (fun q k => x1 (ix3 ⟨n, h⟩ q k)) (fun q k => (wts_lt x1 n h q k).symm)
      (fun q => x2 (ix2 ⟨n, h⟩ q)) (fun q => (bias_lt x2 n h q).symm) p q

/-- All twenty layers: the reference's result term, entry by entry, is the chain of twenty layers. -/
theorem ref20_eq_chain (x0 : FVec Ideal S4096x1024 .f32) (x1 : FVec Ideal S20x1024x1024 .f32) (x2 : FVec Ideal S20x1024 .f32)
    (p : Fin 4096) (q : Fin 1024) :
    ref x0 x1 x2 20 (ix2 p q)
      = Cert.Affine.chain (fun p k => x0 (ix2 p k)) (fun l q k => if h : l < 20 then x1 (ix3 ⟨l, h⟩ q k) else 0)
          (fun l q => if h : l < 20 then x2 (ix2 ⟨l, h⟩ q) else 0) 20 p q :=
  ref_apply x0 x1 x2 20 (Nat.le_refl 20) p q

end Cert.ReferenceIdeal.RefValue

end
-- ==== Proof.RefRun.lean ====
import proofs.«155183_g15564961481514_cont_week2b_1535_23_alg».proof.Proof.Gen.ReferenceIdeal
import proofs.«155183_g15564961481514_cont_week2b_1535_23_alg».proof.Proof.RefChain
import Idealize.ShloMosaic.Lib.StableHlo.Run

/-
  The reference program's run, read back. Its 180 operations are cut into twenty lists of nine, one per layer; the
  whole line is their concatenation. After one list the buffer that holds the running value holds the layer term of
  what the previous buffer held, and the three argument buffers are untouched; twenty steps give the running value
  after twenty layers.
-/

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

/-! ## The line, layer by layer -/

/-- Layer 0's nine operations. -/
abbrev L0 : List (HloOp τ sig (Elt F)) :=
  [ unary main_arg1 main_v0 ((extractStridedSlice S1x1024x1024 ![0, 0, 0] · slices_S20x1024x1024_S1x1024x1024_0_0_0) : (⟨S20x1024x1024, .f32⟩ : BufTy).Contents (Elt F) → (⟨S1x1024x1024, .f32⟩ : BufTy).Contents (Elt F)),
    reshape main_v0 main_v1 rfl shapeCasts_S1x1024x1024_S1024x1024,
    unary main_v1 main_v2 ((transpose S1024x1024 [1, 0] · transposes_S1024x1024_S1024x1024_1_0) : (⟨S1024x1024, .f32⟩ : BufTy).Contents (Elt F) → (⟨S1024x1024, .f32⟩ : BufTy).Contents (Elt F)),
    binary main_arg0 main_v2 main_v3 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v4 ((extractStridedSlice S1x1024 ![0, 0] · slices_S20x1024_S1x1024_0_0) : (⟨S20x1024, .f32⟩ : BufTy).Contents (Elt F) → (⟨S1x1024, .f32⟩ : BufTy).Contents (Elt F)),
    reshape main_v4 main_v5 rfl shapeCasts_S1x1024_S1024,
    unary main_v5 main_v6 (broadcastInDim S1x1024 ![1] bcast_S1024_S1x1024_1 : (⟨S1024, .f32⟩ : BufTy).Contents (Elt F) → (⟨S1x1024, .f32⟩ : BufTy).Contents (Elt F)),
    unary main_v6 main_v7 (broadcastInDim S4096x1024 ![0, 1] bcast_S1x1024_S4096x1024_0_1 : (⟨S1x1024, .f32⟩ : BufTy).Contents (Elt F) → (⟨S4096x1024, .f32⟩ : BufTy).Contents (Elt F)),
    binary main_v3 main_v7 main_v8 (addf : (⟨S4096x1024, .f32⟩ : BufTy).Contents (Elt F) → (⟨S4096x1024, .f32⟩ : BufTy).Contents (Elt F) → (⟨S4096x1024, .f32⟩ : BufTy).Contents (Elt F)) ]

/-- Layer 1's nine operations. -/
abbrev L1 : List (HloOp τ sig (Elt F)) :=
  [ unary main_arg1 main_v9 ((extractStridedSlice S1x1024x1024 ![1, 0, 0] · slices_S20x1024x1024_S1x1024x1024_1_0_0) : (⟨S20x1024x1024, .f32⟩ : BufTy).Contents (Elt F) → (⟨S1x1024x1024, .f32⟩ : BufTy).Contents (Elt F)),
    reshape main_v9 main_v10 rfl shapeCasts_S1x1024x1024_S1024x1024,
    unary main_v10 main_v11 ((transpose S1024x1024 [1, 0] · transposes_S1024x1024_S1024x1024_1_0) : (⟨S1024x1024, .f32⟩ : BufTy).Contents (Elt F) → (⟨S1024x1024, .f32⟩ : BufTy).Contents (Elt F)),
    binary main_v8 main_v11 main_v12 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v13 ((extractStridedSlice S1x1024 ![1, 0] · slices_S20x1024_S1x1024_1_0) : (⟨S20x1024, .f32⟩ : BufTy).Contents (Elt F) → (⟨S1x1024, .f32⟩ : BufTy).Contents (Elt F)),
    reshape main_v13 main_v14 rfl shapeCasts_S1x1024_S1024,
    unary main_v14 main_v15 (broadcastInDim S1x1024 ![1] bcast_S1024_S1x1024_1 : (⟨S1024, .f32⟩ : BufTy).Contents (Elt F) → (⟨S1x1024, .f32⟩ : BufTy).Contents (Elt F)),
    unary main_v15 main_v16 (broadcastInDim S4096x1024 ![0, 1] bcast_S1x1024_S4096x1024_0_1 : (⟨S1x1024, .f32⟩ : BufTy).Contents (Elt F) → (⟨S4096x1024, .f32⟩ : BufTy).Contents (Elt F)),
    binary main_v12 main_v16 main_v17 (addf : (⟨S4096x1024, .f32⟩ : BufTy).Contents (Elt F) → (⟨S4096x1024, .f32⟩ : BufTy).Contents (Elt F) → (⟨S4096x1024, .f32⟩ : BufTy).Contents (Elt F)) ]

/-- Layer 2's nine operations. -/
abbrev L2 : List (HloOp τ sig (Elt F)) :=
  [ unary main_arg1 main_v18 ((extractStridedSlice S1x1024x1024 ![2, 0, 0] · slices_S20x1024x1024_S1x1024x1024_2_0_0) : (⟨S20x1024x1024, .f32⟩ : BufTy).Contents (Elt F) → (⟨S1x1024x1024, .f32⟩ : BufTy).Contents (Elt F)),
    reshape main_v18 main_v19 rfl shapeCasts_S1x1024x1024_S1024x1024,
    unary main_v19 main_v20 ((transpose S1024x1024 [1, 0] · transposes_S1024x1024_S1024x1024_1_0) : (⟨S1024x1024, .f32⟩ : BufTy).Contents (Elt F) → (⟨S1024x1024, .f32⟩ : BufTy).Contents (Elt F)),
    binary main_v17 main_v20 main_v21 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v22 ((extractStridedSlice S1x1024 ![2, 0] · slices_S20x1024_S1x1024_2_0) : (⟨S20x1024, .f32⟩ : BufTy).Contents (Elt F) → (⟨S1x1024, .f32⟩ : BufTy).Contents (Elt F)),
    reshape main_v22 main_v23 rfl shapeCasts_S1x1024_S1024,
    unary main_v23 main_v24 (broadcastInDim S1x1024 ![1] bcast_S1024_S1x1024_1 : (⟨S1024, .f32⟩ : BufTy).Contents (Elt F) → (⟨S1x1024, .f32⟩ : BufTy).Contents (Elt F)),
    unary main_v24 main_v25 (broadcastInDim S4096x1024 ![0, 1] bcast_S1x1024_S4096x1024_0_1 : (⟨S1x1024, .f32⟩ : BufTy).Contents (Elt F) → (⟨S4096x1024, .f32⟩ : BufTy).Contents (Elt F)),
    binary main_v21 main_v25 main_v26 (addf : (⟨S4096x1024, .f32⟩ : BufTy).Contents (Elt F) → (⟨S4096x1024, .f32⟩ : BufTy).Contents (Elt F) → (⟨S4096x1024, .f32⟩ : BufTy).Contents (Elt F)) ]

/-- Layer 3's nine operations. -/
abbrev L3 : List (HloOp τ sig (Elt F)) :=
  [ unary main_arg1 main_v27 ((extractStridedSlice S1x1024x1024 ![3, 0, 0] · slices_S20x1024x1024_S1x1024x1024_3_0_0) : (⟨S20x1024x1024, .f32⟩ : BufTy).Contents (Elt F) → (⟨S1x1024x1024, .f32⟩ : BufTy).Contents (Elt F)),
    reshape main_v27 main_v28 rfl shapeCasts_S1x1024x1024_S1024x1024,
    unary main_v28 main_v29 ((transpose S1024x1024 [1, 0] · transposes_S1024x1024_S1024x1024_1_0) : (⟨S1024x1024, .f32⟩ : BufTy).Contents (Elt F) → (⟨S1024x1024, .f32⟩ : BufTy).Contents (Elt F)),
    binary main_v26 main_v29 main_v30 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v31 ((extractStridedSlice S1x1024 ![3, 0] · slices_S20x1024_S1x1024_3_0) : (⟨S20x1024, .f32⟩ : BufTy).Contents (Elt F) → (⟨S1x1024, .f32⟩ : BufTy).Contents (Elt F)),
    reshape main_v31 main_v32 rfl shapeCasts_S1x1024_S1024,
    unary main_v32 main_v33 (broadcastInDim S1x1024 ![1] bcast_S1024_S1x1024_1 : (⟨S1024, .f32⟩ : BufTy).Contents (Elt F) → (⟨S1x1024, .f32⟩ : BufTy).Contents (Elt F)),
    unary main_v33 main_v34 (broadcastInDim S4096x1024 ![0, 1] bcast_S1x1024_S4096x1024_0_1 : (⟨S1x1024, .f32⟩ : BufTy).Contents (Elt F) → (⟨S4096x1024, .f32⟩ : BufTy).Contents (Elt F)),
    binary main_v30 main_v34 main_v35 (addf : (⟨S4096x1024, .f32⟩ : BufTy).Contents (Elt F) → (⟨S4096x1024, .f32⟩ : BufTy).Contents (Elt F) → (⟨S4096x1024, .f32⟩ : BufTy).Contents (Elt F)) ]

/-- Layer 4's nine operations. -/
abbrev L4 : List (HloOp τ sig (Elt F)) :=
  [ unary main_arg1 main_v36 ((extractStridedSlice S1x1024x1024 ![4, 0, 0] · slices_S20x1024x1024_S1x1024x1024_4_0_0) : (⟨S20x1024x1024, .f32⟩ : BufTy).Contents (Elt F) → (⟨S1x1024x1024, .f32⟩ : BufTy).Contents (Elt F)),
    reshape main_v36 main_v37 rfl shapeCasts_S1x1024x1024_S1024x1024,
    unary main_v37 main_v38 ((transpose S1024x1024 [1, 0] · transposes_S1024x1024_S1024x1024_1_0) : (⟨S1024x1024, .f32⟩ : BufTy).Contents (Elt F) → (⟨S1024x1024, .f32⟩ : BufTy).Contents (Elt F)),
    binary main_v35 main_v38 main_v39 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v40 ((extractStridedSlice S1x1024 ![4, 0] · slices_S20x1024_S1x1024_4_0) : (⟨S20x1024, .f32⟩ : BufTy).Contents (Elt F) → (⟨S1x1024, .f32⟩ : BufTy).Contents (Elt F)),
    reshape main_v40 main_v41 rfl shapeCasts_S1x1024_S1024,
    unary main_v41 main_v42 (broadcastInDim S1x1024 ![1] bcast_S1024_S1x1024_1 : (⟨S1024, .f32⟩ : BufTy).Contents (Elt F) → (⟨S1x1024, .f32⟩ : BufTy).Contents (Elt F)),
    unary main_v42 main_v43 (broadcastInDim S4096x1024 ![0, 1] bcast_S1x1024_S4096x1024_0_1 : (⟨S1x1024, .f32⟩ : BufTy).Contents (Elt F) → (⟨S4096x1024, .f32⟩ : BufTy).Contents (Elt F)),
    binary main_v39 main_v43 main_v44 (addf : (⟨S4096x1024, .f32⟩ : BufTy).Contents (Elt F) → (⟨S4096x1024, .f32⟩ : BufTy).Contents (Elt F) → (⟨S4096x1024, .f32⟩ : BufTy).Contents (Elt F)) ]

/-- Layer 5's nine operations. -/
abbrev L5 : List (HloOp τ sig (Elt F)) :=
  [ unary main_arg1 main_v45 ((extractStridedSlice S1x1024x1024 ![5, 0, 0] · slices_S20x1024x1024_S1x1024x1024_5_0_0) : (⟨S20x1024x1024, .f32⟩ : BufTy).Contents (Elt F) → (⟨S1x1024x1024, .f32⟩ : BufTy).Contents (Elt F)),
    reshape main_v45 main_v46 rfl shapeCasts_S1x1024x1024_S1024x1024,
    unary main_v46 main_v47 ((transpose S1024x1024 [1, 0] · transposes_S1024x1024_S1024x1024_1_0) : (⟨S1024x1024, .f32⟩ : BufTy).Contents (Elt F) → (⟨S1024x1024, .f32⟩ : BufTy).Contents (Elt F)),
    binary main_v44 main_v47 main_v48 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v49 ((extractStridedSlice S1x1024 ![5, 0] · slices_S20x1024_S1x1024_5_0) : (⟨S20x1024, .f32⟩ : BufTy).Contents (Elt F) → (⟨S1x1024, .f32⟩ : BufTy).Contents (Elt F)),
    reshape main_v49 main_v50 rfl shapeCasts_S1x1024_S1024,
    unary main_v50 main_v51 (broadcastInDim S1x1024 ![1] bcast_S1024_S1x1024_1 : (⟨S1024, .f32⟩ : BufTy).Contents (Elt F) → (⟨S1x1024, .f32⟩ : BufTy).Contents (Elt F)),
    unary main_v51 main_v52 (broadcastInDim S4096x1024 ![0, 1] bcast_S1x1024_S4096x1024_0_1 : (⟨S1x1024, .f32⟩ : BufTy).Contents (Elt F) → (⟨S4096x1024, .f32⟩ : BufTy).Contents (Elt F)),
    binary main_v48 main_v52 main_v53 (addf : (⟨S4096x1024, .f32⟩ : BufTy).Contents (Elt F) → (⟨S4096x1024, .f32⟩ : BufTy).Contents (Elt F) → (⟨S4096x1024, .f32⟩ : BufTy).Contents (Elt F)) ]

/-- Layer 6's nine operations. -/
abbrev L6 : List (HloOp τ sig (Elt F)) :=
  [ unary main_arg1 main_v54 ((extractStridedSlice S1x1024x1024 ![6, 0, 0] · slices_S20x1024x1024_S1x1024x1024_6_0_0) : (⟨S20x1024x1024, .f32⟩ : BufTy).Contents (Elt F) → (⟨S1x1024x1024, .f32⟩ : BufTy).Contents (Elt F)),
    reshape main_v54 main_v55 rfl shapeCasts_S1x1024x1024_S1024x1024,
    unary main_v55 main_v56 ((transpose S1024x1024 [1, 0] · transposes_S1024x1024_S1024x1024_1_0) : (⟨S1024x1024, .f32⟩ : BufTy).Contents (Elt F) → (⟨S1024x1024, .f32⟩ : BufTy).Contents (Elt F)),
    binary main_v53 main_v56 main_v57 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v58 ((extractStridedSlice S1x1024 ![6, 0] · slices_S20x1024_S1x1024_6_0) : (⟨S20x1024, .f32⟩ : BufTy).Contents (Elt F) → (⟨S1x1024, .f32⟩ : BufTy).Contents (Elt F)),
    reshape main_v58 main_v59 rfl shapeCasts_S1x1024_S1024,
    unary main_v59 main_v60 (broadcastInDim S1x1024 ![1] bcast_S1024_S1x1024_1 : (⟨S1024, .f32⟩ : BufTy).Contents (Elt F) → (⟨S1x1024, .f32⟩ : BufTy).Contents (Elt F)),
    unary main_v60 main_v61 (broadcastInDim S4096x1024 ![0, 1] bcast_S1x1024_S4096x1024_0_1 : (⟨S1x1024, .f32⟩ : BufTy).Contents (Elt F) → (⟨S4096x1024, .f32⟩ : BufTy).Contents (Elt F)),
    binary main_v57 main_v61 main_v62 (addf : (⟨S4096x1024, .f32⟩ : BufTy).Contents (Elt F) → (⟨S4096x1024, .f32⟩ : BufTy).Contents (Elt F) → (⟨S4096x1024, .f32⟩ : BufTy).Contents (Elt F)) ]

/-- Layer 7's nine operations. -/
abbrev L7 : List (HloOp τ sig (Elt F)) :=
  [ unary main_arg1 main_v63 ((extractStridedSlice S1x1024x1024 ![7, 0, 0] · slices_S20x1024x1024_S1x1024x1024_7_0_0) : (⟨S20x1024x1024, .f32⟩ : BufTy).Contents (Elt F) → (⟨S1x1024x1024, .f32⟩ : BufTy).Contents (Elt F)),
    reshape main_v63 main_v64 rfl shapeCasts_S1x1024x1024_S1024x1024,
    unary main_v64 main_v65 ((transpose S1024x1024 [1, 0] · transposes_S1024x1024_S1024x1024_1_0) : (⟨S1024x1024, .f32⟩ : BufTy).Contents (Elt F) → (⟨S1024x1024, .f32⟩ : BufTy).Contents (Elt F)),
    binary main_v62 main_v65 main_v66 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v67 ((extractStridedSlice S1x1024 ![7, 0] · slices_S20x1024_S1x1024_7_0) : (⟨S20x1024, .f32⟩ : BufTy).Contents (Elt F) → (⟨S1x1024, .f32⟩ : BufTy).Contents (Elt F)),
    reshape main_v67 main_v68 rfl shapeCasts_S1x1024_S1024,
    unary main_v68 main_v69 (broadcastInDim S1x1024 ![1] bcast_S1024_S1x1024_1 : (⟨S1024, .f32⟩ : BufTy).Contents (Elt F) → (⟨S1x1024, .f32⟩ : BufTy).Contents (Elt F)),
    unary main_v69 main_v70 (broadcastInDim S4096x1024 ![0, 1] bcast_S1x1024_S4096x1024_0_1 : (⟨S1x1024, .f32⟩ : BufTy).Contents (Elt F) → (⟨S4096x1024, .f32⟩ : BufTy).Contents (Elt F)),
    binary main_v66 main_v70 main_v71 (addf : (⟨S4096x1024, .f32⟩ : BufTy).Contents (Elt F) → (⟨S4096x1024, .f32⟩ : BufTy).Contents (Elt F) → (⟨S4096x1024, .f32⟩ : BufTy).Contents (Elt F)) ]

/-- Layer 8's nine operations. -/
abbrev L8 : List (HloOp τ sig (Elt F)) :=
  [ unary main_arg1 main_v72 ((extractStridedSlice S1x1024x1024 ![8, 0, 0] · slices_S20x1024x1024_S1x1024x1024_8_0_0) : (⟨S20x1024x1024, .f32⟩ : BufTy).Contents (Elt F) → (⟨S1x1024x1024, .f32⟩ : BufTy).Contents (Elt F)),
    reshape main_v72 main_v73 rfl shapeCasts_S1x1024x1024_S1024x1024,
    unary main_v73 main_v74 ((transpose S1024x1024 [1, 0] · transposes_S1024x1024_S1024x1024_1_0) : (⟨S1024x1024, .f32⟩ : BufTy).Contents (Elt F) → (⟨S1024x1024, .f32⟩ : BufTy).Contents (Elt F)),
    binary main_v71 main_v74 main_v75 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v76 ((extractStridedSlice S1x1024 ![8, 0] · slices_S20x1024_S1x1024_8_0) : (⟨S20x1024, .f32⟩ : BufTy).Contents (Elt F) → (⟨S1x1024, .f32⟩ : BufTy).Contents (Elt F)),
    reshape main_v76 main_v77 rfl shapeCasts_S1x1024_S1024,
    unary main_v77 main_v78 (broadcastInDim S1x1024 ![1] bcast_S1024_S1x1024_1 : (⟨S1024, .f32⟩ : BufTy).Contents (Elt F) → (⟨S1x1024, .f32⟩ : BufTy).Contents (Elt F)),
    unary main_v78 main_v79 (broadcastInDim S4096x1024 ![0, 1] bcast_S1x1024_S4096x1024_0_1 : (⟨S1x1024, .f32⟩ : BufTy).Contents (Elt F) → (⟨S4096x1024, .f32⟩ : BufTy).Contents (Elt F)),
    binary main_v75 main_v79 main_v80 (addf : (⟨S4096x1024, .f32⟩ : BufTy).Contents (Elt F) → (⟨S4096x1024, .f32⟩ : BufTy).Contents (Elt F) → (⟨S4096x1024, .f32⟩ : BufTy).Contents (Elt F)) ]

/-- Layer 9's nine operations. -/
abbrev L9 : List (HloOp τ sig (Elt F)) :=
  [ unary main_arg1 main_v81 ((extractStridedSlice S1x1024x1024 ![9, 0, 0] · slices_S20x1024x1024_S1x1024x1024_9_0_0) : (⟨S20x1024x1024, .f32⟩ : BufTy).Contents (Elt F) → (⟨S1x1024x1024, .f32⟩ : BufTy).Contents (Elt F)),
    reshape main_v81 main_v82 rfl shapeCasts_S1x1024x1024_S1024x1024,
    unary main_v82 main_v83 ((transpose S1024x1024 [1, 0] · transposes_S1024x1024_S1024x1024_1_0) : (⟨S1024x1024, .f32⟩ : BufTy).Contents (Elt F) → (⟨S1024x1024, .f32⟩ : BufTy).Contents (Elt F)),
    binary main_v80 main_v83 main_v84 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v85 ((extractStridedSlice S1x1024 ![9, 0] · slices_S20x1024_S1x1024_9_0) : (⟨S20x1024, .f32⟩ : BufTy).Contents (Elt F) → (⟨S1x1024, .f32⟩ : BufTy).Contents (Elt F)),
    reshape main_v85 main_v86 rfl shapeCasts_S1x1024_S1024,
    unary main_v86 main_v87 (broadcastInDim S1x1024 ![1] bcast_S1024_S1x1024_1 : (⟨S1024, .f32⟩ : BufTy).Contents (Elt F) → (⟨S1x1024, .f32⟩ : BufTy).Contents (Elt F)),
    unary main_v87 main_v88 (broadcastInDim S4096x1024 ![0, 1] bcast_S1x1024_S4096x1024_0_1 : (⟨S1x1024, .f32⟩ : BufTy).Contents (Elt F) → (⟨S4096x1024, .f32⟩ : BufTy).Contents (Elt F)),
    binary main_v84 main_v88 main_v89 (addf : (⟨S4096x1024, .f32⟩ : BufTy).Contents (Elt F) → (⟨S4096x1024, .f32⟩ : BufTy).Contents (Elt F) → (⟨S4096x1024, .f32⟩ : BufTy).Contents (Elt F)) ]

/-- Layer 10's nine operations. -/
abbrev L10 : List (HloOp τ sig (Elt F)) :=
  [ unary main_arg1 main_v90 ((extractStridedSlice S1x1024x1024 ![10, 0, 0] · slices_S20x1024x1024_S1x1024x1024_10_0_0) : (⟨S20x1024x1024, .f32⟩ : BufTy).Contents (Elt F) → (⟨S1x1024x1024, .f32⟩ : BufTy).Contents (Elt F)),
    reshape main_v90 main_v91 rfl shapeCasts_S1x1024x1024_S1024x1024,
    unary main_v91 main_v92 ((transpose S1024x1024 [1, 0] · transposes_S1024x1024_S1024x1024_1_0) : (⟨S1024x1024, .f32⟩ : BufTy).Contents (Elt F) → (⟨S1024x1024, .f32⟩ : BufTy).Contents (Elt F)),
    binary main_v89 main_v92 main_v93 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v94 ((extractStridedSlice S1x1024 ![10, 0] · slices_S20x1024_S1x1024_10_0) : (⟨S20x1024, .f32⟩ : BufTy).Contents (Elt F) → (⟨S1x1024, .f32⟩ : BufTy).Contents (Elt F)),
    reshape main_v94 main_v95 rfl shapeCasts_S1x1024_S1024,
    unary main_v95 main_v96 (broadcastInDim S1x1024 ![1] bcast_S1024_S1x1024_1 : (⟨S1024, .f32⟩ : BufTy).Contents (Elt F) → (⟨S1x1024, .f32⟩ : BufTy).Contents (Elt F)),
    unary main_v96 main_v97 (broadcastInDim S4096x1024 ![0, 1] bcast_S1x1024_S4096x1024_0_1 : (⟨S1x1024, .f32⟩ : BufTy).Contents (Elt F) → (⟨S4096x1024, .f32⟩ : BufTy).Contents (Elt F)),
    binary main_v93 main_v97 main_v98 (addf : (⟨S4096x1024, .f32⟩ : BufTy).Contents (Elt F) → (⟨S4096x1024, .f32⟩ : BufTy).Contents (Elt F) → (⟨S4096x1024, .f32⟩ : BufTy).Contents (Elt F)) ]

/-- Layer 11's nine operations. -/
abbrev L11 : List (HloOp τ sig (Elt F)) :=
  [ unary main_arg1 main_v99 ((extractStridedSlice S1x1024x1024 ![11, 0, 0] · slices_S20x1024x1024_S1x1024x1024_11_0_0) : (⟨S20x1024x1024, .f32⟩ : BufTy).Contents (Elt F) → (⟨S1x1024x1024, .f32⟩ : BufTy).Contents (Elt F)),
    reshape main_v99 main_v100 rfl shapeCasts_S1x1024x1024_S1024x1024,
    unary main_v100 main_v101 ((transpose S1024x1024 [1, 0] · transposes_S1024x1024_S1024x1024_1_0) : (⟨S1024x1024, .f32⟩ : BufTy).Contents (Elt F) → (⟨S1024x1024, .f32⟩ : BufTy).Contents (Elt F)),
    binary main_v98 main_v101 main_v102 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v103 ((extractStridedSlice S1x1024 ![11, 0] · slices_S20x1024_S1x1024_11_0) : (⟨S20x1024, .f32⟩ : BufTy).Contents (Elt F) → (⟨S1x1024, .f32⟩ : BufTy).Contents (Elt F)),
    reshape main_v103 main_v104 rfl shapeCasts_S1x1024_S1024,
    unary main_v104 main_v105 (broadcastInDim S1x1024 ![1] bcast_S1024_S1x1024_1 : (⟨S1024, .f32⟩ : BufTy).Contents (Elt F) → (⟨S1x1024, .f32⟩ : BufTy).Contents (Elt F)),
    unary main_v105 main_v106 (broadcastInDim S4096x1024 ![0, 1] bcast_S1x1024_S4096x1024_0_1 : (⟨S1x1024, .f32⟩ : BufTy).Contents (Elt F) → (⟨S4096x1024, .f32⟩ : BufTy).Contents (Elt F)),
    binary main_v102 main_v106 main_v107 (addf : (⟨S4096x1024, .f32⟩ : BufTy).Contents (Elt F) → (⟨S4096x1024, .f32⟩ : BufTy).Contents (Elt F) → (⟨S4096x1024, .f32⟩ : BufTy).Contents (Elt F)) ]

/-- Layer 12's nine operations. -/
abbrev L12 : List (HloOp τ sig (Elt F)) :=
  [ unary main_arg1 main_v108 ((extractStridedSlice S1x1024x1024 ![12, 0, 0] · slices_S20x1024x1024_S1x1024x1024_12_0_0) : (⟨S20x1024x1024, .f32⟩ : BufTy).Contents (Elt F) → (⟨S1x1024x1024, .f32⟩ : BufTy).Contents (Elt F)),
    reshape main_v108 main_v109 rfl shapeCasts_S1x1024x1024_S1024x1024,
    unary main_v109 main_v110 ((transpose S1024x1024 [1, 0] · transposes_S1024x1024_S1024x1024_1_0) : (⟨S1024x1024, .f32⟩ : BufTy).Contents (Elt F) → (⟨S1024x1024, .f32⟩ : BufTy).Contents (Elt F)),
    binary main_v107 main_v110 main_v111 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v112 ((extractStridedSlice S1x1024 ![12, 0] · slices_S20x1024_S1x1024_12_0) : (⟨S20x1024, .f32⟩ : BufTy).Contents (Elt F) → (⟨S1x1024, .f32⟩ : BufTy).Contents (Elt F)),
    reshape main_v112 main_v113 rfl shapeCasts_S1x1024_S1024,
    unary main_v113 main_v114 (broadcastInDim S1x1024 ![1] bcast_S1024_S1x1024_1 : (⟨S1024, .f32⟩ : BufTy).Contents (Elt F) → (⟨S1x1024, .f32⟩ : BufTy).Contents (Elt F)),
    unary main_v114 main_v115 (broadcastInDim S4096x1024 ![0, 1] bcast_S1x1024_S4096x1024_0_1 : (⟨S1x1024, .f32⟩ : BufTy).Contents (Elt F) → (⟨S4096x1024, .f32⟩ : BufTy).Contents (Elt F)),
    binary main_v111 main_v115 main_v116 (addf : (⟨S4096x1024, .f32⟩ : BufTy).Contents (Elt F) → (⟨S4096x1024, .f32⟩ : BufTy).Contents (Elt F) → (⟨S4096x1024, .f32⟩ : BufTy).Contents (Elt F)) ]

/-- Layer 13's nine operations. -/
abbrev L13 : List (HloOp τ sig (Elt F)) :=
  [ unary main_arg1 main_v117 ((extractStridedSlice S1x1024x1024 ![13, 0, 0] · slices_S20x1024x1024_S1x1024x1024_13_0_0) : (⟨S20x1024x1024, .f32⟩ : BufTy).Contents (Elt F) → (⟨S1x1024x1024, .f32⟩ : BufTy).Contents (Elt F)),
    reshape main_v117 main_v118 rfl shapeCasts_S1x1024x1024_S1024x1024,
    unary main_v118 main_v119 ((transpose S1024x1024 [1, 0] · transposes_S1024x1024_S1024x1024_1_0) : (⟨S1024x1024, .f32⟩ : BufTy).Contents (Elt F) → (⟨S1024x1024, .f32⟩ : BufTy).Contents (Elt F)),
    binary main_v116 main_v119 main_v120 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v121 ((extractStridedSlice S1x1024 ![13, 0] · slices_S20x1024_S1x1024_13_0) : (⟨S20x1024, .f32⟩ : BufTy).Contents (Elt F) → (⟨S1x1024, .f32⟩ : BufTy).Contents (Elt F)),
    reshape main_v121 main_v122 rfl shapeCasts_S1x1024_S1024,
    unary main_v122 main_v123 (broadcastInDim S1x1024 ![1] bcast_S1024_S1x1024_1 : (⟨S1024, .f32⟩ : BufTy).Contents (Elt F) → (⟨S1x1024, .f32⟩ : BufTy).Contents (Elt F)),
    unary main_v123 main_v124 (broadcastInDim S4096x1024 ![0, 1] bcast_S1x1024_S4096x1024_0_1 : (⟨S1x1024, .f32⟩ : BufTy).Contents (Elt F) → (⟨S4096x1024, .f32⟩ : BufTy).Contents (Elt F)),
    binary main_v120 main_v124 main_v125 (addf : (⟨S4096x1024, .f32⟩ : BufTy).Contents (Elt F) → (⟨S4096x1024, .f32⟩ : BufTy).Contents (Elt F) → (⟨S4096x1024, .f32⟩ : BufTy).Contents (Elt F)) ]

/-- Layer 14's nine operations. -/
abbrev L14 : List (HloOp τ sig (Elt F)) :=
  [ unary main_arg1 main_v126 ((extractStridedSlice S1x1024x1024 ![14, 0, 0] · slices_S20x1024x1024_S1x1024x1024_14_0_0) : (⟨S20x1024x1024, .f32⟩ : BufTy).Contents (Elt F) → (⟨S1x1024x1024, .f32⟩ : BufTy).Contents (Elt F)),
    reshape main_v126 main_v127 rfl shapeCasts_S1x1024x1024_S1024x1024,
    unary main_v127 main_v128 ((transpose S1024x1024 [1, 0] · transposes_S1024x1024_S1024x1024_1_0) : (⟨S1024x1024, .f32⟩ : BufTy).Contents (Elt F) → (⟨S1024x1024, .f32⟩ : BufTy).Contents (Elt F)),
    binary main_v125 main_v128 main_v129 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v130 ((extractStridedSlice S1x1024 ![14, 0] · slices_S20x1024_S1x1024_14_0) : (⟨S20x1024, .f32⟩ : BufTy).Contents (Elt F) → (⟨S1x1024, .f32⟩ : BufTy).Contents (Elt F)),
    reshape main_v130 main_v131 rfl shapeCasts_S1x1024_S1024,
    unary main_v131 main_v132 (broadcastInDim S1x1024 ![1] bcast_S1024_S1x1024_1 : (⟨S1024, .f32⟩ : BufTy).Contents (Elt F) → (⟨S1x1024, .f32⟩ : BufTy).Contents (Elt F)),
    unary main_v132 main_v133 (broadcastInDim S4096x1024 ![0, 1] bcast_S1x1024_S4096x1024_0_1 : (⟨S1x1024, .f32⟩ : BufTy).Contents (Elt F) → (⟨S4096x1024, .f32⟩ : BufTy).Contents (Elt F)),
    binary main_v129 main_v133 main_v134 (addf : (⟨S4096x1024, .f32⟩ : BufTy).Contents (Elt F) → (⟨S4096x1024, .f32⟩ : BufTy).Contents (Elt F) → (⟨S4096x1024, .f32⟩ : BufTy).Contents (Elt F)) ]

/-- Layer 15's nine operations. -/
abbrev L15 : List (HloOp τ sig (Elt F)) :=
  [ unary main_arg1 main_v135 ((extractStridedSlice S1x1024x1024 ![15, 0, 0] · slices_S20x1024x1024_S1x1024x1024_15_0_0) : (⟨S20x1024x1024, .f32⟩ : BufTy).Contents (Elt F) → (⟨S1x1024x1024, .f32⟩ : BufTy).Contents (Elt F)),
    reshape main_v135 main_v136 rfl shapeCasts_S1x1024x1024_S1024x1024,
    unary main_v136 main_v137 ((transpose S1024x1024 [1, 0] · transposes_S1024x1024_S1024x1024_1_0) : (⟨S1024x1024, .f32⟩ : BufTy).Contents (Elt F) → (⟨S1024x1024, .f32⟩ : BufTy).Contents (Elt F)),
    binary main_v134 main_v137 main_v138 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v139 ((extractStridedSlice S1x1024 ![15, 0] · slices_S20x1024_S1x1024_15_0) : (⟨S20x1024, .f32⟩ : BufTy).Contents (Elt F) → (⟨S1x1024, .f32⟩ : BufTy).Contents (Elt F)),
    reshape main_v139 main_v140 rfl shapeCasts_S1x1024_S1024,
    unary main_v140 main_v141 (broadcastInDim S1x1024 ![1] bcast_S1024_S1x1024_1 : (⟨S1024, .f32⟩ : BufTy).Contents (Elt F) → (⟨S1x1024, .f32⟩ : BufTy).Contents (Elt F)),
    unary main_v141 main_v142 (broadcastInDim S4096x1024 ![0, 1] bcast_S1x1024_S4096x1024_0_1 : (⟨S1x1024, .f32⟩ : BufTy).Contents (Elt F) → (⟨S4096x1024, .f32⟩ : BufTy).Contents (Elt F)),
    binary main_v138 main_v142 main_v143 (addf : (⟨S4096x1024, .f32⟩ : BufTy).Contents (Elt F) → (⟨S4096x1024, .f32⟩ : BufTy).Contents (Elt F) → (⟨S4096x1024, .f32⟩ : BufTy).Contents (Elt F)) ]

/-- Layer 16's nine operations. -/
abbrev L16 : List (HloOp τ sig (Elt F)) :=
  [ unary main_arg1 main_v144 ((extractStridedSlice S1x1024x1024 ![16, 0, 0] · slices_S20x1024x1024_S1x1024x1024_16_0_0) : (⟨S20x1024x1024, .f32⟩ : BufTy).Contents (Elt F) → (⟨S1x1024x1024, .f32⟩ : BufTy).Contents (Elt F)),
    reshape main_v144 main_v145 rfl shapeCasts_S1x1024x1024_S1024x1024,
    unary main_v145 main_v146 ((transpose S1024x1024 [1, 0] · transposes_S1024x1024_S1024x1024_1_0) : (⟨S1024x1024, .f32⟩ : BufTy).Contents (Elt F) → (⟨S1024x1024, .f32⟩ : BufTy).Contents (Elt F)),
    binary main_v143 main_v146 main_v147 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v148 ((extractStridedSlice S1x1024 ![16, 0] · slices_S20x1024_S1x1024_16_0) : (⟨S20x1024, .f32⟩ : BufTy).Contents (Elt F) → (⟨S1x1024, .f32⟩ : BufTy).Contents (Elt F)),
    reshape main_v148 main_v149 rfl shapeCasts_S1x1024_S1024,
    unary main_v149 main_v150 (broadcastInDim S1x1024 ![1] bcast_S1024_S1x1024_1 : (⟨S1024, .f32⟩ : BufTy).Contents (Elt F) → (⟨S1x1024, .f32⟩ : BufTy).Contents (Elt F)),
    unary main_v150 main_v151 (broadcastInDim S4096x1024 ![0, 1] bcast_S1x1024_S4096x1024_0_1 : (⟨S1x1024, .f32⟩ : BufTy).Contents (Elt F) → (⟨S4096x1024, .f32⟩ : BufTy).Contents (Elt F)),
    binary main_v147 main_v151 main_v152 (addf : (⟨S4096x1024, .f32⟩ : BufTy).Contents (Elt F) → (⟨S4096x1024, .f32⟩ : BufTy).Contents (Elt F) → (⟨S4096x1024, .f32⟩ : BufTy).Contents (Elt F)) ]

/-- Layer 17's nine operations. -/
abbrev L17 : List (HloOp τ sig (Elt F)) :=
  [ unary main_arg1 main_v153 ((extractStridedSlice S1x1024x1024 ![17, 0, 0] · slices_S20x1024x1024_S1x1024x1024_17_0_0) : (⟨S20x1024x1024, .f32⟩ : BufTy).Contents (Elt F) → (⟨S1x1024x1024, .f32⟩ : BufTy).Contents (Elt F)),
    reshape main_v153 main_v154 rfl shapeCasts_S1x1024x1024_S1024x1024,
    unary main_v154 main_v155 ((transpose S1024x1024 [1, 0] · transposes_S1024x1024_S1024x1024_1_0) : (⟨S1024x1024, .f32⟩ : BufTy).Contents (Elt F) → (⟨S1024x1024, .f32⟩ : BufTy).Contents (Elt F)),
    binary main_v152 main_v155 main_v156 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v157 ((extractStridedSlice S1x1024 ![17, 0] · slices_S20x1024_S1x1024_17_0) : (⟨S20x1024, .f32⟩ : BufTy).Contents (Elt F) → (⟨S1x1024, .f32⟩ : BufTy).Contents (Elt F)),
    reshape main_v157 main_v158 rfl shapeCasts_S1x1024_S1024,
    unary main_v158 main_v159 (broadcastInDim S1x1024 ![1] bcast_S1024_S1x1024_1 : (⟨S1024, .f32⟩ : BufTy).Contents (Elt F) → (⟨S1x1024, .f32⟩ : BufTy).Contents (Elt F)),
    unary main_v159 main_v160 (broadcastInDim S4096x1024 ![0, 1] bcast_S1x1024_S4096x1024_0_1 : (⟨S1x1024, .f32⟩ : BufTy).Contents (Elt F) → (⟨S4096x1024, .f32⟩ : BufTy).Contents (Elt F)),
    binary main_v156 main_v160 main_v161 (addf : (⟨S4096x1024, .f32⟩ : BufTy).Contents (Elt F) → (⟨S4096x1024, .f32⟩ : BufTy).Contents (Elt F) → (⟨S4096x1024, .f32⟩ : BufTy).Contents (Elt F)) ]

/-- Layer 18's nine operations. -/
abbrev L18 : List (HloOp τ sig (Elt F)) :=
  [ unary main_arg1 main_v162 ((extractStridedSlice S1x1024x1024 ![18, 0, 0] · slices_S20x1024x1024_S1x1024x1024_18_0_0) : (⟨S20x1024x1024, .f32⟩ : BufTy).Contents (Elt F) → (⟨S1x1024x1024, .f32⟩ : BufTy).Contents (Elt F)),
    reshape main_v162 main_v163 rfl shapeCasts_S1x1024x1024_S1024x1024,
    unary main_v163 main_v164 ((transpose S1024x1024 [1, 0] · transposes_S1024x1024_S1024x1024_1_0) : (⟨S1024x1024, .f32⟩ : BufTy).Contents (Elt F) → (⟨S1024x1024, .f32⟩ : BufTy).Contents (Elt F)),
    binary main_v161 main_v164 main_v165 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v166 ((extractStridedSlice S1x1024 ![18, 0] · slices_S20x1024_S1x1024_18_0) : (⟨S20x1024, .f32⟩ : BufTy).Contents (Elt F) → (⟨S1x1024, .f32⟩ : BufTy).Contents (Elt F)),
    reshape main_v166 main_v167 rfl shapeCasts_S1x1024_S1024,
    unary main_v167 main_v168 (broadcastInDim S1x1024 ![1] bcast_S1024_S1x1024_1 : (⟨S1024, .f32⟩ : BufTy).Contents (Elt F) → (⟨S1x1024, .f32⟩ : BufTy).Contents (Elt F)),
    unary main_v168 main_v169 (broadcastInDim S4096x1024 ![0, 1] bcast_S1x1024_S4096x1024_0_1 : (⟨S1x1024, .f32⟩ : BufTy).Contents (Elt F) → (⟨S4096x1024, .f32⟩ : BufTy).Contents (Elt F)),
    binary main_v165 main_v169 main_v170 (addf : (⟨S4096x1024, .f32⟩ : BufTy).Contents (Elt F) → (⟨S4096x1024, .f32⟩ : BufTy).Contents (Elt F) → (⟨S4096x1024, .f32⟩ : BufTy).Contents (Elt F)) ]

/-- Layer 19's nine operations. -/
abbrev L19 : List (HloOp τ sig (Elt F)) :=
  [ unary main_arg1 main_v171 ((extractStridedSlice S1x1024x1024 ![19, 0, 0] · slices_S20x1024x1024_S1x1024x1024_19_0_0) : (⟨S20x1024x1024, .f32⟩ : BufTy).Contents (Elt F) → (⟨S1x1024x1024, .f32⟩ : BufTy).Contents (Elt F)),
    reshape main_v171 main_v172 rfl shapeCasts_S1x1024x1024_S1024x1024,
    unary main_v172 main_v173 ((transpose S1024x1024 [1, 0] · transposes_S1024x1024_S1024x1024_1_0) : (⟨S1024x1024, .f32⟩ : BufTy).Contents (Elt F) → (⟨S1024x1024, .f32⟩ : BufTy).Contents (Elt F)),
    binary main_v170 main_v173 main_v174 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v175 ((extractStridedSlice S1x1024 ![19, 0] · slices_S20x1024_S1x1024_19_0) : (⟨S20x1024, .f32⟩ : BufTy).Contents (Elt F) → (⟨S1x1024, .f32⟩ : BufTy).Contents (Elt F)),
    reshape main_v175 main_v176 rfl shapeCasts_S1x1024_S1024,
    unary main_v176 main_v177 (broadcastInDim S1x1024 ![1] bcast_S1024_S1x1024_1 : (⟨S1024, .f32⟩ : BufTy).Contents (Elt F) → (⟨S1x1024, .f32⟩ : BufTy).Contents (Elt F)),
    unary main_v177 main_v178 (broadcastInDim S4096x1024 ![0, 1] bcast_S1x1024_S4096x1024_0_1 : (⟨S1x1024, .f32⟩ : BufTy).Contents (Elt F) → (⟨S4096x1024, .f32⟩ : BufTy).Contents (Elt F)),
    binary main_v174 main_v178 main_v179 (addf : (⟨S4096x1024, .f32⟩ : BufTy).Contents (Elt F) → (⟨S4096x1024, .f32⟩ : BufTy).Contents (Elt F) → (⟨S4096x1024, .f32⟩ : BufTy).Contents (Elt F)) ]

/-- The whole line: the twenty layers in order. -/
abbrev opsAll : List (HloOp τ sig (Elt F)) :=
  L0 ++ (L1 ++ (L2 ++ (L3 ++ (L4 ++ (L5 ++ (L6 ++ (L7 ++ (L8 ++ (L9 ++ (L10 ++ (L11 ++ (L12 ++ (L13 ++ (L14 ++ (L15 ++ (L16 ++ (L17 ++ (L18 ++ (L19)))))))))))))))))))

set_option maxRecDepth 8192 in
set_option maxHeartbeats 4000000 in
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- The contents after two lines in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem sub0 : (L0 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh0 : (L0 : List (HloOp τ sig (Elt F))).Forall fun op => op.fresh = ∅ :=
  ⟨rfl, rfl, rfl, rfl, rfl, rfl, rfl, rfl, rfl⟩

theorem sub1 : (L1 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh1 : (L1 : List (HloOp τ sig (Elt F))).Forall fun op => op.fresh = ∅ :=
  ⟨rfl, rfl, rfl, rfl, rfl, rfl, rfl, rfl, rfl⟩

theorem sub2 : (L2 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh2 : (L2 : List (HloOp τ sig (Elt F))).Forall fun op => op.fresh = ∅ :=
  ⟨rfl, rfl, rfl, rfl, rfl, rfl, rfl, rfl, rfl⟩

theorem sub3 : (L3 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh3 : (L3 : List (HloOp τ sig (Elt F))).Forall fun op => op.fresh = ∅ :=
  ⟨rfl, rfl, rfl, rfl, rfl, rfl, rfl, rfl, rfl⟩

theorem sub4 : (L4 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh4 : (L4 : List (HloOp τ sig (Elt F))).Forall fun op => op.fresh = ∅ :=
  ⟨rfl, rfl, rfl, rfl, rfl, rfl, rfl, rfl, rfl⟩

theorem sub5 : (L5 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh5 : (L5 : List (HloOp τ sig (Elt F))).Forall fun op => op.fresh = ∅ :=
  ⟨rfl, rfl, rfl, rfl, rfl, rfl, rfl, rfl, rfl⟩

theorem sub6 : (L6 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh6 : (L6 : List (HloOp τ sig (Elt F))).Forall fun op => op.fresh = ∅ :=
  ⟨rfl, rfl, rfl, rfl, rfl, rfl, rfl, rfl, rfl⟩

theorem sub7 : (L7 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh7 : (L7 : List (HloOp τ sig (Elt F))).Forall fun op => op.fresh = ∅ :=
  ⟨rfl, rfl, rfl, rfl, rfl, rfl, rfl, rfl, rfl⟩

theorem sub8 : (L8 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh8 : (L8 : List (HloOp τ sig (Elt F))).Forall fun op => op.fresh = ∅ :=
  ⟨rfl, rfl, rfl, rfl, rfl, rfl, rfl, rfl, rfl⟩

theorem sub9 : (L9 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh9 : (L9 : List (HloOp τ sig (Elt F))).Forall fun op => op.fresh = ∅ :=
  ⟨rfl, rfl, rfl, rfl, rfl, rfl, rfl, rfl, rfl⟩

theorem sub10 : (L10 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh10 : (L10 : List (HloOp τ sig (Elt F))).Forall fun op => op.fresh = ∅ :=
  ⟨rfl, rfl, rfl, rfl, rfl, rfl, rfl, rfl, rfl⟩

theorem sub11 : (L11 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh11 : (L11 : List (HloOp τ sig (Elt F))).Forall fun op => op.fresh = ∅ :=
  ⟨rfl, rfl, rfl, rfl, rfl, rfl, rfl, rfl, rfl⟩

theorem sub12 : (L12 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh12 : (L12 : List (HloOp τ sig (Elt F))).Forall fun op => op.fresh = ∅ :=
  ⟨rfl, rfl, rfl, rfl, rfl, rfl, rfl, rfl, rfl⟩

theorem sub13 : (L13 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh13 : (L13 : List (HloOp τ sig (Elt F))).Forall fun op => op.fresh = ∅ :=
  ⟨rfl, rfl, rfl, rfl, rfl, rfl, rfl, rfl, rfl⟩

theorem sub14 : (L14 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh14 : (L14 : List (HloOp τ sig (Elt F))).Forall fun op => op.fresh = ∅ :=
  ⟨rfl, rfl, rfl, rfl, rfl, rfl, rfl, rfl, rfl⟩

theorem sub15 : (L15 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh15 : (L15 : List (HloOp τ sig (Elt F))).Forall fun op => op.fresh = ∅ :=
  ⟨rfl, rfl, rfl, rfl, rfl, rfl, rfl, rfl, rfl⟩

theorem sub16 : (L16 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh16 : (L16 : List (HloOp τ sig (Elt F))).Forall fun op => op.fresh = ∅ :=
  ⟨rfl, rfl, rfl, rfl, rfl, rfl, rfl, rfl, rfl⟩

theorem sub17 : (L17 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh17 : (L17 : List (HloOp τ sig (Elt F))).Forall fun op => op.fresh = ∅ :=
  ⟨rfl, rfl, rfl, rfl, rfl, rfl, rfl, rfl, rfl⟩

theorem sub18 : (L18 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh18 : (L18 : List (HloOp τ sig (Elt F))).Forall fun op => op.fresh = ∅ :=
  ⟨rfl, rfl, rfl, rfl, rfl, rfl, rfl, rfl, rfl⟩

theorem sub19 : (L19 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem fresh19 : (L19 : List (HloOp τ sig (Elt F))).Forall fun op => op.fresh = ∅ :=
  ⟨rfl, rfl, rfl, rfl, rfl, rfl, rfl, rfl, rfl⟩

theorem ops_sub : (opsAll : List (HloOp τ sig (Elt F))).Forall fun op => op.bufs ⊆ tcRefs τ sig :=
  forall_app sub0 (forall_app sub1 (forall_app sub2 (forall_app sub3 (forall_app sub4 (forall_app sub5 (forall_app sub6 (forall_app sub7 (forall_app sub8 (forall_app sub9 (forall_app sub10 (forall_app sub11 (forall_app sub12 (forall_app sub13 (forall_app sub14 (forall_app sub15 (forall_app sub16 (forall_app sub17 (forall_app sub18 (sub19)))))))))))))))))))

theorem ops_fresh : ∀ op ∈ (opsAll : List (HloOp τ sig (Elt F))), op.fresh = ∅ :=
  List.forall_iff_forall_mem.mp (forall_app fresh0 (forall_app fresh1 (forall_app fresh2 (forall_app fresh3 (forall_app fresh4 (forall_app fresh5 (forall_app fresh6 (forall_app fresh7 (forall_app fresh8 (forall_app fresh9 (forall_app fresh10 (forall_app fresh11 (forall_app fresh12 (forall_app fresh13 (forall_app fresh14 (forall_app fresh15 (forall_app fresh16 (forall_app fresh17 (forall_app fresh18 (fresh19))))))))))))))))))))

/-! ## One layer's list, read back over any contents -/

/-- After layer 0's operations its result buffer holds the layer term of the previous value and the two stacked arguments. -/
theorem value0 (W : Valuation τ sig (Elt Ideal)) :
    after (L0 (F := Ideal)) W (Proc.devRef .tc main_v8)
      = layerTerm 0 slices_S20x1024x1024_S1x1024x1024_0_0_0 slices_S20x1024_S1x1024_0_0
          (W (Proc.devRef .tc main_arg0)) (W (Proc.devRef .tc main_arg1)) (W (Proc.devRef .tc main_arg2)) := by
  after_results <;> rfl

/-- Layer 0's operations leave the three arguments as they were. -/
theorem frame0 (W : Valuation τ sig (Elt Ideal)) :
    after (L0 (F := Ideal)) W (Proc.devRef .tc main_arg0) = W (Proc.devRef .tc main_arg0)
      ∧ after (L0 (F := Ideal)) W (Proc.devRef .tc main_arg1) = W (Proc.devRef .tc main_arg1)
      ∧ after (L0 (F := Ideal)) W (Proc.devRef .tc main_arg2) = W (Proc.devRef .tc main_arg2) := by
  refine ⟨?_, ?_, ?_⟩ <;> (after_results <;> rfl)

/-- Layer 0 as a step: from the running value after 0 layers to the one after 1. -/
theorem step0 (V W : Valuation τ sig (Elt Ideal))
    (h : W (Proc.devRef .tc main_arg0) = ref (V (Proc.devRef .tc main_arg0)) (V (Proc.devRef .tc main_arg1)) (V (Proc.devRef .tc main_arg2)) 0
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L0 (F := Ideal)) W (Proc.devRef .tc main_v8) = ref (V (Proc.devRef .tc main_arg0)) (V (Proc.devRef .tc main_arg1)) (V (Proc.devRef .tc main_arg2)) 1
      ∧ after (L0 (F := Ideal)) W (Proc.devRef .tc main_arg0) = V (Proc.devRef .tc main_arg0)
      ∧ after (L0 (F := Ideal)) W (Proc.devRef .tc main_arg1) = V (Proc.devRef .tc main_arg1)
      ∧ after (L0 (F := Ideal)) W (Proc.devRef .tc main_arg2) = V (Proc.devRef .tc main_arg2) := by
  obtain ⟨h0, ha0, ha1, ha2⟩ := h
  obtain ⟨f0, f1, f2⟩ := frame0 W
  refine ⟨?_, f0.trans ha0, f1.trans ha1, f2.trans ha2⟩
  rw [value0 W, h0, ha1, ha2]
  exact (ref_succ _ _ _ 0 (by decide) _ _).symm

/-- After layer 1's operations its result buffer holds the layer term of the previous value and the two stacked arguments. -/
theorem value1 (W : Valuation τ sig (Elt Ideal)) :
    after (L1 (F := Ideal)) W (Proc.devRef .tc main_v17)
      = layerTerm 1 slices_S20x1024x1024_S1x1024x1024_1_0_0 slices_S20x1024_S1x1024_1_0
          (W (Proc.devRef .tc main_v8)) (W (Proc.devRef .tc main_arg1)) (W (Proc.devRef .tc main_arg2)) := by
  after_results <;> rfl

/-- Layer 1's operations leave the three arguments as they were. -/
theorem frame1 (W : Valuation τ sig (Elt Ideal)) :
    after (L1 (F := Ideal)) W (Proc.devRef .tc main_arg0) = W (Proc.devRef .tc main_arg0)
      ∧ after (L1 (F := Ideal)) W (Proc.devRef .tc main_arg1) = W (Proc.devRef .tc main_arg1)
      ∧ after (L1 (F := Ideal)) W (Proc.devRef .tc main_arg2) = W (Proc.devRef .tc main_arg2) := by
  refine ⟨?_, ?_, ?_⟩ <;> (after_results <;> rfl)

/-- Layer 1 as a step: from the running value after 1 layers to the one after 2. -/
theorem step1 (V W : Valuation τ sig (Elt Ideal))
    (h : W (Proc.devRef .tc main_v8) = ref (V (Proc.devRef .tc main_arg0)) (V (Proc.devRef .tc main_arg1)) (V (Proc.devRef .tc main_arg2)) 1
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L1 (F := Ideal)) W (Proc.devRef .tc main_v17) = ref (V (Proc.devRef .tc main_arg0)) (V (Proc.devRef .tc main_arg1)) (V (Proc.devRef .tc main_arg2)) 2
      ∧ after (L1 (F := Ideal)) W (Proc.devRef .tc main_arg0) = V (Proc.devRef .tc main_arg0)
      ∧ after (L1 (F := Ideal)) W (Proc.devRef .tc main_arg1) = V (Proc.devRef .tc main_arg1)
      ∧ after (L1 (F := Ideal)) W (Proc.devRef .tc main_arg2) = V (Proc.devRef .tc main_arg2) := by
  obtain ⟨h0, ha0, ha1, ha2⟩ := h
  obtain ⟨f0, f1, f2⟩ := frame1 W
  refine ⟨?_, f0.trans ha0, f1.trans ha1, f2.trans ha2⟩
  rw [value1 W, h0, ha1, ha2]
  exact (ref_succ _ _ _ 1 (by decide) _ _).symm

/-- After layer 2's operations its result buffer holds the layer term of the previous value and the two stacked arguments. -/
theorem value2 (W : Valuation τ sig (Elt Ideal)) :
    after (L2 (F := Ideal)) W (Proc.devRef .tc main_v26)
      = layerTerm 2 slices_S20x1024x1024_S1x1024x1024_2_0_0 slices_S20x1024_S1x1024_2_0
          (W (Proc.devRef .tc main_v17)) (W (Proc.devRef .tc main_arg1)) (W (Proc.devRef .tc main_arg2)) := by
  after_results <;> rfl

/-- Layer 2's operations leave the three arguments as they were. -/
theorem frame2 (W : Valuation τ sig (Elt Ideal)) :
    after (L2 (F := Ideal)) W (Proc.devRef .tc main_arg0) = W (Proc.devRef .tc main_arg0)
      ∧ after (L2 (F := Ideal)) W (Proc.devRef .tc main_arg1) = W (Proc.devRef .tc main_arg1)
      ∧ after (L2 (F := Ideal)) W (Proc.devRef .tc main_arg2) = W (Proc.devRef .tc main_arg2) := by
  refine ⟨?_, ?_, ?_⟩ <;> (after_results <;> rfl)

/-- Layer 2 as a step: from the running value after 2 layers to the one after 3. -/
theorem step2 (V W : Valuation τ sig (Elt Ideal))
    (h : W (Proc.devRef .tc main_v17) = ref (V (Proc.devRef .tc main_arg0)) (V (Proc.devRef .tc main_arg1)) (V (Proc.devRef .tc main_arg2)) 2
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L2 (F := Ideal)) W (Proc.devRef .tc main_v26) = ref (V (Proc.devRef .tc main_arg0)) (V (Proc.devRef .tc main_arg1)) (V (Proc.devRef .tc main_arg2)) 3
      ∧ after (L2 (F := Ideal)) W (Proc.devRef .tc main_arg0) = V (Proc.devRef .tc main_arg0)
      ∧ after (L2 (F := Ideal)) W (Proc.devRef .tc main_arg1) = V (Proc.devRef .tc main_arg1)
      ∧ after (L2 (F := Ideal)) W (Proc.devRef .tc main_arg2) = V (Proc.devRef .tc main_arg2) := by
  obtain ⟨h0, ha0, ha1, ha2⟩ := h
  obtain ⟨f0, f1, f2⟩ := frame2 W
  refine ⟨?_, f0.trans ha0, f1.trans ha1, f2.trans ha2⟩
  rw [value2 W, h0, ha1, ha2]
  exact (ref_succ _ _ _ 2 (by decide) _ _).symm

/-- After layer 3's operations its result buffer holds the layer term of the previous value and the two stacked arguments. -/
theorem value3 (W : Valuation τ sig (Elt Ideal)) :
    after (L3 (F := Ideal)) W (Proc.devRef .tc main_v35)
      = layerTerm 3 slices_S20x1024x1024_S1x1024x1024_3_0_0 slices_S20x1024_S1x1024_3_0
          (W (Proc.devRef .tc main_v26)) (W (Proc.devRef .tc main_arg1)) (W (Proc.devRef .tc main_arg2)) := by
  after_results <;> rfl

/-- Layer 3's operations leave the three arguments as they were. -/
theorem frame3 (W : Valuation τ sig (Elt Ideal)) :
    after (L3 (F := Ideal)) W (Proc.devRef .tc main_arg0) = W (Proc.devRef .tc main_arg0)
      ∧ after (L3 (F := Ideal)) W (Proc.devRef .tc main_arg1) = W (Proc.devRef .tc main_arg1)
      ∧ after (L3 (F := Ideal)) W (Proc.devRef .tc main_arg2) = W (Proc.devRef .tc main_arg2) := by
  refine ⟨?_, ?_, ?_⟩ <;> (after_results <;> rfl)

/-- Layer 3 as a step: from the running value after 3 layers to the one after 4. -/
theorem step3 (V W : Valuation τ sig (Elt Ideal))
    (h : W (Proc.devRef .tc main_v26) = ref (V (Proc.devRef .tc main_arg0)) (V (Proc.devRef .tc main_arg1)) (V (Proc.devRef .tc main_arg2)) 3
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L3 (F := Ideal)) W (Proc.devRef .tc main_v35) = ref (V (Proc.devRef .tc main_arg0)) (V (Proc.devRef .tc main_arg1)) (V (Proc.devRef .tc main_arg2)) 4
      ∧ after (L3 (F := Ideal)) W (Proc.devRef .tc main_arg0) = V (Proc.devRef .tc main_arg0)
      ∧ after (L3 (F := Ideal)) W (Proc.devRef .tc main_arg1) = V (Proc.devRef .tc main_arg1)
      ∧ after (L3 (F := Ideal)) W (Proc.devRef .tc main_arg2) = V (Proc.devRef .tc main_arg2) := by
  obtain ⟨h0, ha0, ha1, ha2⟩ := h
  obtain ⟨f0, f1, f2⟩ := frame3 W
  refine ⟨?_, f0.trans ha0, f1.trans ha1, f2.trans ha2⟩
  rw [value3 W, h0, ha1, ha2]
  exact (ref_succ _ _ _ 3 (by decide) _ _).symm

/-- After layer 4's operations its result buffer holds the layer term of the previous value and the two stacked arguments. -/
theorem value4 (W : Valuation τ sig (Elt Ideal)) :
    after (L4 (F := Ideal)) W (Proc.devRef .tc main_v44)
      = layerTerm 4 slices_S20x1024x1024_S1x1024x1024_4_0_0 slices_S20x1024_S1x1024_4_0
          (W (Proc.devRef .tc main_v35)) (W (Proc.devRef .tc main_arg1)) (W (Proc.devRef .tc main_arg2)) := by
  after_results <;> rfl

/-- Layer 4's operations leave the three arguments as they were. -/
theorem frame4 (W : Valuation τ sig (Elt Ideal)) :
    after (L4 (F := Ideal)) W (Proc.devRef .tc main_arg0) = W (Proc.devRef .tc main_arg0)
      ∧ after (L4 (F := Ideal)) W (Proc.devRef .tc main_arg1) = W (Proc.devRef .tc main_arg1)
      ∧ after (L4 (F := Ideal)) W (Proc.devRef .tc main_arg2) = W (Proc.devRef .tc main_arg2) := by
  refine ⟨?_, ?_, ?_⟩ <;> (after_results <;> rfl)

/-- Layer 4 as a step: from the running value after 4 layers to the one after 5. -/
theorem step4 (V W : Valuation τ sig (Elt Ideal))
    (h : W (Proc.devRef .tc main_v35) = ref (V (Proc.devRef .tc main_arg0)) (V (Proc.devRef .tc main_arg1)) (V (Proc.devRef .tc main_arg2)) 4
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L4 (F := Ideal)) W (Proc.devRef .tc main_v44) = ref (V (Proc.devRef .tc main_arg0)) (V (Proc.devRef .tc main_arg1)) (V (Proc.devRef .tc main_arg2)) 5
      ∧ after (L4 (F := Ideal)) W (Proc.devRef .tc main_arg0) = V (Proc.devRef .tc main_arg0)
      ∧ after (L4 (F := Ideal)) W (Proc.devRef .tc main_arg1) = V (Proc.devRef .tc main_arg1)
      ∧ after (L4 (F := Ideal)) W (Proc.devRef .tc main_arg2) = V (Proc.devRef .tc main_arg2) := by
  obtain ⟨h0, ha0, ha1, ha2⟩ := h
  obtain ⟨f0, f1, f2⟩ := frame4 W
  refine ⟨?_, f0.trans ha0, f1.trans ha1, f2.trans ha2⟩
  rw [value4 W, h0, ha1, ha2]
  exact (ref_succ _ _ _ 4 (by decide) _ _).symm

/-- After layer 5's operations its result buffer holds the layer term of the previous value and the two stacked arguments. -/
theorem value5 (W : Valuation τ sig (Elt Ideal)) :
    after (L5 (F := Ideal)) W (Proc.devRef .tc main_v53)
      = layerTerm 5 slices_S20x1024x1024_S1x1024x1024_5_0_0 slices_S20x1024_S1x1024_5_0
          (W (Proc.devRef .tc main_v44)) (W (Proc.devRef .tc main_arg1)) (W (Proc.devRef .tc main_arg2)) := by
  after_results <;> rfl

/-- Layer 5's operations leave the three arguments as they were. -/
theorem frame5 (W : Valuation τ sig (Elt Ideal)) :
    after (L5 (F := Ideal)) W (Proc.devRef .tc main_arg0) = W (Proc.devRef .tc main_arg0)
      ∧ after (L5 (F := Ideal)) W (Proc.devRef .tc main_arg1) = W (Proc.devRef .tc main_arg1)
      ∧ after (L5 (F := Ideal)) W (Proc.devRef .tc main_arg2) = W (Proc.devRef .tc main_arg2) := by
  refine ⟨?_, ?_, ?_⟩ <;> (after_results <;> rfl)

/-- Layer 5 as a step: from the running value after 5 layers to the one after 6. -/
theorem step5 (V W : Valuation τ sig (Elt Ideal))
    (h : W (Proc.devRef .tc main_v44) = ref (V (Proc.devRef .tc main_arg0)) (V (Proc.devRef .tc main_arg1)) (V (Proc.devRef .tc main_arg2)) 5
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L5 (F := Ideal)) W (Proc.devRef .tc main_v53) = ref (V (Proc.devRef .tc main_arg0)) (V (Proc.devRef .tc main_arg1)) (V (Proc.devRef .tc main_arg2)) 6
      ∧ after (L5 (F := Ideal)) W (Proc.devRef .tc main_arg0) = V (Proc.devRef .tc main_arg0)
      ∧ after (L5 (F := Ideal)) W (Proc.devRef .tc main_arg1) = V (Proc.devRef .tc main_arg1)
      ∧ after (L5 (F := Ideal)) W (Proc.devRef .tc main_arg2) = V (Proc.devRef .tc main_arg2) := by
  obtain ⟨h0, ha0, ha1, ha2⟩ := h
  obtain ⟨f0, f1, f2⟩ := frame5 W
  refine ⟨?_, f0.trans ha0, f1.trans ha1, f2.trans ha2⟩
  rw [value5 W, h0, ha1, ha2]
  exact (ref_succ _ _ _ 5 (by decide) _ _).symm

/-- After layer 6's operations its result buffer holds the layer term of the previous value and the two stacked arguments. -/
theorem value6 (W : Valuation τ sig (Elt Ideal)) :
    after (L6 (F := Ideal)) W (Proc.devRef .tc main_v62)
      = layerTerm 6 slices_S20x1024x1024_S1x1024x1024_6_0_0 slices_S20x1024_S1x1024_6_0
          (W (Proc.devRef .tc main_v53)) (W (Proc.devRef .tc main_arg1)) (W (Proc.devRef .tc main_arg2)) := by
  after_results <;> rfl

/-- Layer 6's operations leave the three arguments as they were. -/
theorem frame6 (W : Valuation τ sig (Elt Ideal)) :
    after (L6 (F := Ideal)) W (Proc.devRef .tc main_arg0) = W (Proc.devRef .tc main_arg0)
      ∧ after (L6 (F := Ideal)) W (Proc.devRef .tc main_arg1) = W (Proc.devRef .tc main_arg1)
      ∧ after (L6 (F := Ideal)) W (Proc.devRef .tc main_arg2) = W (Proc.devRef .tc main_arg2) := by
  refine ⟨?_, ?_, ?_⟩ <;> (after_results <;> rfl)

/-- Layer 6 as a step: from the running value after 6 layers to the one after 7. -/
theorem step6 (V W : Valuation τ sig (Elt Ideal))
    (h : W (Proc.devRef .tc main_v53) = ref (V (Proc.devRef .tc main_arg0)) (V (Proc.devRef .tc main_arg1)) (V (Proc.devRef .tc main_arg2)) 6
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L6 (F := Ideal)) W (Proc.devRef .tc main_v62) = ref (V (Proc.devRef .tc main_arg0)) (V (Proc.devRef .tc main_arg1)) (V (Proc.devRef .tc main_arg2)) 7
      ∧ after (L6 (F := Ideal)) W (Proc.devRef .tc main_arg0) = V (Proc.devRef .tc main_arg0)
      ∧ after (L6 (F := Ideal)) W (Proc.devRef .tc main_arg1) = V (Proc.devRef .tc main_arg1)
      ∧ after (L6 (F := Ideal)) W (Proc.devRef .tc main_arg2) = V (Proc.devRef .tc main_arg2) := by
  obtain ⟨h0, ha0, ha1, ha2⟩ := h
  obtain ⟨f0, f1, f2⟩ := frame6 W
  refine ⟨?_, f0.trans ha0, f1.trans ha1, f2.trans ha2⟩
  rw [value6 W, h0, ha1, ha2]
  exact (ref_succ _ _ _ 6 (by decide) _ _).symm

/-- After layer 7's operations its result buffer holds the layer term of the previous value and the two stacked arguments. -/
theorem value7 (W : Valuation τ sig (Elt Ideal)) :
    after (L7 (F := Ideal)) W (Proc.devRef .tc main_v71)
      = layerTerm 7 slices_S20x1024x1024_S1x1024x1024_7_0_0 slices_S20x1024_S1x1024_7_0
          (W (Proc.devRef .tc main_v62)) (W (Proc.devRef .tc main_arg1)) (W (Proc.devRef .tc main_arg2)) := by
  after_results <;> rfl

/-- Layer 7's operations leave the three arguments as they were. -/
theorem frame7 (W : Valuation τ sig (Elt Ideal)) :
    after (L7 (F := Ideal)) W (Proc.devRef .tc main_arg0) = W (Proc.devRef .tc main_arg0)
      ∧ after (L7 (F := Ideal)) W (Proc.devRef .tc main_arg1) = W (Proc.devRef .tc main_arg1)
      ∧ after (L7 (F := Ideal)) W (Proc.devRef .tc main_arg2) = W (Proc.devRef .tc main_arg2) := by
  refine ⟨?_, ?_, ?_⟩ <;> (after_results <;> rfl)

/-- Layer 7 as a step: from the running value after 7 layers to the one after 8. -/
theorem step7 (V W : Valuation τ sig (Elt Ideal))
    (h : W (Proc.devRef .tc main_v62) = ref (V (Proc.devRef .tc main_arg0)) (V (Proc.devRef .tc main_arg1)) (V (Proc.devRef .tc main_arg2)) 7
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L7 (F := Ideal)) W (Proc.devRef .tc main_v71) = ref (V (Proc.devRef .tc main_arg0)) (V (Proc.devRef .tc main_arg1)) (V (Proc.devRef .tc main_arg2)) 8
      ∧ after (L7 (F := Ideal)) W (Proc.devRef .tc main_arg0) = V (Proc.devRef .tc main_arg0)
      ∧ after (L7 (F := Ideal)) W (Proc.devRef .tc main_arg1) = V (Proc.devRef .tc main_arg1)
      ∧ after (L7 (F := Ideal)) W (Proc.devRef .tc main_arg2) = V (Proc.devRef .tc main_arg2) := by
  obtain ⟨h0, ha0, ha1, ha2⟩ := h
  obtain ⟨f0, f1, f2⟩ := frame7 W
  refine ⟨?_, f0.trans ha0, f1.trans ha1, f2.trans ha2⟩
  rw [value7 W, h0, ha1, ha2]
  exact (ref_succ _ _ _ 7 (by decide) _ _).symm

/-- After layer 8's operations its result buffer holds the layer term of the previous value and the two stacked arguments. -/
theorem value8 (W : Valuation τ sig (Elt Ideal)) :
    after (L8 (F := Ideal)) W (Proc.devRef .tc main_v80)
      = layerTerm 8 slices_S20x1024x1024_S1x1024x1024_8_0_0 slices_S20x1024_S1x1024_8_0
          (W (Proc.devRef .tc main_v71)) (W (Proc.devRef .tc main_arg1)) (W (Proc.devRef .tc main_arg2)) := by
  after_results <;> rfl

/-- Layer 8's operations leave the three arguments as they were. -/
theorem frame8 (W : Valuation τ sig (Elt Ideal)) :
    after (L8 (F := Ideal)) W (Proc.devRef .tc main_arg0) = W (Proc.devRef .tc main_arg0)
      ∧ after (L8 (F := Ideal)) W (Proc.devRef .tc main_arg1) = W (Proc.devRef .tc main_arg1)
      ∧ after (L8 (F := Ideal)) W (Proc.devRef .tc main_arg2) = W (Proc.devRef .tc main_arg2) := by
  refine ⟨?_, ?_, ?_⟩ <;> (after_results <;> rfl)

/-- Layer 8 as a step: from the running value after 8 layers to the one after 9. -/
theorem step8 (V W : Valuation τ sig (Elt Ideal))
    (h : W (Proc.devRef .tc main_v71) = ref (V (Proc.devRef .tc main_arg0)) (V (Proc.devRef .tc main_arg1)) (V (Proc.devRef .tc main_arg2)) 8
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L8 (F := Ideal)) W (Proc.devRef .tc main_v80) = ref (V (Proc.devRef .tc main_arg0)) (V (Proc.devRef .tc main_arg1)) (V (Proc.devRef .tc main_arg2)) 9
      ∧ after (L8 (F := Ideal)) W (Proc.devRef .tc main_arg0) = V (Proc.devRef .tc main_arg0)
      ∧ after (L8 (F := Ideal)) W (Proc.devRef .tc main_arg1) = V (Proc.devRef .tc main_arg1)
      ∧ after (L8 (F := Ideal)) W (Proc.devRef .tc main_arg2) = V (Proc.devRef .tc main_arg2) := by
  obtain ⟨h0, ha0, ha1, ha2⟩ := h
  obtain ⟨f0, f1, f2⟩ := frame8 W
  refine ⟨?_, f0.trans ha0, f1.trans ha1, f2.trans ha2⟩
  rw [value8 W, h0, ha1, ha2]
  exact (ref_succ _ _ _ 8 (by decide) _ _).symm

/-- After layer 9's operations its result buffer holds the layer term of the previous value and the two stacked arguments. -/
theorem value9 (W : Valuation τ sig (Elt Ideal)) :
    after (L9 (F := Ideal)) W (Proc.devRef .tc main_v89)
      = layerTerm 9 slices_S20x1024x1024_S1x1024x1024_9_0_0 slices_S20x1024_S1x1024_9_0
          (W (Proc.devRef .tc main_v80)) (W (Proc.devRef .tc main_arg1)) (W (Proc.devRef .tc main_arg2)) := by
  after_results <;> rfl

/-- Layer 9's operations leave the three arguments as they were. -/
theorem frame9 (W : Valuation τ sig (Elt Ideal)) :
    after (L9 (F := Ideal)) W (Proc.devRef .tc main_arg0) = W (Proc.devRef .tc main_arg0)
      ∧ after (L9 (F := Ideal)) W (Proc.devRef .tc main_arg1) = W (Proc.devRef .tc main_arg1)
      ∧ after (L9 (F := Ideal)) W (Proc.devRef .tc main_arg2) = W (Proc.devRef .tc main_arg2) := by
  refine ⟨?_, ?_, ?_⟩ <;> (after_results <;> rfl)

/-- Layer 9 as a step: from the running value after 9 layers to the one after 10. -/
theorem step9 (V W : Valuation τ sig (Elt Ideal))
    (h : W (Proc.devRef .tc main_v80) = ref (V (Proc.devRef .tc main_arg0)) (V (Proc.devRef .tc main_arg1)) (V (Proc.devRef .tc main_arg2)) 9
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L9 (F := Ideal)) W (Proc.devRef .tc main_v89) = ref (V (Proc.devRef .tc main_arg0)) (V (Proc.devRef .tc main_arg1)) (V (Proc.devRef .tc main_arg2)) 10
      ∧ after (L9 (F := Ideal)) W (Proc.devRef .tc main_arg0) = V (Proc.devRef .tc main_arg0)
      ∧ after (L9 (F := Ideal)) W (Proc.devRef .tc main_arg1) = V (Proc.devRef .tc main_arg1)
      ∧ after (L9 (F := Ideal)) W (Proc.devRef .tc main_arg2) = V (Proc.devRef .tc main_arg2) := by
  obtain ⟨h0, ha0, ha1, ha2⟩ := h
  obtain ⟨f0, f1, f2⟩ := frame9 W
  refine ⟨?_, f0.trans ha0, f1.trans ha1, f2.trans ha2⟩
  rw [value9 W, h0, ha1, ha2]
  exact (ref_succ _ _ _ 9 (by decide) _ _).symm

/-- After layer 10's operations its result buffer holds the layer term of the previous value and the two stacked arguments. -/
theorem value10 (W : Valuation τ sig (Elt Ideal)) :
    after (L10 (F := Ideal)) W (Proc.devRef .tc main_v98)
      = layerTerm 10 slices_S20x1024x1024_S1x1024x1024_10_0_0 slices_S20x1024_S1x1024_10_0
          (W (Proc.devRef .tc main_v89)) (W (Proc.devRef .tc main_arg1)) (W (Proc.devRef .tc main_arg2)) := by
  after_results <;> rfl

/-- Layer 10's operations leave the three arguments as they were. -/
theorem frame10 (W : Valuation τ sig (Elt Ideal)) :
    after (L10 (F := Ideal)) W (Proc.devRef .tc main_arg0) = W (Proc.devRef .tc main_arg0)
      ∧ after (L10 (F := Ideal)) W (Proc.devRef .tc main_arg1) = W (Proc.devRef .tc main_arg1)
      ∧ after (L10 (F := Ideal)) W (Proc.devRef .tc main_arg2) = W (Proc.devRef .tc main_arg2) := by
  refine ⟨?_, ?_, ?_⟩ <;> (after_results <;> rfl)

/-- Layer 10 as a step: from the running value after 10 layers to the one after 11. -/
theorem step10 (V W : Valuation τ sig (Elt Ideal))
    (h : W (Proc.devRef .tc main_v89) = ref (V (Proc.devRef .tc main_arg0)) (V (Proc.devRef .tc main_arg1)) (V (Proc.devRef .tc main_arg2)) 10
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L10 (F := Ideal)) W (Proc.devRef .tc main_v98) = ref (V (Proc.devRef .tc main_arg0)) (V (Proc.devRef .tc main_arg1)) (V (Proc.devRef .tc main_arg2)) 11
      ∧ after (L10 (F := Ideal)) W (Proc.devRef .tc main_arg0) = V (Proc.devRef .tc main_arg0)
      ∧ after (L10 (F := Ideal)) W (Proc.devRef .tc main_arg1) = V (Proc.devRef .tc main_arg1)
      ∧ after (L10 (F := Ideal)) W (Proc.devRef .tc main_arg2) = V (Proc.devRef .tc main_arg2) := by
  obtain ⟨h0, ha0, ha1, ha2⟩ := h
  obtain ⟨f0, f1, f2⟩ := frame10 W
  refine ⟨?_, f0.trans ha0, f1.trans ha1, f2.trans ha2⟩
  rw [value10 W, h0, ha1, ha2]
  exact (ref_succ _ _ _ 10 (by decide) _ _).symm

/-- After layer 11's operations its result buffer holds the layer term of the previous value and the two stacked arguments. -/
theorem value11 (W : Valuation τ sig (Elt Ideal)) :
    after (L11 (F := Ideal)) W (Proc.devRef .tc main_v107)
      = layerTerm 11 slices_S20x1024x1024_S1x1024x1024_11_0_0 slices_S20x1024_S1x1024_11_0
          (W (Proc.devRef .tc main_v98)) (W (Proc.devRef .tc main_arg1)) (W (Proc.devRef .tc main_arg2)) := by
  after_results <;> rfl

/-- Layer 11's operations leave the three arguments as they were. -/
theorem frame11 (W : Valuation τ sig (Elt Ideal)) :
    after (L11 (F := Ideal)) W (Proc.devRef .tc main_arg0) = W (Proc.devRef .tc main_arg0)
      ∧ after (L11 (F := Ideal)) W (Proc.devRef .tc main_arg1) = W (Proc.devRef .tc main_arg1)
      ∧ after (L11 (F := Ideal)) W (Proc.devRef .tc main_arg2) = W (Proc.devRef .tc main_arg2) := by
  refine ⟨?_, ?_, ?_⟩ <;> (after_results <;> rfl)

/-- Layer 11 as a step: from the running value after 11 layers to the one after 12. -/
theorem step11 (V W : Valuation τ sig (Elt Ideal))
    (h : W (Proc.devRef .tc main_v98) = ref (V (Proc.devRef .tc main_arg0)) (V (Proc.devRef .tc main_arg1)) (V (Proc.devRef .tc main_arg2)) 11
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L11 (F := Ideal)) W (Proc.devRef .tc main_v107) = ref (V (Proc.devRef .tc main_arg0)) (V (Proc.devRef .tc main_arg1)) (V (Proc.devRef .tc main_arg2)) 12
      ∧ after (L11 (F := Ideal)) W (Proc.devRef .tc main_arg0) = V (Proc.devRef .tc main_arg0)
      ∧ after (L11 (F := Ideal)) W (Proc.devRef .tc main_arg1) = V (Proc.devRef .tc main_arg1)
      ∧ after (L11 (F := Ideal)) W (Proc.devRef .tc main_arg2) = V (Proc.devRef .tc main_arg2) := by
  obtain ⟨h0, ha0, ha1, ha2⟩ := h
  obtain ⟨f0, f1, f2⟩ := frame11 W
  refine ⟨?_, f0.trans ha0, f1.trans ha1, f2.trans ha2⟩
  rw [value11 W, h0, ha1, ha2]
  exact (ref_succ _ _ _ 11 (by decide) _ _).symm

/-- After layer 12's operations its result buffer holds the layer term of the previous value and the two stacked arguments. -/
theorem value12 (W : Valuation τ sig (Elt Ideal)) :
    after (L12 (F := Ideal)) W (Proc.devRef .tc main_v116)
      = layerTerm 12 slices_S20x1024x1024_S1x1024x1024_12_0_0 slices_S20x1024_S1x1024_12_0
          (W (Proc.devRef .tc main_v107)) (W (Proc.devRef .tc main_arg1)) (W (Proc.devRef .tc main_arg2)) := by
  after_results <;> rfl

/-- Layer 12's operations leave the three arguments as they were. -/
theorem frame12 (W : Valuation τ sig (Elt Ideal)) :
    after (L12 (F := Ideal)) W (Proc.devRef .tc main_arg0) = W (Proc.devRef .tc main_arg0)
      ∧ after (L12 (F := Ideal)) W (Proc.devRef .tc main_arg1) = W (Proc.devRef .tc main_arg1)
      ∧ after (L12 (F := Ideal)) W (Proc.devRef .tc main_arg2) = W (Proc.devRef .tc main_arg2) := by
  refine ⟨?_, ?_, ?_⟩ <;> (after_results <;> rfl)

/-- Layer 12 as a step: from the running value after 12 layers to the one after 13. -/
theorem step12 (V W : Valuation τ sig (Elt Ideal))
    (h : W (Proc.devRef .tc main_v107) = ref (V (Proc.devRef .tc main_arg0)) (V (Proc.devRef .tc main_arg1)) (V (Proc.devRef .tc main_arg2)) 12
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L12 (F := Ideal)) W (Proc.devRef .tc main_v116) = ref (V (Proc.devRef .tc main_arg0)) (V (Proc.devRef .tc main_arg1)) (V (Proc.devRef .tc main_arg2)) 13
      ∧ after (L12 (F := Ideal)) W (Proc.devRef .tc main_arg0) = V (Proc.devRef .tc main_arg0)
      ∧ after (L12 (F := Ideal)) W (Proc.devRef .tc main_arg1) = V (Proc.devRef .tc main_arg1)
      ∧ after (L12 (F := Ideal)) W (Proc.devRef .tc main_arg2) = V (Proc.devRef .tc main_arg2) := by
  obtain ⟨h0, ha0, ha1, ha2⟩ := h
  obtain ⟨f0, f1, f2⟩ := frame12 W
  refine ⟨?_, f0.trans ha0, f1.trans ha1, f2.trans ha2⟩
  rw [value12 W, h0, ha1, ha2]
  exact (ref_succ _ _ _ 12 (by decide) _ _).symm

/-- After layer 13's operations its result buffer holds the layer term of the previous value and the two stacked arguments. -/
theorem value13 (W : Valuation τ sig (Elt Ideal)) :
    after (L13 (F := Ideal)) W (Proc.devRef .tc main_v125)
      = layerTerm 13 slices_S20x1024x1024_S1x1024x1024_13_0_0 slices_S20x1024_S1x1024_13_0
          (W (Proc.devRef .tc main_v116)) (W (Proc.devRef .tc main_arg1)) (W (Proc.devRef .tc main_arg2)) := by
  after_results <;> rfl

/-- Layer 13's operations leave the three arguments as they were. -/
theorem frame13 (W : Valuation τ sig (Elt Ideal)) :
    after (L13 (F := Ideal)) W (Proc.devRef .tc main_arg0) = W (Proc.devRef .tc main_arg0)
      ∧ after (L13 (F := Ideal)) W (Proc.devRef .tc main_arg1) = W (Proc.devRef .tc main_arg1)
      ∧ after (L13 (F := Ideal)) W (Proc.devRef .tc main_arg2) = W (Proc.devRef .tc main_arg2) := by
  refine ⟨?_, ?_, ?_⟩ <;> (after_results <;> rfl)

/-- Layer 13 as a step: from the running value after 13 layers to the one after 14. -/
theorem step13 (V W : Valuation τ sig (Elt Ideal))
    (h : W (Proc.devRef .tc main_v116) = ref (V (Proc.devRef .tc main_arg0)) (V (Proc.devRef .tc main_arg1)) (V (Proc.devRef .tc main_arg2)) 13
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L13 (F := Ideal)) W (Proc.devRef .tc main_v125) = ref (V (Proc.devRef .tc main_arg0)) (V (Proc.devRef .tc main_arg1)) (V (Proc.devRef .tc main_arg2)) 14
      ∧ after (L13 (F := Ideal)) W (Proc.devRef .tc main_arg0) = V (Proc.devRef .tc main_arg0)
      ∧ after (L13 (F := Ideal)) W (Proc.devRef .tc main_arg1) = V (Proc.devRef .tc main_arg1)
      ∧ after (L13 (F := Ideal)) W (Proc.devRef .tc main_arg2) = V (Proc.devRef .tc main_arg2) := by
  obtain ⟨h0, ha0, ha1, ha2⟩ := h
  obtain ⟨f0, f1, f2⟩ := frame13 W
  refine ⟨?_, f0.trans ha0, f1.trans ha1, f2.trans ha2⟩
  rw [value13 W, h0, ha1, ha2]
  exact (ref_succ _ _ _ 13 (by decide) _ _).symm

/-- After layer 14's operations its result buffer holds the layer term of the previous value and the two stacked arguments. -/
theorem value14 (W : Valuation τ sig (Elt Ideal)) :
    after (L14 (F := Ideal)) W (Proc.devRef .tc main_v134)
      = layerTerm 14 slices_S20x1024x1024_S1x1024x1024_14_0_0 slices_S20x1024_S1x1024_14_0
          (W (Proc.devRef .tc main_v125)) (W (Proc.devRef .tc main_arg1)) (W (Proc.devRef .tc main_arg2)) := by
  after_results <;> rfl

/-- Layer 14's operations leave the three arguments as they were. -/
theorem frame14 (W : Valuation τ sig (Elt Ideal)) :
    after (L14 (F := Ideal)) W (Proc.devRef .tc main_arg0) = W (Proc.devRef .tc main_arg0)
      ∧ after (L14 (F := Ideal)) W (Proc.devRef .tc main_arg1) = W (Proc.devRef .tc main_arg1)
      ∧ after (L14 (F := Ideal)) W (Proc.devRef .tc main_arg2) = W (Proc.devRef .tc main_arg2) := by
  refine ⟨?_, ?_, ?_⟩ <;> (after_results <;> rfl)

/-- Layer 14 as a step: from the running value after 14 layers to the one after 15. -/
theorem step14 (V W : Valuation τ sig (Elt Ideal))
    (h : W (Proc.devRef .tc main_v125) = ref (V (Proc.devRef .tc main_arg0)) (V (Proc.devRef .tc main_arg1)) (V (Proc.devRef .tc main_arg2)) 14
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L14 (F := Ideal)) W (Proc.devRef .tc main_v134) = ref (V (Proc.devRef .tc main_arg0)) (V (Proc.devRef .tc main_arg1)) (V (Proc.devRef .tc main_arg2)) 15
      ∧ after (L14 (F := Ideal)) W (Proc.devRef .tc main_arg0) = V (Proc.devRef .tc main_arg0)
      ∧ after (L14 (F := Ideal)) W (Proc.devRef .tc main_arg1) = V (Proc.devRef .tc main_arg1)
      ∧ after (L14 (F := Ideal)) W (Proc.devRef .tc main_arg2) = V (Proc.devRef .tc main_arg2) := by
  obtain ⟨h0, ha0, ha1, ha2⟩ := h
  obtain ⟨f0, f1, f2⟩ := frame14 W
  refine ⟨?_, f0.trans ha0, f1.trans ha1, f2.trans ha2⟩
  rw [value14 W, h0, ha1, ha2]
  exact (ref_succ _ _ _ 14 (by decide) _ _).symm

/-- After layer 15's operations its result buffer holds the layer term of the previous value and the two stacked arguments. -/
theorem value15 (W : Valuation τ sig (Elt Ideal)) :
    after (L15 (F := Ideal)) W (Proc.devRef .tc main_v143)
      = layerTerm 15 slices_S20x1024x1024_S1x1024x1024_15_0_0 slices_S20x1024_S1x1024_15_0
          (W (Proc.devRef .tc main_v134)) (W (Proc.devRef .tc main_arg1)) (W (Proc.devRef .tc main_arg2)) := by
  after_results <;> rfl

/-- Layer 15's operations leave the three arguments as they were. -/
theorem frame15 (W : Valuation τ sig (Elt Ideal)) :
    after (L15 (F := Ideal)) W (Proc.devRef .tc main_arg0) = W (Proc.devRef .tc main_arg0)
      ∧ after (L15 (F := Ideal)) W (Proc.devRef .tc main_arg1) = W (Proc.devRef .tc main_arg1)
      ∧ after (L15 (F := Ideal)) W (Proc.devRef .tc main_arg2) = W (Proc.devRef .tc main_arg2) := by
  refine ⟨?_, ?_, ?_⟩ <;> (after_results <;> rfl)

/-- Layer 15 as a step: from the running value after 15 layers to the one after 16. -/
theorem step15 (V W : Valuation τ sig (Elt Ideal))
    (h : W (Proc.devRef .tc main_v134) = ref (V (Proc.devRef .tc main_arg0)) (V (Proc.devRef .tc main_arg1)) (V (Proc.devRef .tc main_arg2)) 15
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L15 (F := Ideal)) W (Proc.devRef .tc main_v143) = ref (V (Proc.devRef .tc main_arg0)) (V (Proc.devRef .tc main_arg1)) (V (Proc.devRef .tc main_arg2)) 16
      ∧ after (L15 (F := Ideal)) W (Proc.devRef .tc main_arg0) = V (Proc.devRef .tc main_arg0)
      ∧ after (L15 (F := Ideal)) W (Proc.devRef .tc main_arg1) = V (Proc.devRef .tc main_arg1)
      ∧ after (L15 (F := Ideal)) W (Proc.devRef .tc main_arg2) = V (Proc.devRef .tc main_arg2) := by
  obtain ⟨h0, ha0, ha1, ha2⟩ := h
  obtain ⟨f0, f1, f2⟩ := frame15 W
  refine ⟨?_, f0.trans ha0, f1.trans ha1, f2.trans ha2⟩
  rw [value15 W, h0, ha1, ha2]
  exact (ref_succ _ _ _ 15 (by decide) _ _).symm

/-- After layer 16's operations its result buffer holds the layer term of the previous value and the two stacked arguments. -/
theorem value16 (W : Valuation τ sig (Elt Ideal)) :
    after (L16 (F := Ideal)) W (Proc.devRef .tc main_v152)
      = layerTerm 16 slices_S20x1024x1024_S1x1024x1024_16_0_0 slices_S20x1024_S1x1024_16_0
          (W (Proc.devRef .tc main_v143)) (W (Proc.devRef .tc main_arg1)) (W (Proc.devRef .tc main_arg2)) := by
  after_results <;> rfl

/-- Layer 16's operations leave the three arguments as they were. -/
theorem frame16 (W : Valuation τ sig (Elt Ideal)) :
    after (L16 (F := Ideal)) W (Proc.devRef .tc main_arg0) = W (Proc.devRef .tc main_arg0)
      ∧ after (L16 (F := Ideal)) W (Proc.devRef .tc main_arg1) = W (Proc.devRef .tc main_arg1)
      ∧ after (L16 (F := Ideal)) W (Proc.devRef .tc main_arg2) = W (Proc.devRef .tc main_arg2) := by
  refine ⟨?_, ?_, ?_⟩ <;> (after_results <;> rfl)

/-- Layer 16 as a step: from the running value after 16 layers to the one after 17. -/
theorem step16 (V W : Valuation τ sig (Elt Ideal))
    (h : W (Proc.devRef .tc main_v143) = ref (V (Proc.devRef .tc main_arg0)) (V (Proc.devRef .tc main_arg1)) (V (Proc.devRef .tc main_arg2)) 16
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L16 (F := Ideal)) W (Proc.devRef .tc main_v152) = ref (V (Proc.devRef .tc main_arg0)) (V (Proc.devRef .tc main_arg1)) (V (Proc.devRef .tc main_arg2)) 17
      ∧ after (L16 (F := Ideal)) W (Proc.devRef .tc main_arg0) = V (Proc.devRef .tc main_arg0)
      ∧ after (L16 (F := Ideal)) W (Proc.devRef .tc main_arg1) = V (Proc.devRef .tc main_arg1)
      ∧ after (L16 (F := Ideal)) W (Proc.devRef .tc main_arg2) = V (Proc.devRef .tc main_arg2) := by
  obtain ⟨h0, ha0, ha1, ha2⟩ := h
  obtain ⟨f0, f1, f2⟩ := frame16 W
  refine ⟨?_, f0.trans ha0, f1.trans ha1, f2.trans ha2⟩
  rw [value16 W, h0, ha1, ha2]
  exact (ref_succ _ _ _ 16 (by decide) _ _).symm

/-- After layer 17's operations its result buffer holds the layer term of the previous value and the two stacked arguments. -/
theorem value17 (W : Valuation τ sig (Elt Ideal)) :
    after (L17 (F := Ideal)) W (Proc.devRef .tc main_v161)
      = layerTerm 17 slices_S20x1024x1024_S1x1024x1024_17_0_0 slices_S20x1024_S1x1024_17_0
          (W (Proc.devRef .tc main_v152)) (W (Proc.devRef .tc main_arg1)) (W (Proc.devRef .tc main_arg2)) := by
  after_results <;> rfl

/-- Layer 17's operations leave the three arguments as they were. -/
theorem frame17 (W : Valuation τ sig (Elt Ideal)) :
    after (L17 (F := Ideal)) W (Proc.devRef .tc main_arg0) = W (Proc.devRef .tc main_arg0)
      ∧ after (L17 (F := Ideal)) W (Proc.devRef .tc main_arg1) = W (Proc.devRef .tc main_arg1)
      ∧ after (L17 (F := Ideal)) W (Proc.devRef .tc main_arg2) = W (Proc.devRef .tc main_arg2) := by
  refine ⟨?_, ?_, ?_⟩ <;> (after_results <;> rfl)

/-- Layer 17 as a step: from the running value after 17 layers to the one after 18. -/
theorem step17 (V W : Valuation τ sig (Elt Ideal))
    (h : W (Proc.devRef .tc main_v152) = ref (V (Proc.devRef .tc main_arg0)) (V (Proc.devRef .tc main_arg1)) (V (Proc.devRef .tc main_arg2)) 17
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L17 (F := Ideal)) W (Proc.devRef .tc main_v161) = ref (V (Proc.devRef .tc main_arg0)) (V (Proc.devRef .tc main_arg1)) (V (Proc.devRef .tc main_arg2)) 18
      ∧ after (L17 (F := Ideal)) W (Proc.devRef .tc main_arg0) = V (Proc.devRef .tc main_arg0)
      ∧ after (L17 (F := Ideal)) W (Proc.devRef .tc main_arg1) = V (Proc.devRef .tc main_arg1)
      ∧ after (L17 (F := Ideal)) W (Proc.devRef .tc main_arg2) = V (Proc.devRef .tc main_arg2) := by
  obtain ⟨h0, ha0, ha1, ha2⟩ := h
  obtain ⟨f0, f1, f2⟩ := frame17 W
  refine ⟨?_, f0.trans ha0, f1.trans ha1, f2.trans ha2⟩
  rw [value17 W, h0, ha1, ha2]
  exact (ref_succ _ _ _ 17 (by decide) _ _).symm

/-- After layer 18's operations its result buffer holds the layer term of the previous value and the two stacked arguments. -/
theorem value18 (W : Valuation τ sig (Elt Ideal)) :
    after (L18 (F := Ideal)) W (Proc.devRef .tc main_v170)
      = layerTerm 18 slices_S20x1024x1024_S1x1024x1024_18_0_0 slices_S20x1024_S1x1024_18_0
          (W (Proc.devRef .tc main_v161)) (W (Proc.devRef .tc main_arg1)) (W (Proc.devRef .tc main_arg2)) := by
  after_results <;> rfl

/-- Layer 18's operations leave the three arguments as they were. -/
theorem frame18 (W : Valuation τ sig (Elt Ideal)) :
    after (L18 (F := Ideal)) W (Proc.devRef .tc main_arg0) = W (Proc.devRef .tc main_arg0)
      ∧ after (L18 (F := Ideal)) W (Proc.devRef .tc main_arg1) = W (Proc.devRef .tc main_arg1)
      ∧ after (L18 (F := Ideal)) W (Proc.devRef .tc main_arg2) = W (Proc.devRef .tc main_arg2) := by
  refine ⟨?_, ?_, ?_⟩ <;> (after_results <;> rfl)

/-- Layer 18 as a step: from the running value after 18 layers to the one after 19. -/
theorem step18 (V W : Valuation τ sig (Elt Ideal))
    (h : W (Proc.devRef .tc main_v161) = ref (V (Proc.devRef .tc main_arg0)) (V (Proc.devRef .tc main_arg1)) (V (Proc.devRef .tc main_arg2)) 18
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L18 (F := Ideal)) W (Proc.devRef .tc main_v170) = ref (V (Proc.devRef .tc main_arg0)) (V (Proc.devRef .tc main_arg1)) (V (Proc.devRef .tc main_arg2)) 19
      ∧ after (L18 (F := Ideal)) W (Proc.devRef .tc main_arg0) = V (Proc.devRef .tc main_arg0)
      ∧ after (L18 (F := Ideal)) W (Proc.devRef .tc main_arg1) = V (Proc.devRef .tc main_arg1)
      ∧ after (L18 (F := Ideal)) W (Proc.devRef .tc main_arg2) = V (Proc.devRef .tc main_arg2) := by
  obtain ⟨h0, ha0, ha1, ha2⟩ := h
  obtain ⟨f0, f1, f2⟩ := frame18 W
  refine ⟨?_, f0.trans ha0, f1.trans ha1, f2.trans ha2⟩
  rw [value18 W, h0, ha1, ha2]
  exact (ref_succ _ _ _ 18 (by decide) _ _).symm

/-- After layer 19's operations its result buffer holds the layer term of the previous value and the two stacked arguments. -/
theorem value19 (W : Valuation τ sig (Elt Ideal)) :
    after (L19 (F := Ideal)) W (Proc.devRef .tc main_v179)
      = layerTerm 19 slices_S20x1024x1024_S1x1024x1024_19_0_0 slices_S20x1024_S1x1024_19_0
          (W (Proc.devRef .tc main_v170)) (W (Proc.devRef .tc main_arg1)) (W (Proc.devRef .tc main_arg2)) := by
  after_results <;> rfl

/-- Layer 19's operations leave the three arguments as they were. -/
theorem frame19 (W : Valuation τ sig (Elt Ideal)) :
    after (L19 (F := Ideal)) W (Proc.devRef .tc main_arg0) = W (Proc.devRef .tc main_arg0)
      ∧ after (L19 (F := Ideal)) W (Proc.devRef .tc main_arg1) = W (Proc.devRef .tc main_arg1)
      ∧ after (L19 (F := Ideal)) W (Proc.devRef .tc main_arg2) = W (Proc.devRef .tc main_arg2) := by
  refine ⟨?_, ?_, ?_⟩ <;> (after_results <;> rfl)

/-- Layer 19 as a step: from the running value after 19 layers to the one after 20. -/
theorem step19 (V W : Valuation τ sig (Elt Ideal))
    (h : W (Proc.devRef .tc main_v170) = ref (V (Proc.devRef .tc main_arg0)) (V (Proc.devRef .tc main_arg1)) (V (Proc.devRef .tc main_arg2)) 19
      ∧ W (Proc.devRef .tc main_arg0) = V (Proc.devRef .tc main_arg0) ∧ W (Proc.devRef .tc main_arg1) = V (Proc.devRef .tc main_arg1) ∧ W (Proc.devRef .tc main_arg2) = V (Proc.devRef .tc main_arg2)) :
    after (L19 (F := Ideal)) W (Proc.devRef .tc main_v179) = ref (V (Proc.devRef .tc main_arg0)) (V (Proc.devRef .tc main_arg1)) (V (Proc.devRef .tc main_arg2)) 20
      ∧ after (L19 (F := Ideal)) W (Proc.devRef .tc main_arg0) = V (Proc.devRef .tc main_arg0)
      ∧ after (L19 (F := Ideal)) W (Proc.devRef .tc main_arg1) = V (Proc.devRef .tc main_arg1)
      ∧ after (L19 (F := Ideal)) W (Proc.devRef .tc main_arg2) = V (Proc.devRef .tc main_arg2) := by
  obtain ⟨h0, ha0, ha1, ha2⟩ := h
  obtain ⟨f0, f1, f2⟩ := frame19 W
  refine ⟨?_, f0.trans ha0, f1.trans ha1, f2.trans ha2⟩
  rw [value19 W, h0, ha1, ha2]
  exact (ref_succ _ _ _ 19 (by decide) _ _).symm

/-! ## The whole line -/

/-- After the whole line the last buffer holds the running value after twenty layers, and the arguments are untouched. -/
theorem read_all (V : Valuation τ sig (Elt Ideal)) :
    after (opsAll (F := Ideal)) V (Proc.devRef .tc main_v179) = ref (V (Proc.devRef .tc main_arg0)) (V (Proc.devRef .tc main_arg1)) (V (Proc.devRef .tc main_arg2)) 20
      ∧ after (opsAll (F := Ideal)) V (Proc.devRef .tc main_arg0) = V (Proc.devRef .tc main_arg0)
      ∧ after (opsAll (F := Ideal)) V (Proc.devRef .tc main_arg1) = V (Proc.devRef .tc main_arg1)
      ∧ after (opsAll (F := Ideal)) V (Proc.devRef .tc main_arg2) = V (Proc.devRef .tc main_arg2) := by
  simp only [after_app]
  exact step19 V _ (step18 V _ (step17 V _ (step16 V _ (step15 V _ (step14 V _ (step13 V _ (step12 V _ (step11 V _ (step10 V _ (step9 V _ (step8 V _ (step7 V _ (step6 V _ (step5 V _ (step4 V _ (step3 V _ (step2 V _ (step1 V _ (step0 V V ⟨rfl, rfl, rfl, rfl⟩)))))))))))))))))))

/-- On every device, from any memory with zero counters: every weakly fair execution of the reference program
    terminates with its result buffer at the running value after twenty layers of the arguments' launch contents, and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v179)
        = ref (m ((c.tc : Thread nD τ).loc main_arg0)) (m ((c.tc : Thread nD τ).loc main_arg1)) (m ((c.tc : Thread nD τ).loc main_arg2)) 20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v179).trans (read_all (launchContents m c)).1,
       (h c main_arg0).trans (read_all (launchContents m c)).2.1,
       (h c main_arg1).trans (read_all (launchContents m c)).2.2.1,
       (h c main_arg2).trans (read_all (launchContents m c)).2.2.2⟩)
    (run_seq scopedRefs_eq scopedSems_eq defs main (fun _ => opsAll) main_eq (fun _ => ops_sub) m ρ (fun _ => ops_fresh))

end Cert.ReferenceIdeal.RefValue

end
-- ==== Proof.Finite.lean ====
/-
  Finiteness of the inputs.

  The precondition says, of each of the three input arrays, that every entry has absolute value below plus infinity,
  all these comparisons joined by "and".  On the extended reals the absolute value of an entry a is max a (-a); it is
  plus infinity exactly when a is one of the two infinities.  So each entry of each array is a real number.
-/
import proofs.«155183_g15564961481514_cont_week2b_1535_23_alg».proof.Pre_finite_inputs
import Idealize.ShloMosaic.PureOps.Ideal
import Idealize.ShloMosaic.PureOps.Ideal.Laws
import Idealize.ShloMosaic.Lib.Affine
import Idealize.ShloMosaic.Lib.ReduceAll
import Idealize.ShloMosaic.Lib.ValueIdx

noncomputable section

namespace Cert.Finite

open Idealize.ShloMosaic Idealize.ShloMosaic.ValueIdx
open Cert.Pre_finite_inputs

/-- The shape with no axis has one index. -/
instance subsingleton_S_ : Subsingleton S_.Idx := ⟨fun _ _ => funext fun d => d.elim0⟩

/-- The word of plus infinity denotes the top element. -/
theorem ofBits_inf : Ideal.ofBits .f32 0x7F800000#32 = ⊤ := by simp [Ideal.ofBits, Ideal.ieee]

/-- An extended real whose absolute value is below plus infinity is a real number. -/
theorem real_of_abs_lt (a : EReal)
    (h : Ideal.cmp .olt (max a (-a)) (Ideal.ofBits .f32 0x7F800000#32) = 1#1) : ∃ r : ℝ, a = (r : EReal) := by
  rw [ofBits_inf] at h
  unfold Ideal.cmp at h
  have hlt : max a (-a) < ⊤ := by
    by_contra hn
    simp [hn] at h
  induction a using EReal.rec with
  | bot => simp at hlt
  | coe r => exact ⟨r, rfl⟩
  | top => simp at hlt

/-- One array: if the "and" over all entries of "absolute value below plus infinity" is true, every entry is real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) (i : s.Idx) : ∃ r : ℝ, x i = (r : EReal) :=
  real_of_abs_lt (x i) (Host.reduce_andi_all _ _ hr hu ix0 e i)

variable [Facts]

/-- Under the precondition every entry of the three input arrays is a real number. -/
theorem real_of_pre (x : FVec Ideal S4096x1024 .f32) (W : FVec Ideal S20x1024x1024 .f32) (b : FVec Ideal S20x1024 .f32)
    (h : fn (F := Ideal) x W b = (fun _ => 1#1)) :
    (∀ i, ∃ r : ℝ, x i = (r : EReal)) ∧ (∀ i, ∃ r : ℝ, W i = (r : EReal)) ∧ (∀ i, ∃ r : ℝ, b i = (r : EReal)) := by
  have h0 := congrFun h ix0
  dsimp only [fn] at h0
  change IntOp.andi (IntOp.andi _ _) _ = 1#1 at h0
  obtain ⟨h01, h2⟩ := IntOp.andi_eq_one.1 h0
  obtain ⟨h00, h1⟩ := IntOp.andi_eq_one.1 h01
  exact ⟨all_real x _ _ _ h00, all_real W _ _ _ h1, all_real b _ _ _ h2⟩

end Cert.Finite

end
-- ==== Proof.lean ====
/-
  The kernel composes twenty affine layers  h ↦ h · Wₗᵀ + bₗ  into one affine map before it touches the rows:
  at the first grid point it builds the augmented accumulator [Q; c] from layers 0 to 3 (Q = W₀ᵀ·W₁ᵀ·W₂ᵀ·W₃ᵀ, c the
  bias of layer 0 carried through layers 1 to 3), at grid points 1 to 4 it folds four more layers each into it
  (Q ← Q · Wₗᵀ, c ← c · Wₗᵀ + bₗ), and at grid points 5 to 8 it writes the tile  x · Q + c  of 1024 rows. The
  reference applies the twenty layers to the rows one after the other. On the extended reals the two agree
  because every input is finite: then all entries are real numbers, and in ℝ a chain of affine maps is the affine
  map of the composed matrix and offset (associativity of the matrix product and distributivity over the bias).

  The frames of the two kernel programs are proved by hand (two of the kernel's arrays are each read through
  four windows, so each is held in four shares); the reference's run is read layer by layer; the kernel's output
  array is the blocks its last four grid points write back, which tile it.
-/
import proofs.«155183_g15564961481514_cont_week2b_1535_23_alg».proof.Defs
import proofs.«155183_g15564961481514_cont_week2b_1535_23_alg».proof.Proof.Gen.Kernel
import proofs.«155183_g15564961481514_cont_week2b_1535_23_alg».proof.Proof.Gen.KernelIdeal
import proofs.«155183_g15564961481514_cont_week2b_1535_23_alg».proof.Proof.Gen.ReferenceIdeal
import proofs.«155183_g15564961481514_cont_week2b_1535_23_alg».proof.Proof.Gen.Pre_finite_inputs
import proofs.«155183_g15564961481514_cont_week2b_1535_23_alg».proof.Proof.K.Frame
import proofs.«155183_g15564961481514_cont_week2b_1535_23_alg».proof.Proof.KI.Value2
import proofs.«155183_g15564961481514_cont_week2b_1535_23_alg».proof.Proof.RefRun
import proofs.«155183_g15564961481514_cont_week2b_1535_23_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs to the end and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Both idealized programs end with the chain of the twenty layers applied to the rows: the reference by its run
    read layer by layer, the kernel by its output array's closed form, which needs the inputs real. -/
theorem algebraic : Cert.algebraic_KernelIdeal_ReferenceIdeal := by
  intro m ρ m' ρ' hpre hagree
  have hreal := fun c => Cert.Finite.real_of_pre _ _ _ (hpre c)
  refine ⟨fun c => Cert.KernelIdeal.Fr.G m c, Cert.KernelIdeal.Fr.value_run m ρ hreal, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  funext i
  obtain ⟨p, q, rfl⟩ : ∃ (p : Fin 4096) (q : Fin 1024), i = ix2 p q := ⟨i 0, i 1, eq_ix2 i⟩
  exact Cert.ReferenceIdeal.RefValue.ref20_eq_chain _ _ _ p q

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
